-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x3 : Shape := ⟨3, ![4, 512, 3]⟩
abbrev S64x6 : Shape := ⟨2, ![64, 6]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S40x256 : Shape := ⟨2, ![40, 256]⟩
abbrev S40 : Shape := ⟨1, ![40]⟩
abbrev S_ : Shape := ⟨0, ![]⟩

class Facts : Prop where
  bcast_S_S4x512x3 : S_.BroadcastsInDim S4x512x3 (![] : Fin 0 → Fin S4x512x3.rank)
  reducesTo_S4x512x3_S_d0_1_2 : S4x512x3.ReducesTo [0, 1, 2] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40x256 .f32) (main_arg12 : FVec F S40 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S40x256 .f32 := Host.absf main_arg11
  let main_cst_20 : FVec F S_ .f32 := constant S_ .f32 0x7F800000#32
  let main_v55 : FVec F S40x256 .f32 := broadcastInDim S40x256 ![] bcast_S_S40x256 main_cst_20
  let main_v56 : IVec S40x256 1 := cmpf .olt main_v54 main_v55
  let main_c_21 : IVec S_ 1 := constantI S_ 1 1#1
  let main_v57 : IVec S_ 1 := (fun x v => Host.reduce IntOp.andi x v reducesTo_S40x256_S_d0_1 h_S_) main_v56 main_c_21
  let main_v58 : IVec S_ 1 := andi main_v53 main_v57
  let main_v59 : FVec F S40 .f32 := Host.absf main_arg12
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg7 : FVec F S512x256 .f32) (main_arg8 : FVec F S512 .f32) (main_arg9 : FVec F S256x512 .f32) (main_arg10 : FVec F S256 .f32) (main_arg11 : FVec F S40x256 .f32) (main_arg12 : FVec F S40 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S128 .f32) (main_arg5 : FVec F S256x128 .f32) (main_arg6 : FVec F S256 .f32) (main_arg7 : FVec F S512x256 .f32) (main_arg8 : FVec F S512 .f32) (main_arg9 : FVec F S256x512 .f32) (main_arg10 : FVec F S256 .f32) (main_arg11 : FVec F S40x256 .f32) (main_arg12 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x512x3 .f32) (main_arg1 : FVec F S64x6 .f32) (main_arg2 : FVec F S64 .f32) (main_arg3 : FVec F S128x64 .f32) (main_arg4 : FVec F S128 .f32) (main_arg5 : FVec F S256x128 .f32) (main_arg6 : FVec F S256 .f32) (main_arg7 : FVec F S512x256 .f32) (main_arg8 : FVec F S512 .f32) (main_arg9 : FVec F S256x512 .f32) (main_arg10 : FVec F S256 .f32) (main_arg11 : FVec F S40x256 .f32) (main_arg12 : FVec F S40 .f32) : IVec S_ 1 :=
  let main_v0 : FVec F S4x512x3 .f32 := Host.absf main_arg0
  let main_cst : FVec F S_ .f32 := constant S_ .f32 0x7F800000#32
  let main_v1 : FVec F S4x512x3 .f32 := broadcastInDim S4x512x3 ![] bcast_S_S4x512x3 main_cst
  let main_v2 : IVec S4x512x3 1 := cmpf .olt main_v0 main_v1
  let main_c : IVec S_ 1 := constantI S_ 1 1#1
  let main_v3 : IVec S_ 1 := (fun x v => Host.reduce IntOp.andi x v reducesTo_S4x512x3_S_d0_1_2 h_S_) main_v2 main_c
  let main_v4 : FVec F S64x6 .f32 := Host.absf main_arg1
  let main_cst_0 : FVec F S_ .f32 := constant S_ .f32 0x7F800000#32
  let main_v5 : FVec F S64x6 .f32 := broadcastInDim S64x6 ![] bcast_S_S64x6 main_cst_0
  let main_v6 : IVec S64x6 1 := cmpf .olt main_v4 main_v5
  let main_c_1 : IVec S_ 1 := constantI S_ 1 1#1
  let main_v7 : IVec S_ 1 := (fun x v => Host.reduce IntOp.andi x v reducesTo_S64x6_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_v13 main_v16
-- ==== Kernel.lean ====
abbrev S4x512x3 : Shape := ⟨3, ![4, 512, 3]⟩
abbrev S64x6 : Shape := ⟨2, ![64, 6]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S40x256 : Shape := ⟨2, ![40, 256]⟩
abbrev S40 : Shape := ⟨1, ![40]⟩
abbrev S4x4x128x3 : Shape := ⟨4, ![4, 4, 128, 3]⟩
abbrev S16x128x3 : Shape := ⟨3, ![16, 128, 3]⟩
abbrev S64x3 : Shape := ⟨2, ![64, 3]⟩
abbrev S16x1x40 : Shape := ⟨3, ![16, 1, 40]⟩
abbrev S1x128x3 : Shape := ⟨3, ![1, 128, 3]⟩
abbrev S1x32x3 : Shape := ⟨3, ![1, 32, 3]⟩
abbrev S1x1x40 : Shape := ⟨3, ![1, 1, 40]⟩
abbrev S256x1 : Shape := ⟨2, ![256, 1]⟩
abbrev S128x3 : Shape := ⟨2, ![128, 3]⟩
abbrev S32x3 : Shape := ⟨2, ![32, 3]⟩
abbrev S3x128 : Shape := ⟨2, ![3, 128]⟩
abbrev S3x32 : Shape := ⟨2, ![3, 32]⟩
abbrev S64x128 : Shape := ⟨2, ![64, 128]⟩
abbrev S64x32 : Shape := ⟨2, ![64, 32]⟩
abbrev S64x1x128 : Shape := ⟨3, ![64, 1, 128]⟩
abbrev S64x32x1 : Shape := ⟨3, ![64, 32, 1]⟩
abbrev S64x32x128 : Shape := ⟨3, ![64, 32, 128]⟩
abbrev S64x1x1 : Shape := ⟨3, ![64, 1, 1]⟩
abbrev S64x4096 : Shape := ⟨2, ![64, 4096]⟩
abbrev S128x4096 : Shape := ⟨2, ![128, 4096]⟩
abbrev S128x1 : Shape := ⟨2, ![128, 1]⟩
abbrev S256x4096 : Shape := ⟨2, ![256, 4096]⟩
abbrev S512x1 : Shape := ⟨2, ![512, 1]⟩
abbrev S40x1 : Shape := ⟨2, ![40, 1]⟩
abbrev S4x4x40 : Shape := ⟨3, ![4, 4, 40]⟩
abbrev S_ : Shape := ⟨0, ![]⟩
abbrev S4x40 : Shape := ⟨2, ![4, 40]⟩

abbrev nBuf : Space → Nat
  | .hbm => 21
  | .vmem => 20
  | .smem => 0
  | _ => 0

abbrev bufTy : (tb : Table) → Fin (tcTables nBuf tb) → BufTy
  | .hbm, ⟨0, _⟩ => ⟨S4x512x3, .f32⟩
  | .hbm, ⟨1, _⟩ => ⟨S64x6, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x512, .f32⟩
  | .hbm, ⟨10, _⟩ => ⟨S256, .f32⟩
  | .hbm, ⟨11, _⟩ => ⟨S40x256, .f32⟩
  | .hbm, ⟨12, _⟩ => ⟨S40, .f32⟩
  | .hbm, ⟨13, _⟩ => ⟨S4x4x128x3, .f32⟩
  | .hbm, ⟨14, _⟩ => ⟨S16x128x3, .f32⟩
  | .hbm, ⟨15, _⟩ => ⟨S64x3, .f32⟩
  | .hbm, ⟨16, _⟩ => ⟨S64x3, .f32⟩
  | .hbm, ⟨17, _⟩ => ⟨S16x1x40, .f32⟩
  | .hbm, ⟨18, _⟩ => ⟨S4x4x40, .f32⟩
  | .hbm, ⟨19, _⟩ => ⟨S_, .f32⟩
  | .hbm, ⟨20, _⟩ => ⟨S4x40, .f32⟩
  | .local _ .vmem, ⟨0, _⟩ => ⟨S1x128x3, .f32⟩
  | .local _ .vmem, ⟨1, _⟩ => ⟨S1x128x3, .f32⟩
  | .local _ .vmem, ⟨2, _⟩ => ⟨S1x32x3, .f32⟩
  | .local _ .vmem, ⟨3, _⟩ => ⟨S1x32x3, .f32⟩
  | .local _ .vmem, ⟨4, _⟩ => ⟨S64x3, .f32⟩
  | .local _ .vmem, ⟨5, _⟩ => ⟨S64x3, .f32⟩
  | .local _ .vmem, ⟨6, _⟩ => ⟨S64, .f32⟩
  | .local _ .vmem, ⟨7, _⟩ => ⟨S128x64, .f32⟩
  | .local _ .vmem, ⟨8, _⟩ => ⟨S128, .f32⟩
  | .local _ .vmem, ⟨9, _⟩ => ⟨S256x128, .f32⟩
  | .local _ .vmem, ⟨10, _⟩ => ⟨S256, .f32⟩
  | .local _ .vmem, ⟨11, _⟩ => ⟨S512x256, .f32⟩
  | .local _ .vmem, ⟨12, _⟩ => ⟨S512, .f32⟩
  | .local _ .vmem, ⟨13, _⟩ => ⟨S256x512, .f32⟩
  | .local _ .vmem, ⟨14, _⟩ => ⟨S256, .f32⟩
  | .local _ .vmem, ⟨15, _⟩ => ⟨S40x256, .f32⟩
  | .local _ .vmem, ⟨16, _⟩ => ⟨S40, .f32⟩
  | .local _ .vmem, ⟨17, _⟩ => ⟨S1x1x40, .f32⟩
  | .local _ .vmem, ⟨18, _⟩ => ⟨S1x1x40, .f32⟩
  | .local _ .vmem, ⟨19, _⟩ => ⟨S256x1, .f32⟩
  | _, _ => ⟨S4x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_27 : BitVec 32 := 0#32
  let v58 : BitVec 1 := Scalar.cmpi .ne v57 c0_i32_27
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S40x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S40 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x40 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  shapeCasts_S4x512x3_S4x4x128x3 : S4x512x3.ShapeCasts S4x4x128x3
  shapeCasts_S4x4x128x3_S16x128x3 : S4x4x128x3.ShapeCasts S16x128x3
  slices_S64x6_S64x3_0_0 : S64x6.Slices ![0, 0] S64x3
  slices_S64x6_S64x3_0_3 : S64x6.Slices ![0, 3] S64x3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x32x3_S1x32x3_0_0_0 : ∀ a, (![0, 0, 0] : Fin 3 → Nat) a + S1x32x3.size a ≤ S1x32x3.size a
  h_S1x32x3 : 0 < S1x32x3.numel
  shapeCasts_S1x32x3_S32x3 : S1x32x3.ShapeCasts S32x3
  transposes_S128x3_p1_0_S3x128 : S128x3.Transposes [1, 0] S3x128
  bitsLt_bf16_f32 : FTy.bits .bf16 < FTy.bits .f32
  transposes_S32x3_p1_0_S3x32 : S32x3.Transposes [1, 0] S3x32
  inb_S64x3_S64x3_0_0 : ∀ a, (![0, 0] : Fin 2 → Nat) a + S64x3.size a ≤ S64x3.size a
  h_S64x3 : 0 < S64x3.numel
  shapeCasts_S64x3_S64x3 : S64x3.ShapeCasts S64x3
  shapeCasts_S64x128_S64x1x128 : S64x128.ShapeCasts S64x1x128
  shapeCasts_S64x32_S64x32x1 : S64x32.ShapeCasts S64x32x1
  broadcasts_S64x1x128_S64x32x128 : S64x1x128.Broadcasts S64x32x128
  broadcasts_S64x32x1_S64x32x128 : S64x32x1.Broadcasts S64x32x128
  inb_S64_S64_0 : ∀ a, (![0] : Fin 1 → Nat) a + S64.size a ≤ S64.size a
  h_S64 : 0 < S64.numel
  shapeCasts_S64_S64x1x1 : S64.ShapeCasts S64x1x1
  broadcasts_S64x1x1_S64x32x128 : S64x1x1.Broadcasts S64x32x128
  shapeCasts_S64x32x128_S64x4096 : S64x32x128.ShapeCasts S64x4096
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S128x1 : S128.ShapeCasts S128x1
  broadcasts_S128x1_S128x4096 : S128x1.Broadcasts S128x4096
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  reduces_S256x4096_S256 : S256x4096.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x256_S512x256_0_0 : ∀ a, (![0, 0] : Fin 2 → Nat) a + S512x256.size a ≤ S512x256.size a
  h_S512x256 : 0 < S512x256.numel
  inb_S512_S512_0 : ∀ a, (![0] : Fin 1 → Nat) a + S512.size a ≤ S512.size a
  h_S512 : 0 < S512.numel
  shapeCasts_S512_S512x1 : S512.ShapeCasts S512x1
  inb_S256x512_S256x512_0_0 : ∀ a, (![0, 0] : Fin 2 → Nat) a + S256x512.size a ≤ S256x512.size a
  h_S256x512 : 0 < S256x512.numel
  inb_S40x256_S40x256_0_0 : ∀ a, (![0, 0] : Fin 2 → Nat) a + S40x256.size a ≤ S40x256.size a
  h_S40x256 : 0 < S40x256.numel
  inb_S40_S40_0 : ∀ a, (![0] : Fin 1 → Nat) a + S40.size a ≤ S40.size a
  h_S40 : 0 < S40.numel
  shapeCasts_S40_S40x1 : S40.ShapeCasts S40x1
  shapeCasts_S40x1_S40 : S40x1.ShapeCasts S40
  shapeCasts_S40_S1x1x40 : S40.ShapeCasts S1x1x40
  inb_S1x1x40_S1x1x40_0_0_0 : ∀ a, (![0, 0, 0] : Fin 3 → Nat) a + S1x1x40.size a ≤ S1x1x40.size a
  h_S1x1x40 : 0 < S1x1x40.numel
  shapeCasts_S16x1x40_S4x4x40 : S16x1x40.ShapeCasts S4x4x40
  reducesTo_S4x4x40_S4x40_d1 : S4x4x40.ReducesTo [1] S4x40
  h_S_ : 0 < S_.numel
  dot_S64x3_S3x128_S64x128_1_0_0_1_n_n_wf : DotDims.WF S64x3 S3x128 S64x128 [1] [0] [0] [1] [] []
  dot_S64x3_S3x32_S64x32_1_0_0_1_n_n_wf : DotDims.WF S64x3 S3x32 S64x32 [1] [0] [0] [1] [] []
  dot_S128x64_S64x4096_S128x4096_1_0_0_1_n_n_wf : DotDims.WF S128x64 S64x4096 S128x4096 [1] [0] [0] [1] [] []
  dot_S256x128_S128x4096_S256x4096_1_0_0_1_n_n_wf : DotDims.WF S256x128 S128x4096 S256x4096 [1] [0] [0] [1] [] []
  dot_S512x256_S256x1_S512x1_1_0_0_1_n_n_wf : DotDims.WF S512x256 S256x1 S512x1 [1] [0] [0] [1] [] []
  dot_S256x512_S512x1_S256x1_1_0_0_1_n_n_wf : DotDims.WF S256x512 S512x1 S256x1 [1] [0] [0] [1] [] []
  dot_S40x256_S256x1_S40x1_1_0_0_1_n_n_wf : DotDims.WF S40x256 S256x1 S40x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S16x128x3.size a
  hwx0_0 : ∀ i : grid0.Coords, EltTy.bits .f32 = 32 ∨ (Rect.block (s := S16x128x3) S1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x3.size a ≤ S16x128x3.size a
  hwx0_1 : ∀ i : grid0.Coords, EltTy.bits .f32 = 32 ∨ (Rect.block (s := S16x128x3) S1x32x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x3.size a ≤ S64x3.size a
  hwx0_2 : ∀ i : grid0.Coords, EltTy.bits .f32 = 32 ∨ (Rect.block (s := S64x3) S64x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3.size a ≤ S64x3.size a
  hwx0_3 : ∀ i : grid0.Coords, EltTy.bits .f32 = 32 ∨ (Rect.block (s := S64x3) S64x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .f32 = 32 ∨ (Rect.block (s := S512x256) S512x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S256x512.size a
  hwx0_11 : ∀ i : grid0.Coords, EltTy.bits .f32 = 32 ∨ (Rect.block (s := S256x512) S256x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S40x256.size a ≤ S40x256.size a
  hwx0_13 : ∀ i : grid0.Coords, EltTy.bits .f32 = 32 ∨ (Rect.block (s := S40x256) S40x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S40.size a ≤ S40.size a
  hwx0_14 : ∀ i : grid0.Coords, EltTy.bits .f32 = 32 ∨ (Rect.block (s := S40) S40.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x40.size a ≤ S16x1x40.size a
  hwx0_15 : ∀ i : grid0.Coords, EltTy.bits .f32 = 32 ∨ (Rect.block (s := S16x1x40) S1x1x40.size (cc0_transform_15 i) (hinb0_15 i)).WholeWords (EltTy.packing .f32)

variable [Facts₀]

def dot_S64x3_S3x128_S64x128_1_0_0_1_n_n : DotDims S64x3 S3x128 S64x128 where
  lhsContracting := [1]
  rhsContracting := [0]
  lhsNonContracting := [0]
  rhsNonContracting := [1]
  lhsBatch := []
  rhsBatch := []
  wf := dot_S64x3_S3x128_S64x128_1_0_0_1_n_n_wf
def dot_S64x3_S3x32_S64x32_1_0_0_1_n_n : DotDims S64x3 S3x32 S64x32 where
  lhsContracting := [1]
  rhsContracting := [0]
  lhsNonContracting := [0]
  rhsNonContracting := [1]
  lhsBatch := []
  rhsBatch := []
  wf := dot_S64x3_S3x32_S64x32_1_0_0_1_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf
def dot_S40x256_S256x1_S40x1_1_0_0_1_n_n : DotDims S40x256 S256x1 S40x1 where
  lhsContracting := [1]
  rhsContracting := [0]
  lhsNonContracting := [0]
  rhsNonContracting := [1]
  lhsBatch := []
  rhsBatch := []
  wf := dot_S40x256_S256x1_S40x1_1_0_0_1_n_n_wf

abbrev win0_0 : Pipeline.Window sig grid0 :=
  Pipeline.Window.ofSpec (Memref.whole main_v1) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S256x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S40x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S40.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4) S1x1x40.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S4x512x3 : Shape := ⟨3, ![4, 512, 3]⟩
abbrev S64x6 : Shape := ⟨2, ![64, 6]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S40x256 : Shape := ⟨2, ![40, 256]⟩
abbrev S40 : Shape := ⟨1, ![40]⟩
abbrev S4x4x128x3 : Shape := ⟨4, ![4, 4, 128, 3]⟩
abbrev S4x4x1x128x3 : Shape := ⟨5, ![4, 4, 1, 128, 3]⟩
abbrev S4x4x128x128x3 : Shape := ⟨5, ![4, 4, 128, 128, 3]⟩
abbrev S4x4x128x1x3 : Shape := ⟨5, ![4, 4, 128, 1, 3]⟩
abbrev S4x4x128x128x6 : Shape := ⟨5, ![4, 4, 128, 128, 6]⟩
abbrev S4x4x128x128x64 : Shape := ⟨5, ![4, 4, 128, 128, 64]⟩
abbrev S1x1x1x1x64 : Shape := ⟨5, ![1, 1, 1, 1, 64]⟩
abbrev S_ : Shape := ⟨0, ![]⟩
abbrev S4x4x128x128x128 : Shape := ⟨5, ![4, 4, 128, 128, 128]⟩
abbrev S1x1x1x1x128 : Shape := ⟨5, ![1, 1, 1, 1, 128]⟩
abbrev S4x4x128x128x256 : Shape := ⟨5, ![4, 4, 128, 128, 256]⟩
abbrev S1x1x1x1x256 : Shape := ⟨5, ![1, 1, 1, 1, 256]⟩
abbrev S4x4x256 : Shape := ⟨3, ![4, 4, 256]⟩
abbrev S4x4x512 : Shape := ⟨3, ![4, 4, 512]⟩
abbrev S1x1x512 : Shape := ⟨3, ![1, 1, 512]⟩
abbrev S1x1x256 : Shape := ⟨3, ![1, 1, 256]⟩
abbrev S4x4x40 : Shape := ⟨3, ![4, 4, 40]⟩
abbrev S1x1x40 : Shape := ⟨3, ![1, 1, 40]⟩
abbrev S4x40 : Shape := ⟨2, ![4, 40]⟩

abbrev nBuf : Space → Nat
  | .hbm => 59
  | .vmem => 0
  | .smem => 0
  | _ => 0

abbrev bufTy : (tb : Table) → Fin (tcTables nBuf tb) → BufTy
  | .hbm, ⟨0, _⟩ => ⟨S4x512x3, .f32⟩
  | .hbm, ⟨1, _⟩ => ⟨S64x6, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x512, .f32⟩
  | .hbm, ⟨10, _⟩ => ⟨S256, .f32⟩
  | .hbm, ⟨11, _⟩ => ⟨S40x256, .f32⟩
  | .hbm, ⟨12, _⟩ => ⟨S40, .f32⟩
  | .hbm, ⟨13, _⟩ => ⟨S4x4x128x3, .f32⟩
  | .hbm, ⟨14, _⟩ => ⟨S4x4x1x128x3, .f32⟩
  | .hbm, ⟨15, _⟩ => ⟨S4x4x128x128x3, .f32⟩
  | .hbm, ⟨16, _⟩ => ⟨S4x4x128x1x3, .f32⟩
  | .hbm, ⟨17, _⟩ => ⟨S4x4x128x128x3, .f32⟩
  | .hbm, ⟨18, _⟩ => ⟨S4x4x128x128x6, .f32⟩
  | .hbm, ⟨19, _⟩ => ⟨S4x4x128x128x64, .f32⟩
  | .hbm, ⟨20, _⟩ => ⟨S1x1x1x1x64, .f32⟩
  | .hbm, ⟨21, _⟩ => ⟨S4x4x128x128x64, .f32⟩
  | .hbm, ⟨22, _⟩ => ⟨S4x4x128x128x64, .f32⟩
  | .hbm, ⟨23, _⟩ => ⟨S_, .f32⟩
  | .hbm, ⟨24, _⟩ => ⟨S4x4x128x128x64, .f32⟩
  | .hbm, ⟨25, _⟩ => ⟨S4x4x128x128x64, .f32⟩
  | .hbm, ⟨26, _⟩ => ⟨S4x4x128x128x128, .f32⟩
  | .hbm, ⟨27, _⟩ => ⟨S1x1x1x1x128, .f32⟩
  | .hbm, ⟨28, _⟩ => ⟨S4x4x128x128x128, .f32⟩
  | .hbm, ⟨29, _⟩ => ⟨S4x4x128x128x128, .f32⟩
  | .hbm, ⟨30, _⟩ => ⟨S_, .f32⟩
  | .hbm, ⟨31, _⟩ => ⟨S4x4x128x128x128, .f32⟩
  | .hbm, ⟨32, _⟩ => ⟨S4x4x128x128x128, .f32⟩
  | .hbm, ⟨33, _⟩ => ⟨S4x4x128x128x256, .f32⟩
  | .hbm, ⟨34, _⟩ => ⟨S1x1x1x1x256, .f32⟩
  | .hbm, ⟨35, _⟩ => ⟨S4x4x128x128x256, .f32⟩
  | .hbm, ⟨36, _⟩ => ⟨S4x4x128x128x256, .f32⟩
  | .hbm, ⟨37, _⟩ => ⟨S_, .f32⟩
  | .hbm, ⟨38, _⟩ => ⟨S4x4x256, .f32⟩
  | .hbm, ⟨39, _⟩ => ⟨S4x4x512, .f32⟩
  | .hbm, ⟨40, _⟩ => ⟨S1x1x512, .f32⟩
  | .hbm, ⟨41, _⟩ => ⟨S4x4x512, .f32⟩
  | .hbm, ⟨42, _⟩ => ⟨S4x4x512, .f32⟩
  | .hbm, ⟨43, _⟩ => ⟨S_, .f32⟩
  | .hbm, ⟨44, _⟩ => ⟨S4x4x512, .f32⟩
  | .hbm, ⟨45, _⟩ => ⟨S4x4x512, .f32⟩
  | .hbm, ⟨46, _⟩ => ⟨S4x4x256, .f32⟩
  | .hbm, ⟨47, _⟩ => ⟨S1x1x256, .f32⟩
  | .hbm, ⟨48, _⟩ => ⟨S4x4x256, .f32⟩
  | .hbm, ⟨49, _⟩ => ⟨S4x4x256, .f32⟩
  | .hbm, ⟨50, _⟩ => ⟨S_, .f32⟩
  | .hbm, ⟨51, _⟩ => ⟨S4x4x256, .f32⟩
  | .hbm, ⟨52, _⟩ => ⟨S4x4x256, .f32⟩
  | .hbm, ⟨53, _⟩ => ⟨S4x4x40, .f32⟩
  | .hbm, ⟨54, _⟩ => ⟨S1x1x40, .f32⟩
  | .hbm, ⟨55, _⟩ => ⟨S4x4x40, .f32⟩
  | .hbm, ⟨56, _⟩ => ⟨S4x4x40, .f32⟩
  | .hbm, ⟨57, _⟩ => ⟨S_, .f32⟩
  | .hbm, ⟨58, _⟩ => ⟨S4x40, .f32⟩
  | _, _ => ⟨S4x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call3_cst : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_0 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  shapeCasts_S4x512x3_S4x4x128x3 : S4x512x3.ShapeCasts S4x4x128x3
  bcast_S4x4x128x3_S4x4x1x128x3_0_1_3_4 : S4x4x128x3.BroadcastsInDim S4x4x1x128x3 (![0, 1, 3, 4] : Fin 4 → Fin S4x4x1x128x3.rank)
  bcast_S4x4x1x128x3_S4x4x128x128x3_0_1_2_3_4 : S4x4x1x128x3.BroadcastsInDim S4x4x128x128x3 (![0, 1, 2, 3, 4] : Fin 5 → Fin S4x4x128x128x3.rank)
  bcast_S4x4x128x3_S4x4x128x1x3_0_1_2_4 : S4x4x128x3.BroadcastsInDim S4x4x128x1x3 (![0, 1, 2, 4] : Fin 4 → Fin S4x4x128x1x3.rank)
  bcast_S4x4x128x1x3_S4x4x128x128x3_0_1_2_3_4 : S4x4x128x1x3.BroadcastsInDim S4x4x128x128x3 (![0, 1, 2, 3, 4] : Fin 5 → Fin S4x4x128x128x3.rank)
  concatenates_S4x4x128x128x3_S4x4x128x128x3_S4x4x128x128x6_d4 : Shape.Concatenates [S4x4x128x128x3, S4x4x128x128x3] S4x4x128x128x6 4
  bcast_S64_S1x1x1x1x64_4 : S64.BroadcastsInDim S1x1x1x1x64 (![4] : Fin 1 → Fin S1x1x1x1x64.rank)
  bcast_S1x1x1x1x64_S4x4x128x128x64_0_1_2_3_4 : S1x1x1x1x64.BroadcastsInDim S4x4x128x128x64 (![0, 1, 2, 3, 4] : Fin 5 → Fin S4x4x128x128x64.rank)
  bcast_S_S4x4x128x128x64 : S_.BroadcastsInDim S4x4x128x128x64 (![] : Fin 0 → Fin S4x4x128x128x64.rank)
  bcast_S128_S1x1x1x1x128_4 : S128.BroadcastsInDim S1x1x1x1x128 (![4] : Fin 1 → Fin S1x1x1x1x128.rank)
  bcast_S1x1x1x1x128_S4x4x128x128x128_0_1_2_3_4 : S1x1x1x1x128.BroadcastsInDim S4x4x128x128x128 (![0, 1, 2, 3, 4] : Fin 5 → Fin S4x4x128x128x128.rank)
  bcast_S_S4x4x128x128x128 : S_.BroadcastsInDim S4x4x128x128x128 (![] : Fin 0 → Fin S4x4x128x128x128.rank)
  bcast_S256_S1x1x1x1x256_4 : S256.BroadcastsInDim S1x1x1x1x256 (![4] : Fin 1 → Fin S1x1x1x1x256.rank)
  bcast_S1x1x1x1x256_S4x4x128x128x256_0_1_2_3_4 : S1x1x1x1x256.BroadcastsInDim S4x4x128x128x256 (![0, 1, 2, 3, 4] : Fin 5 → Fin S4x4x128x128x256.rank)
  reducesTo_S4x4x128x128x256_S4x4x256_d2_3 : S4x4x128x128x256.ReducesTo [2, 3] S4x4x256
  h_S_ : 0 < S_.numel
  bcast_S512_S1x1x512_2 : S512.BroadcastsInDim S1x1x512 (![2] : Fin 1 → Fin S1x1x512.rank)
  bcast_S1x1x512_S4x4x512_0_1_2 : S1x1x512.BroadcastsInDim S4x4x512 (![0, 1, 2] : Fin 3 → Fin S4x4x512.rank)
  bcast_S_S4x4x512 : S_.BroadcastsInDim S4x4x512 (![] : Fin 0 → Fin S4x4x512.rank)
  bcast_S256_S1x1x256_2 : S256.BroadcastsInDim S1x1x256 (![2] : Fin 1 → Fin S1x1x256.rank)
  bcast_S1x1x256_S4x4x256_0_1_2 : S1x1x256.BroadcastsInDim S4x4x256 (![0, 1, 2] : Fin 3 → Fin S4x4x256.rank)
  bcast_S_S4x4x256 : S_.BroadcastsInDim S4x4x256 (![] : Fin 0 → Fin S4x4x256.rank)
  bcast_S40_S1x1x40_2 : S40.BroadcastsInDim S1x1x40 (![2] : Fin 1 → Fin S1x1x40.rank)
  bcast_S1x1x40_S4x4x40_0_1_2 : S1x1x40.BroadcastsInDim S4x4x40 (![0, 1, 2] : Fin 3 → Fin S4x4x40.rank)
  reducesTo_S4x4x40_S4x40_d1 : S4x4x40.ReducesTo [1] S4x40
  dot_S4x4x128x128x6_S64x6_S4x4x128x128x64_4_1_0123_0_n_n_wf : DotDims.WF S4x4x128x128x6 S64x6 S4x4x128x128x64 [4] [1] [0, 1, 2, 3] [0] [] []
  dot_S4x4x128x128x64_S128x64_S4x4x128x128x128_4_1_0123_0_n_n_wf : DotDims.WF S4x4x128x128x64 S128x64 S4x4x128x128x128 [4] [1] [0, 1, 2, 3] [0] [] []
  dot_S4x4x128x128x128_S256x128_S4x4x128x128x256_4_1_0123_0_n_n_wf : DotDims.WF S4x4x128x128x128 S256x128 S4x4x128x128x256 [4] [1] [0, 1, 2, 3] [0] [] []
  dot_S4x4x256_S512x256_S4x4x512_2_1_01_0_n_n_wf : DotDims.WF S4x4x256 S512x256 S4x4x512 [2] [1] [0, 1] [0] [] []
  dot_S4x4x512_S256x512_S4x4x256_2_1_01_0_n_n_wf : DotDims.WF S4x4x512 S256x512 S4x4x256 [2] [1] [0, 1] [0] [] []
  dot_S4x4x256_S40x256_S4x4x40_2_1_01_0_n_n_wf : DotDims.WF S4x4x256 S40x256 S4x4x40 [2] [1] [0, 1] [0] [] []

variable [Facts₀]

def dot_S4x4x128x128x6_S64x6_S4x4x128x128x64_4_1_0123_0_n_n : DotDims S4x4x128x128x6 S64x6 S4x4x128x128x64 where
  lhsContracting := [4]
  rhsContracting := [1]
  lhsNonContracting := [0, 1, 2, 3]
  rhsNonContracting := [0]
  lhsBatch := []
  rhsBatch := []
  wf := dot_S4x4x128x128x6_S64x6_S4x4x128x128x64_4_1_0123_0_n_n_wf
def dot_S4x4x128x128x64_S128x64_S4x4x128x128x128_4_1_0123_0_n_n : DotDims S4x4x128x128x64 S128x64 S4x4x128x128x128 where
  lhsContracting := [4]
  rhsContracting := [1]
  lhsNonContracting := [0, 1, 2, 3]
  rhsNonContracting := [0]
  lhsBatch := []
  rhsBatch := []
  wf := dot_S4x4x128x128x64_S128x64_S4x4x128x128x128_4_1_0123_0_n_n_wf
def dot_S4x4x128x128x128_S256x128_S4x4x128x128x256_4_1_0123_0_n_n : DotDims S4x4x128x128x128 S256x128 S4x4x128x128x256 where
  lhsContracting := [4]
  rhsContracting := [1]
  lhsNonContracting := [0, 1, 2, 3]
  rhsNonContracting := [0]
  lhsBatch := []
  rhsBatch := []
  wf := dot_S4x4x128x128x128_S256x128_S4x4x128x128x256_4_1_0123_0_n_n_wf
def dot_S4x4x256_S512x256_S4x4x512_2_1_01_0_n_n : DotDims S4x4x256 S512x256 S4x4x512 where
  lhsContracting := [2]
  rhsContracting := [1]
  lhsNonContracting := [0, 1]
  rhsNonContracting := [0]
  lhsBatch := []
  rhsBatch := []
  wf := dot_S4x4x256_S512x256_S4x4x512_2_1_01_0_n_n_wf
def dot_S4x4x512_S256x512_S4x4x256_2_1_01_0_n_n : DotDims S4x4x512 S256x512 S4x4x256 where
  lhsContracting := [2]
  rhsContracting := [1]
  lhsNonContracting := [0, 1]
  rhsNonContracting := [0]
  lhsBatch := []
  rhsBatch := []
  wf := dot_S4x4x512_S256x512_S4x4x256_2_1_01_0_n_n_wf
def dot_S4x4x256_S40x256_S4x4x40_2_1_01_0_n_n : DotDims S4x4x256 S40x256 S4x4x40 where
  lhsContracting := [2]
  rhsContracting := [1]
  lhsNonContracting := [0, 1]
  rhsNonContracting := [0]
  lhsBatch := []
  rhsBatch := []
  wf := dot_S4x4x256_S40x256_S4x4x40_2_1_01_0_n_n_wf

class Facts : Prop extends Facts₀ where

variable [Facts]
-- ==== Proof.KRuns.lean ====
/-
  What the three runs of the kernel body share.

  The body of the pallas_call is run at every point (a, t) of the grid 16 × 4: a names one of the 16 point
  clouds of 128 points, t one chunk of 32 "i" rows. It branches twice on t alone: at t = 0 it first resets the
  running maximum kept in the scratch buffer to -inf, and at t = 3 it also applies the three final layers to that
  maximum and stores the 40 results. So a point is in one of three cases: t = 0 (reset, no output), t = 1, 2
  (neither), t = 3 (output). Both conditions are decided here over the 64 points in closed form.
-/
import proofs.«102768_j73547019976967_2_alg».proof.Proof.Gen.Kernel.Launch
import proofs.«102768_j73547019976967_2_alg».proof.Proof.Gen.Kernel.Skeleton
import proofs.«102768_j73547019976967_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- "This is the first chunk": the body's first branch condition, as the chain of scalar operations on the
    second grid coordinate that the body computes. -/
abbrev isFirst (i : grid0.Coords) : Prop :=
  (Scalar.cmpi .ne (Scalar.extui (Scalar.cmpi .eq (BitVec.ofNat 32 (i 1).val) 0#32)) 0#32) = 1#1
/-- It holds exactly at the points whose position is a multiple of 4 (t = 0). -/
theorem isFirst_iff : ∀ t : Fin cfg0.N, isFirst (grid0.coords t) ↔ t.val % 4 = 0 :=
  (by decide +kernel : ∀ t : Fin grid0.N, isFirst (grid0.coords t) ↔ t.val % 4 = 0)

/-- "This is the last chunk": the body's second branch condition. -/
abbrev isLast (i : grid0.Coords) : Prop := k0_cond2 i = 1#1
/-- It holds exactly at the points whose position is 3 modulo 4 (t = 3). -/
theorem isLast_iff : ∀ t : Fin cfg0.N, isLast (grid0.coords t) ↔ t.val % 4 = 3 :=
  (by decide +kernel : ∀ t : Fin grid0.N, isLast (grid0.coords t) ↔ t.val % 4 = 3)

end Cert.Kernel.Hand

end
-- ==== Proof.KRunFirst.lean ====
/-
  The kernel body run at the first chunk of a cloud (t = 0): the running maximum is reset to -inf, then raised by this chunk's maxima; nothing is stored into the output block.

  On whole staging buffers — the fifteen inputs at given contents, the output block at contents handed back untouched, the
  scratch at anything — the body runs without fault and leaves the inputs as they were and the scratch
  with its stores written: the list of stored pieces is found while the body is run symbolically.
-/
import proofs.«102768_j73547019976967_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stored pieces (output block, then scratch), with the proof that the body runs to them. -/
noncomputable def runFirst (c : Dev nD) (i : grid0.Coords) (arg2 : Memref sig .tc .vmem S1x128x3 .f32) (harg2 : arg2.IsWhole) (arg3 : Memref sig .tc .vmem S1x32x3 .f32) (harg3 : arg3.IsWhole) (arg4 : Memref sig .tc .vmem S64x3 .f32) (harg4 : arg4.IsWhole) (arg5 : Memref sig .tc .vmem S64x3 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S256x128 .f32) (harg9 : arg9.IsWhole) (arg10 : Memref sig .tc .vmem S256 .f32) (harg10 : arg10.IsWhole) (arg11 : Memref sig .tc .vmem S512x256 .f32) (harg11 : arg11.IsWhole) (arg12 : Memref sig .tc .vmem S512 .f32) (harg12 : arg12.IsWhole) (arg13 : Memref sig .tc .vmem S256x512 .f32) (harg13 : arg13.IsWhole) (arg14 : Memref sig .tc .vmem S256 .f32) (harg14 : arg14.IsWhole) (arg15 : Memref sig .tc .vmem S40x256 .f32) (harg15 : arg15.IsWhole) (arg16 : Memref sig .tc .vmem S40 .f32) (harg16 : arg16.IsWhole) (arg17 : Memref sig .tc .vmem S1x1x40 .f32) (harg17 : arg17.IsWhole) (arg18 : Memref sig .tc .vmem S256x1 .f32) (harg18 : arg18.IsWhole) (hc0 : isFirst i) (hc1 : ¬isLast i)
    (x0 : Vec F S1x128x3 .f32) (x1 : Vec F S1x32x3 .f32) (x2 : Vec F S64x3 .f32) (x3 : Vec F S64x3 .f32) (x4 : Vec F S64 .f32) (x5 : Vec F S128x64 .f32) (x6 : Vec F S128 .f32) (x7 : Vec F S256x128 .f32) (x8 : Vec F S256 .f32) (x9 : Vec F S512x256 .f32) (x10 : Vec F S512 .f32) (x11 : Vec F S256x512 .f32) (x12 : Vec F S256 .f32) (x13 : Vec F S40x256 .f32) (x14 : Vec F S40 .f32) :
    Σ' (LO : List (View.Piece (Elt F) S1x1x40 .f32)), { LS : List (View.Piece (Elt F) S256x1 .f32) //
      ∀ (xo : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ (∃ f, arg18.view.loc (c : Thread nD τ) ↦[arg18.view.set]{fullShare} arg18.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xo E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HO]
    · iexists _; isplitr; · ipureintro; exact harg17.read_unread _
      iexact HO
    iexists _; iexact HS

end Cert.Kernel.Hand

end
-- ==== Proof.KRunMid.lean ====
/-
  The kernel body run at a middle chunk (t = 1, 2): the running maximum is raised by this chunk's maxima; nothing is stored into the output block.

  On whole staging buffers — the fifteen inputs at given contents, the output block at contents handed back untouched, the
  scratch at the running maximum the chunk before left — the body runs without fault and leaves the inputs as they were and the scratch
  with its stores written: the list of stored pieces is found while the body is run symbolically.
-/
import proofs.«102768_j73547019976967_2_alg».proof.Proof.KRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stored pieces (output block, then scratch), with the proof that the body runs to them. -/
noncomputable def runMid (c : Dev nD) (i : grid0.Coords) (arg2 : Memref sig .tc .vmem S1x128x3 .f32) (harg2 : arg2.IsWhole) (arg3 : Memref sig .tc .vmem S1x32x3 .f32) (harg3 : arg3.IsWhole) (arg4 : Memref sig .tc .vmem S64x3 .f32) (harg4 : arg4.IsWhole) (arg5 : Memref sig .tc .vmem S64x3 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S256x128 .f32) (harg9 : arg9.IsWhole) (arg10 : Memref sig .tc .vmem S256 .f32) (harg10 : arg10.IsWhole) (arg11 : Memref sig .tc .vmem S512x256 .f32) (harg11 : arg11.IsWhole) (arg12 : Memref sig .tc .vmem S512 .f32) (harg12 : arg12.IsWhole) (arg13 : Memref sig .tc .vmem S256x512 .f32) (harg13 : arg13.IsWhole) (arg14 : Memref sig .tc .vmem S256 .f32) (harg14 : arg14.IsWhole) (arg15 : Memref sig .tc .vmem S40x256 .f32) (harg15 : arg15.IsWhole) (arg16 : Memref sig .tc .vmem S40 .f32) (harg16 : arg16.IsWhole) (arg17 : Memref sig .tc .vmem S1x1x40 .f32) (harg17 : arg17.IsWhole) (arg18 : Memref sig .tc .vmem S256x1 .f32) (harg18 : arg18.IsWhole) (hc0 : ¬isFirst i) (hc1 : ¬isLast i)
    (x0 : Vec F S1x128x3 .f32) (x1 : Vec F S1x32x3 .f32) (x2 : Vec F S64x3 .f32) (x3 : Vec F S64x3 .f32) (x4 : Vec F S64 .f32) (x5 : Vec F S128x64 .f32) (x6 : Vec F S128 .f32) (x7 : Vec F S256x128 .f32) (x8 : Vec F S256 .f32) (x9 : Vec F S512x256 .f32) (x10 : Vec F S512 .f32) (x11 : Vec F S256x512 .f32) (x12 : Vec F S256 .f32) (x13 : Vec F S40x256 .f32) (x14 : Vec F S40 .f32) (xs : Vec F S256x1 .f32) :
    Σ' (LO : List (View.Piece (Elt F) S1x1x40 .f32)), { LS : List (View.Piece (Elt F) S256x1 .f32) //
      ∀ (xo : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ owns (c : Thread nD τ) arg18 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ (∃ f, arg18.view.loc (c : Thread nD τ) ↦[arg18.view.set]{fullShare} arg18.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xo E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfo; obtain rfl := harg18.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HO]
    · iexists _; isplitr; · ipureintro; exact harg17.read_unread _
      iexact HO
    iexists _; iexact HS

end Cert.Kernel.Hand

end
-- ==== Proof.KRunLast.lean ====
/-
  The kernel body run at the last chunk (t = 3): the running maximum is raised by this chunk's maxima, and the three final layers applied to it are stored as the cloud's 40 outputs.

  On whole staging buffers — the fifteen inputs at given contents, the output block at anything, the
  scratch at the running maximum the chunk before left — the body runs without fault and leaves the inputs as they were and the scratch and the output block
  with its stores written: the list of stored pieces is found while the body is run symbolically.
-/
import proofs.«102768_j73547019976967_2_alg».proof.Proof.KRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stored pieces (output block, then scratch), with the proof that the body runs to them. -/
noncomputable def runLast (c : Dev nD) (i : grid0.Coords) (arg2 : Memref sig .tc .vmem S1x128x3 .f32) (harg2 : arg2.IsWhole) (arg3 : Memref sig .tc .vmem S1x32x3 .f32) (harg3 : arg3.IsWhole) (arg4 : Memref sig .tc .vmem S64x3 .f32) (harg4 : arg4.IsWhole) (arg5 : Memref sig .tc .vmem S64x3 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S256x128 .f32) (harg9 : arg9.IsWhole) (arg10 : Memref sig .tc .vmem S256 .f32) (harg10 : arg10.IsWhole) (arg11 : Memref sig .tc .vmem S512x256 .f32) (harg11 : arg11.IsWhole) (arg12 : Memref sig .tc .vmem S512 .f32) (harg12 : arg12.IsWhole) (arg13 : Memref sig .tc .vmem S256x512 .f32) (harg13 : arg13.IsWhole) (arg14 : Memref sig .tc .vmem S256 .f32) (harg14 : arg14.IsWhole) (arg15 : Memref sig .tc .vmem S40x256 .f32) (harg15 : arg15.IsWhole) (arg16 : Memref sig .tc .vmem S40 .f32) (harg16 : arg16.IsWhole) (arg17 : Memref sig .tc .vmem S1x1x40 .f32) (harg17 : arg17.IsWhole) (arg18 : Memref sig .tc .vmem S256x1 .f32) (harg18 : arg18.IsWhole) (hc0 : ¬isFirst i) (hc1 : isLast i)
    (x0 : Vec F S1x128x3 .f32) (x1 : Vec F S1x32x3 .f32) (x2 : Vec F S64x3 .f32) (x3 : Vec F S64x3 .f32) (x4 : Vec F S64 .f32) (x5 : Vec F S128x64 .f32) (x6 : Vec F S128 .f32) (x7 : Vec F S256x128 .f32) (x8 : Vec F S256 .f32) (x9 : Vec F S512x256 .f32) (x10 : Vec F S512 .f32) (x11 : Vec F S256x512 .f32) (x12 : Vec F S256 .f32) (x13 : Vec F S40x256 .f32) (x14 : Vec F S40 .f32) (xs : Vec F S256x1 .f32) :
    Σ' (LO : List (View.Piece (Elt F) S1x1x40 .f32)), { LS : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f LO) ∗ (∃ f, arg18.view.loc (c : Thread nD τ) ↦[arg18.view.set]{fullShare} arg18.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%dout, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HO]; · iexists _; iexact HO
    iexists _; iexact HS

end Cert.Kernel.Hand

end
-- ==== Proof.KFrame.lean ====
/-
  The frame of the pallas_call, point by point.

  A point (a, t) of the grid 16 × 4 is at position 4a + t. The body keeps a running maximum in a scratch buffer:
  reset at t = 0, raised at every t by the maxima over this chunk's 32 × 128 pairs, and at t = 3 fed to the three
  final layers whose 40 results are stored into the output block of cloud a (written back only then). What the
  scratch and the output block hold after each position is defined by recursion on the position from the three
  runs of the body; the invariant between positions carries the scratch at exactly that contents; the proof data
  names every input buffer at its block of the array as the region finds it. From these the body's obligation to
  the pipeline follows at every position by the closed forms of the two branch conditions.
-/
import proofs.«102768_j73547019976967_2_alg».proof.Proof.KRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the four host operations before it (two reshapes of the points,
    two column slices of the first weight matrix) have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at position `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every position, fetched there or not (an unfetched
    window's block index has not moved). -/
theorem before_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem live0 : ∀ t : Fin cfg0.N, cfg0.idle 0 (grid0.coords t) = false := by decide +kernel
/-- Input window 1's current staging buffer holds its block at every position, fetched there or not (an unfetched
    window's block index has not moved). -/
theorem before_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem live1 : ∀ t : Fin cfg0.N, cfg0.idle 1 (grid0.coords t) = false := by decide +kernel
/-- Input window 2's current staging buffer holds its block at every position, fetched there or not (an unfetched
    window's block index has not moved). -/
theorem before_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem live2 : ∀ t : Fin cfg0.N, cfg0.idle 2 (grid0.coords t) = false := by decide +kernel
/-- Input window 3's current staging buffer holds its block at every position, fetched there or not (an unfetched
    window's block index has not moved). -/
theorem before_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem live3 : ∀ t : Fin cfg0.N, cfg0.idle 3 (grid0.coords t) = false := by decide +kernel
/-- Input window 4's current staging buffer holds its block at every position, fetched there or not (an unfetched
    window's block index has not moved). -/
theorem before_of4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem live4 : ∀ t : Fin cfg0.N, cfg0.idle 4 (grid0.coords t) = false := by decide +kernel
/-- Input window 5's current staging buffer holds its block at every position, fetched there or not (an unfetched
    window's block index has not moved). -/
theorem before_of5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem live5 : ∀ t : Fin cfg0.N, cfg0.idle 5 (grid0.coords t) = false := by decide +kernel
/-- Input window 6's current staging buffer holds its block at every position, fetched there or not (an unfetched
    window's block index has not moved). -/
theorem before_of6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem live6 : ∀ t : Fin cfg0.N, cfg0.idle 6 (grid0.coords t) = false := by decide +kernel
/-- Input window 7's current staging buffer holds its block at every position, fetched there or not (an unfetched
    window's block index has not moved). -/
theorem before_of7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem live7 : ∀ t : Fin cfg0.N, cfg0.idle 7 (grid0.coords t) = false := by decide +kernel
/-- Input window 8's current staging buffer holds its block at every position, fetched there or not (an unfetched
    window's block index has not moved). -/
theorem before_of8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem live8 : ∀ t : Fin cfg0.N, cfg0.idle 8 (grid0.coords t) = false := by decide +kernel
/-- Input window 9's current staging buffer holds its block at every position, fetched there or not (an unfetched
    window's block index has not moved). -/
theorem before_of9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem live9 : ∀ t : Fin cfg0.N, cfg0.idle 9 (grid0.coords t) = false := by decide +kernel
/-- Input window 10's current staging buffer holds its block at every position, fetched there or not (an unfetched
    window's block index has not moved). -/
theorem before_of10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem live10 : ∀ t : Fin cfg0.N, cfg0.idle 10 (grid0.coords t) = false := by decide +kernel
/-- Input window 11's current staging buffer holds its block at every position, fetched there or not (an unfetched
    window's block index has not moved). -/
theorem before_of11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem live11 : ∀ t : Fin cfg0.N, cfg0.idle 11 (grid0.coords t) = false := by decide +kernel
/-- Input window 12's current staging buffer holds its block at every position, fetched there or not (an unfetched
    window's block index has not moved). -/
theorem before_of12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem live12 : ∀ t : Fin cfg0.N, cfg0.idle 12 (grid0.coords t) = false := by decide +kernel
/-- Input window 13's current staging buffer holds its block at every position, fetched there or not (an unfetched
    window's block index has not moved). -/
theorem before_of13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem live13 : ∀ t : Fin cfg0.N, cfg0.idle 13 (grid0.coords t) = false := by decide +kernel
/-- Input window 14's current staging buffer holds its block at every position, fetched there or not (an unfetched
    window's block index has not moved). -/
theorem before_of14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem live14 : ∀ t : Fin cfg0.N, cfg0.idle 14 (grid0.coords t) = false := by decide +kernel

/-! ## Where the output block is idle -/

theorem idleOut_first : ∀ t : Fin cfg0.N, isFirst (grid0.coords t) → ¬isLast (grid0.coords t) → cfg0.idle 15 (grid0.coords t) = true := by decide +kernel
theorem noFlush_first : ∀ t : Fin cfg0.N, isFirst (grid0.coords t) → ¬isLast (grid0.coords t) → (cfg0.win 15).flush t = false := by decide +kernel
theorem idleOut_mid : ∀ t : Fin cfg0.N, ¬isFirst (grid0.coords t) → ¬isLast (grid0.coords t) → cfg0.idle 15 (grid0.coords t) = true := by decide +kernel
theorem noFlush_mid : ∀ t : Fin cfg0.N, ¬isFirst (grid0.coords t) → ¬isLast (grid0.coords t) → (cfg0.win 15).flush t = false := by decide +kernel
theorem liveOut_last : ∀ t : Fin cfg0.N, ¬isFirst (grid0.coords t) → isLast (grid0.coords t) → cfg0.idle 15 (grid0.coords t) = false := by decide +kernel

/-! ## The staging memrefs at a position, the scratch, and the class invariant -/

abbrev ms0 (t : Fin cfg0.N) : Memref sig .tc .vmem S1x128x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S40x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S40 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x1x40 .f32 := win0_15.stage (cfg0.slots t 15)
abbrev hs15 (t : Fin cfg0.N) : (ms15 t).IsWhole := hstage0_15 ((cfg0.slots t 15).cast nbuf0_15)
/-- The scratch operand: a whole scoped buffer of the kernel's own. -/
abbrev scM : Memref sig .tc .vmem S256x1 .f32 := Memref.whole cc0_scratch0
abbrev VS : View sig .tc .vmem S256x1 .f32 := scM.view
/-- One staging buffer of the output window, through which its contents are stated. -/
abbrev VO : View sig .tc .vmem S1x1x40 .f32 := (Memref.whole cc0_stg15_0 : Memref sig .tc .vmem S1x1x40 .f32).view

/-- What the launch hands the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The three runs at a position -/

/-- The first-chunk run at position `t`, on the position's staging memrefs and input blocks. -/
def resFirst (c : Dev nD) (t : Fin cfg0.N) (h0 : isFirst (grid0.coords t)) (h1 : ¬isLast (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
/-- A middle-chunk run at position `t`, the scratch found at `xs`. -/
def resMid (c : Dev nD) (t : Fin cfg0.N) (h0 : ¬isFirst (grid0.coords t)) (h1 : ¬isLast (grid0.coords t)) (xs : Vec F S256x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs
/-- The last-chunk run at position `t`, the scratch found at `xs`. -/
def resLast (c : Dev nD) (t : Fin cfg0.N) (h0 : ¬isFirst (grid0.coords t)) (h1 : isLast (grid0.coords t)) (xs : Vec F S256x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs

/-- Stored pieces read back as a buffer's contents. -/
abbrev rdO (L : List (View.Piece (Elt F) S1x1x40 .f32)) : Vec F S1x1x40 .f32 := VO.read (Elt F) (VO.writes (Elt F) VO.junk L)
abbrev rdS (L : List (View.Piece (Elt F) S256x1 .f32)) : Vec F S256x1 .f32 := VS.read (Elt F) (VS.writes (Elt F) VS.junk L)

/-- Each run stores the scratch whole; the last also the output block. -/
theorem scoverFirst (c : Dev nD) (t : Fin cfg0.N) (h0 : isFirst (grid0.coords t)) (h1 : ¬isLast (grid0.coords t)) (y : S256x1.Idx) :
    ∃ pc ∈ (resFirst m c t h0 h1).2.1, y ∈ pc.1.set :=
  View.cover_of_tiledL (resFirst m c t h0 h1).2.1 S256x1.size (by sl_kernel_rfl) y
theorem scoverMid (c : Dev nD) (t : Fin cfg0.N) (h0 : ¬isFirst (grid0.coords t)) (h1 : ¬isLast (grid0.coords t)) (xs : Vec F S256x1 .f32) (y : S256x1.Idx) :
    ∃ pc ∈ (resMid m c t h0 h1 xs).2.1, y ∈ pc.1.set :=
  View.cover_of_tiledL (resMid m c t h0 h1 xs).2.1 S256x1.size (by sl_kernel_rfl) y
theorem scoverLast (c : Dev nD) (t : Fin cfg0.N) (h0 : ¬isFirst (grid0.coords t)) (h1 : isLast (grid0.coords t)) (xs : Vec F S256x1 .f32) (y : S256x1.Idx) :
    ∃ pc ∈ (resLast m c t h0 h1 xs).2.1, y ∈ pc.1.set :=
  View.cover_of_tiledL (resLast m c t h0 h1 xs).2.1 S256x1.size (by sl_kernel_rfl) y
theorem ocoverLast (c : Dev nD) (t : Fin cfg0.N) (h0 : ¬isFirst (grid0.coords t)) (h1 : isLast (grid0.coords t)) (xs : Vec F S256x1 .f32) (y : S1x1x40.Idx) :
    ∃ pc ∈ (resLast m c t h0 h1 xs).1, y ∈ pc.1.set :=
  View.cover_of_tiledL (resLast m c t h0 h1 xs).1 S1x1x40.size (by sl_kernel_rfl) y

/-! ## What the output block and the scratch hold after each position -/

/-- After position `n`: (the output block's staging contents, the scratch's contents). At t = 0 the first-chunk run,
    later the middle or last run over the scratch the position before left. -/
def outsAt (c : Dev nD) : (n : ℕ) → n < cfg0.N → Vec F S1x1x40 .f32 × Vec F S256x1 .f32
  | 0, hn => (rdO (resFirst m c ⟨0, hn⟩ ((isFirst_iff ⟨0, hn⟩).mpr (Nat.zero_mod _)) (fun h => (fun h => by (try dsimp only at h); omega) ((isLast_iff ⟨0, hn⟩).mp h))).1,
              rdS (resFirst m c ⟨0, hn⟩ ((isFirst_iff ⟨0, hn⟩).mpr (Nat.zero_mod _)) (fun h => (fun h => by (try dsimp only at h); omega) ((isLast_iff ⟨0, hn⟩).mp h))).2.1)
  | n + 1, hn =>
    if h0 : (n + 1) % 4 = 0 then
      if h1 : (n + 1) % 4 = 3 then
        False.elim (by omega)
      else
        (rdO (resFirst m c ⟨n + 1, hn⟩ ((isFirst_iff ⟨n + 1, hn⟩).mpr h0) (fun h => h1 ((isLast_iff ⟨n + 1, hn⟩).mp h))).1,
         rdS (resFirst m c ⟨n + 1, hn⟩ ((isFirst_iff ⟨n + 1, hn⟩).mpr h0) (fun h => h1 ((isLast_iff ⟨n + 1, hn⟩).mp h))).2.1)
    else
      if h1 : (n + 1) % 4 = 3 then
        (rdO (resLast m c ⟨n + 1, hn⟩ (fun h => h0 ((isFirst_iff ⟨n + 1, hn⟩).mp h)) ((isLast_iff ⟨n + 1, hn⟩).mpr h1) (outsAt c n (Nat.lt_of_succ_lt hn)).2).1,
         rdS (resLast m c ⟨n + 1, hn⟩ (fun h => h0 ((isFirst_iff ⟨n + 1, hn⟩).mp h)) ((isLast_iff ⟨n + 1, hn⟩).mpr h1) (outsAt c n (Nat.lt_of_succ_lt hn)).2).2.1)
      else
        (rdO (resMid m c ⟨n + 1, hn⟩ (fun h => h0 ((isFirst_iff ⟨n + 1, hn⟩).mp h)) (fun h => h1 ((isLast_iff ⟨n + 1, hn⟩).mp h)) (outsAt c n (Nat.lt_of_succ_lt hn)).2).1,
         rdS (resMid m c ⟨n + 1, hn⟩ (fun h => h0 ((isFirst_iff ⟨n + 1, hn⟩).mp h)) (fun h => h1 ((isLast_iff ⟨n + 1, hn⟩).mp h)) (outsAt c n (Nat.lt_of_succ_lt hn)).2).2.1)

theorem outsAt_first (c : Dev nD) (t : Fin cfg0.N) (h0 : t.val % 4 = 0) (h1 : ¬t.val % 4 = 3) :
    outsAt m c t.val t.isLt = (rdO (resFirst m c t ((isFirst_iff t).mpr h0) (fun h => h1 ((isLast_iff t).mp h))).1,
      rdS (resFirst m c t ((isFirst_iff t).mpr h0) (fun h => h1 ((isLast_iff t).mp h))).2.1) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt m c t.val t.isLt = (rdO (resMid m c t (fun h => h0 ((isFirst_iff t).mp h)) (fun h => h1 ((isLast_iff t).mp h)) (outsAt m c (t.val - 1) (Nat.lt_of_le_of_lt (Nat.sub_le _ _) t.isLt)).2).1,
      rdS (resMid m c t (fun h => h0 ((isFirst_iff t).mp h)) (fun h => h1 ((isLast_iff t).mp h)) (outsAt m c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = (rdO (resLast m c t (fun h => h0 ((isFirst_iff t).mp h)) ((isLast_iff t).mpr h1) (outsAt m c (t.val - 1) (Nat.lt_of_le_of_lt (Nat.sub_le _ _) t.isLt)).2).1,
      rdS (resLast m c t (fun h => h0 ((isFirst_iff t).mp h)) ((isLast_iff t).mpr h1) (outsAt m c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-- The invariant before position `n`: at first what the launch hands over (the scratch at anything); afterwards
    the scratch at what the position before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- On core `c`: the arrays as the region finds them; after the body each input's buffer at its block and the
    output's at `outsAt`; the invariant `PhiS`; nothing owed. The two windows on the array of points share it:
    the window of all 128 points holds the left half of its share, the window of the 32-point chunk the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t.val t.isLt).1
    | ⟨_ + 16, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before_of0 m (dats m 0 c) (A_eq m c 0) (after0 m c) t d
theorem leaves0 (c : Dev nD) (t : Fin cfg0.N) : (dats m 0 c).leavesExact 0 t = owns (c : Thread nD τ) (ms0 t) fullShare (iblk m c 0 t) := by
  unfold Dat.leavesExact; rw [live0 t, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before_of1 m (dats m 0 c) (A_eq m c 1) (after1 m c) t d
theorem leaves1 (c : Dev nD) (t : Fin cfg0.N) : (dats m 0 c).leavesExact 1 t = owns (c : Thread nD τ) (ms1 t) fullShare (iblk m c 1 t) := by
  unfold Dat.leavesExact; rw [live1 t, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before_of2 m (dats m 0 c) (A_eq m c 2) (after2 m c) t d
theorem leaves2 (c : Dev nD) (t : Fin cfg0.N) : (dats m 0 c).leavesExact 2 t = owns (c : Thread nD τ) (ms2 t) fullShare (iblk m c 2 t) := by
  unfold Dat.leavesExact; rw [live2 t, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before_of3 m (dats m 0 c) (A_eq m c 3) (after3 m c) t d
theorem leaves3 (c : Dev nD) (t : Fin cfg0.N) : (dats m 0 c).leavesExact 3 t = owns (c : Thread nD τ) (ms3 t) fullShare (iblk m c 3 t) := by
  unfold Dat.leavesExact; rw [live3 t, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before_of4 m (dats m 0 c) (A_eq m c 4) (after4 m c) t d
theorem leaves4 (c : Dev nD) (t : Fin cfg0.N) : (dats m 0 c).leavesExact 4 t = owns (c : Thread nD τ) (ms4 t) fullShare (iblk m c 4 t) := by
  unfold Dat.leavesExact; rw [live4 t, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before_of5 m (dats m 0 c) (A_eq m c 5) (after5 m c) t d
theorem leaves5 (c : Dev nD) (t : Fin cfg0.N) : (dats m 0 c).leavesExact 5 t = owns (c : Thread nD τ) (ms5 t) fullShare (iblk m c 5 t) := by
  unfold Dat.leavesExact; rw [live5 t, after5]
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before_of6 m (dats m 0 c) (A_eq m c 6) (after6 m c) t d
theorem leaves6 (c : Dev nD) (t : Fin cfg0.N) : (dats m 0 c).leavesExact 6 t = owns (c : Thread nD τ) (ms6 t) fullShare (iblk m c 6 t) := by
  unfold Dat.leavesExact; rw [live6 t, after6]
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before_of7 m (dats m 0 c) (A_eq m c 7) (after7 m c) t d
theorem leaves7 (c : Dev nD) (t : Fin cfg0.N) : (dats m 0 c).leavesExact 7 t = owns (c : Thread nD τ) (ms7 t) fullShare (iblk m c 7 t) := by
  unfold Dat.leavesExact; rw [live7 t, after7]
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before_of8 m (dats m 0 c) (A_eq m c 8) (after8 m c) t d
theorem leaves8 (c : Dev nD) (t : Fin cfg0.N) : (dats m 0 c).leavesExact 8 t = owns (c : Thread nD τ) (ms8 t) fullShare (iblk m c 8 t) := by
  unfold Dat.leavesExact; rw [live8 t, after8]
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before_of9 m (dats m 0 c) (A_eq m c 9) (after9 m c) t d
theorem leaves9 (c : Dev nD) (t : Fin cfg0.N) : (dats m 0 c).leavesExact 9 t = owns (c : Thread nD τ) (ms9 t) fullShare (iblk m c 9 t) := by
  unfold Dat.leavesExact; rw [live9 t, after9]
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before_of10 m (dats m 0 c) (A_eq m c 10) (after10 m c) t d
theorem leaves10 (c : Dev nD) (t : Fin cfg0.N) : (dats m 0 c).leavesExact 10 t = owns (c : Thread nD τ) (ms10 t) fullShare (iblk m c 10 t) := by
  unfold Dat.leavesExact; rw [live10 t, after10]
theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before_of11 m (dats m 0 c) (A_eq m c 11) (after11 m c) t d
theorem leaves11 (c : Dev nD) (t : Fin cfg0.N) : (dats m 0 c).leavesExact 11 t = owns (c : Thread nD τ) (ms11 t) fullShare (iblk m c 11 t) := by
  unfold Dat.leavesExact; rw [live11 t, after11]
theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before_of12 m (dats m 0 c) (A_eq m c 12) (after12 m c) t d
theorem leaves12 (c : Dev nD) (t : Fin cfg0.N) : (dats m 0 c).leavesExact 12 t = owns (c : Thread nD τ) (ms12 t) fullShare (iblk m c 12 t) := by
  unfold Dat.leavesExact; rw [live12 t, after12]
theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before_of13 m (dats m 0 c) (A_eq m c 13) (after13 m c) t d
theorem leaves13 (c : Dev nD) (t : Fin cfg0.N) : (dats m 0 c).leavesExact 13 t = owns (c : Thread nD τ) (ms13 t) fullShare (iblk m c 13 t) := by
  unfold Dat.leavesExact; rw [live13 t, after13]
theorem after14 (c : Dev nD) (t : Fin cfg0.N) : (dats m 0 c).after 14 t = iblk m c 14 t := by dsimp only [dats]
theorem before14 (c : Dev nD) (t : Fin cfg0.N) (d) : (dats m 0 c).before 14 t d = iblk m c 14 t :=
  before_of14 m (dats m 0 c) (A_eq m c 14) (after14 m c) t d
theorem leaves14 (c : Dev nD) (t : Fin cfg0.N) : (dats m 0 c).leavesExact 14 t = owns (c : Thread nD τ) (ms14 t) fullShare (iblk m c 14 t) := by
  unfold Dat.leavesExact; rw [live14 t, after14]
theorem after15 (c : Dev nD) (t : Fin cfg0.N) : (dats m 0 c).after 15 t = (outsAt m c t.val t.isLt).1 := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The body at any position: the inputs' memrefs hold their blocks; the closed forms say which of the three cases the
    position is in; that case's run applies, the invariant handing it the scratch at what the position before left
    (at anything at the very first position) and taking it back at this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  simp only [leaves0, leaves1, leaves2, leaves3, leaves4, leaves5, leaves6, leaves7, leaves8, leaves9, leaves10, leaves11, leaves12, leaves13, leaves14]
  by_cases h0 : t.val % 4 = 0
  · by_cases h1 : t.val % 4 = 3
    · exfalso; omega
    · rw [Dat.leavesExact_idle (dats m 0 c) 15 t (idleOut_first t ((isFirst_iff t).mpr h0) (fun h => h1 ((isLast_iff t).mp h))) (noFlush_first t ((isFirst_iff t).mpr h0) (fun h => h1 ((isLast_iff t).mp h)))]
      rw [outsAt_first m c t h0 h1]
      (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resFirst m c t ((isFirst_iff t).mpr h0) (fun h => h1 ((isLast_iff t).mp h))).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS]; · iexact HS
        iintro ⟨H0, H1, H2, H3, H4, H5, H6, H7, H8, H9, H10, H11, H12, H13, H14, H15, ⟨%es, HS⟩⟩
        isplitl [HS Hg]
        · isplitl [HS]
          · unfold owns; iexists _; isplitr
            swap; · iexact HS
            ipureintro; exact View.read_writes_of_cover _ _ _ _ _ (scoverFirst m c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resFirst m c t ((isFirst_iff t).mpr h0) (fun h => h1 ((isLast_iff t).mp h))).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS]; · iexists _; iexact HS
        iintro ⟨H0, H1, H2, H3, H4, H5, H6, H7, H8, H9, H10, H11, H12, H13, H14, H15, ⟨%es, HS⟩⟩
        isplitl [HS Hg]
        · isplitl [HS]
          · unfold owns; iexists _; isplitr
            swap; · iexact HS
            ipureintro; exact View.read_writes_of_cover _ _ _ _ _ (scoverFirst m c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
  · by_cases h1 : t.val % 4 = 3
    · rw [show (dats m 0 c).leavesExact 15 t = owns (c : Thread nD τ) (ms15 t) fullShare ((dats m 0 c).after 15 t) from by
        unfold Dat.leavesExact; rw [liveOut_last t (fun h => h0 ((isFirst_iff t).mp h)) ((isLast_iff t).mpr h1)], after15]
      rw [outsAt_last m c t h0 h1]
      (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resLast m c t (fun h => h0 ((isFirst_iff t).mp h)) ((isLast_iff t).mpr h1) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [HS]; · iexact HS
        iintro ⟨H0, H1, H2, H3, H4, H5, H6, H7, H8, H9, H10, H11, H12, H13, H14, ⟨%eo, H15⟩, ⟨%es, HS⟩⟩
        isplitl [HS Hg]
        · isplitl [HS]
          · unfold owns; iexists _; isplitr
            swap; · iexact HS
            ipureintro; exact View.read_writes_of_cover _ _ _ _ _ (scoverLast m c t _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        unfold owns; iexists _; isplitr
        swap; · iexact H15
        ipureintro; exact View.read_writes_of_cover _ _ _ _ _ (ocoverLast m c t _ _ _)
    · rw [Dat.leavesExact_idle (dats m 0 c) 15 t (idleOut_mid t (fun h => h0 ((isFirst_iff t).mp h)) (fun h => h1 ((isLast_iff t).mp h))) (noFlush_mid t (fun h => h0 ((isFirst_iff t).mp h)) (fun h => h1 ((isLast_iff t).mp h)))]
      rw [outsAt_mid m c t h0 h1]
      (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resMid m c t (fun h => h0 ((isFirst_iff t).mp h)) (fun h => h1 ((isLast_iff t).mp h)) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS]; · iexact HS
        iintro ⟨H0, H1, H2, H3, H4, H5, H6, H7, H8, H9, H10, H11, H12, H13, H14, H15, ⟨%es, HS⟩⟩
        isplitl [HS Hg]
        · isplitl [HS]
          · unfold owns; iexists _; isplitr
            swap; · iexact HS
            ipureintro; exact View.read_writes_of_cover _ _ _ _ _ (scoverMid m c t _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15

/-- The pipeline's body obligation, at every position. -/
theorem body_obligation (c : Dev nD) : BodyObligation (dats (F := F) m 0 c) (defs₀ (F := F)) Variants.none () Set.univ := fun t => by
  rw [bigSep_W0, bigSep_W0]
  exact sound_body m c t

/-- What the launch hands the region is the invariant before the first position. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last position the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.Kernel.Hand

end
-- ==== Proof.KLaunchA.lean ====
/-
  The run of the whole program: the four host operations, the pallas_call, the three host operations after it.

  The kernel is handed the array of points TWICE — once as the window of all 128 points of a cloud and once as the
  window of the current chunk of 32 — so the two windows hold the two halves of that array's share; every other array
  is held whole by its one window. After the region the array of outputs holds what the proof data computes and every
  other buffer what it held at the region's entry; the host operations after it (a reshape, the constant -inf, the
  maximum over the four clouds of a batch element) then run from that valuation.
-/
import proofs.«102768_j73547019976967_2_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' arrays, one by one -/

/-- The fifteen distinct buffers behind the sixteen windows. -/
abbrev arrList : List (Ref sig .tc) := [main_v1, main_v2, main_v3, main_arg2, main_arg3, main_arg4, main_arg5, main_arg6, main_arg7, main_arg8, main_arg9, main_arg10, main_arg11, main_arg12, main_v4]

theorem arrBufs_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v2) ↦{fullShare} Vv main_v2) ∗ (((c : Thread nD τ).loc main_v3) ↦{fullShare} Vv main_v3) ∗ (((c : Thread nD τ).loc main_arg2) ↦{fullShare} Vv main_arg2) ∗ (((c : Thread nD τ).loc main_arg3) ↦{fullShare} Vv main_arg3) ∗ (((c : Thread nD τ).loc main_arg4) ↦{fullShare} Vv main_arg4) ∗ (((c : Thread nD τ).loc main_arg5) ↦{fullShare} Vv main_arg5) ∗ (((c : Thread nD τ).loc main_arg6) ↦{fullShare} Vv main_arg6) ∗ (((c : Thread nD τ).loc main_arg7) ↦{fullShare} Vv main_arg7) ∗ (((c : Thread nD τ).loc main_arg8) ↦{fullShare} Vv main_arg8) ∗ (((c : Thread nD τ).loc main_arg9) ↦{fullShare} Vv main_arg9) ∗ (((c : Thread nD τ).loc main_arg10) ↦{fullShare} Vv main_arg10) ∗ (((c : Thread nD τ).loc main_arg11) ↦{fullShare} Vv main_arg11) ∗ (((c : Thread nD τ).loc main_arg12) ↦{fullShare} Vv main_arg12) ∗ (((c : Thread nD τ).loc main_v4) ↦{fullShare} Vv main_v4)) := by
  unfold Pipeline.arrBufs
  rw [bigSep_eq_bigSepL_of_eq arrList (by decide) (by decide)]
  rfl

/-- The proof data's arrays: the array of points at the two half shares, the others whole. -/
theorem arrays_eq' (c : Dev nD) (Fv : (w : Fin cfg0.W) → Buf (Elt F) ((cfg0.win w).arr.view.loc (c : Thread nD τ))) :
    ((dats m 0 c).arrays Fv : sProp 𝕄)
      = iprop((((c : Thread nD τ).loc main_v1) ↦{fullShare.left} Fv 0) ∗ (((c : Thread nD τ).loc main_v1) ↦{fullShare.right} Fv 1) ∗ (((c : Thread nD τ).loc main_v2) ↦{fullShare} Fv 2) ∗ (((c : Thread nD τ).loc main_v3) ↦{fullShare} Fv 3) ∗ (((c : Thread nD τ).loc main_arg2) ↦{fullShare} Fv 4) ∗ (((c : Thread nD τ).loc main_arg3) ↦{fullShare} Fv 5) ∗ (((c : Thread nD τ).loc main_arg4) ↦{fullShare} Fv 6) ∗ (((c : Thread nD τ).loc main_arg5) ↦{fullShare} Fv 7) ∗ (((c : Thread nD τ).loc main_arg6) ↦{fullShare} Fv 8) ∗ (((c : Thread nD τ).loc main_arg7) ↦{fullShare} Fv 9) ∗ (((c : Thread nD τ).loc main_arg8) ↦{fullShare} Fv 10) ∗ (((c : Thread nD τ).loc main_arg9) ↦{fullShare} Fv 11) ∗ (((c : Thread nD τ).loc main_arg10) ↦{fullShare} Fv 12) ∗ (((c : Thread nD τ).loc main_arg11) ↦{fullShare} Fv 13) ∗ (((c : Thread nD τ).loc main_arg12) ↦{fullShare} Fv 14) ∗ (((c : Thread nD τ).loc main_v4) ↦{fullShare} Fv 15)) := by
  unfold Pipeline.Dat.arrays
  rw [show (bigSep Finset.univ fun w : Fin cfg0.W => ((cfg0.win w).arr.view.loc (c : Thread nD τ) ↦[(cfg0.win w).arr.view.set]{(dats m 0 c).share w} Fv w : sProp 𝕄))
        = bigSep Finset.univ fun w : Fin 16 => (((c : Thread nD τ).loc (Pipeline.arrRef spec0 w)) ↦{(dats m 0 c).share w} Fv w : sProp 𝕄) from
      bigSep_congr fun w _ => by rw [(arr_whole0 w).set_eq_univ]]
  rw [bigSep_W0]
  rfl

/-- The buffers behind the arrays, whole, are the proof data's arrays: the array of points split along its share. -/
theorem arrays_of_bufs (c : Dev nD) (Vv : (b : Ref sig .tc) → Buf (Elt F) ((c : Thread nD τ).loc b)) :
    (Pipeline.arrBufs spec0 c Vv : sProp 𝕄) ⊢ (dats m 0 c).arrays (fun w => Vv (Pipeline.arrRef spec0 w)) := by
  rw [arrBufs_eq, arrays_eq']
  iintro ⟨H1, Hrest⟩
  ihave H := (pointsTo_share (PosShare.mem_left_op_right fullShare)).1 $$ H1
  icases H with ⟨Hl, Hr⟩
  isplitl [Hl]; · iexact Hl
  isplitl [Hr]; · iexact Hr
  iexact Hrest

/-- And back: the two halves joined. -/
theorem bufs_of_arrays (c : Dev nD) (Vv : (b : Ref sig .tc) → Buf (Elt F) ((c : Thread nD τ).loc b)) :
    ((dats m 0 c).arrays (fun w => Vv (Pipeline.arrRef spec0 w)) : sProp 𝕄) ⊢ Pipeline.arrBufs spec0 c Vv := by
  rw [arrBufs_eq, arrays_eq']
  iintro ⟨Hl, Hr, Hrest⟩
  isplitl [Hl Hr]
  · iapply (pointsTo_share (PosShare.mem_left_op_right fullShare)).2
    isplitl [Hl]; · iexact Hl
    iexact Hr
  iexact Hrest

/-! ## The buffers after the region -/

/-- Core `c`'s buffers when the region is left: the array of outputs at what the proof data computes, every other
    buffer as the region found it. -/
def Wv (c : Dev nD) : Valuation τ sig (Elt F) :=
  Function.update (V0 m c) (Proc.devRef .tc main_v4) ((dats m 0 c).arrAt 15 cfg0.N)

/-- Every window's array at the region's exit is `Wv`'s: an input's array is never written. -/
theorem arrAt_exit (c : Dev nD) (w : Fin cfg0.W) :
    (dats m 0 c).arrAt w cfg0.N = Wv m c (Proc.devRef .tc (Pipeline.arrRef spec0 w)) := by
  unfold Wv
  fin_cases w
  · exact ((dats m 0 c).arrAt_in 0 rfl _).trans ((A_eq m c 0).trans (Function.update_of_ne (StableHlo.devRef_ne_of_ne (τ := τ) (show (main_v1 : Ref sig .tc) ≠ main_v4 by decide)) ((dats m 0 c).arrAt 15 cfg0.N) (V0 m c)).symm)
  · exact ((dats m 0 c).arrAt_in 1 rfl _).trans ((A_eq m c 1).trans (Function.update_of_ne (StableHlo.devRef_ne_of_ne (τ := τ) (show (main_v1 : Ref sig .tc) ≠ main_v4 by decide)) ((dats m 0 c).arrAt 15 cfg0.N) (V0 m c)).symm)
  · exact ((dats m 0 c).arrAt_in 2 rfl _).trans ((A_eq m c 2).trans (Function.update_of_ne (StableHlo.devRef_ne_of_ne (τ := τ) (show (main_v2 : Ref sig .tc) ≠ main_v4 by decide)) ((dats m 0 c).arrAt 15 cfg0.N) (V0 m c)).symm)
  · exact ((dats m 0 c).arrAt_in 3 rfl _).trans ((A_eq m c 3).trans (Function.update_of_ne (StableHlo.devRef_ne_of_ne (τ := τ) (show (main_v3 : Ref sig .tc) ≠ main_v4 by decide)) ((dats m 0 c).arrAt 15 cfg0.N) (V0 m c)).symm)
  · exact ((dats m 0 c).arrAt_in 4 rfl _).trans ((A_eq m c 4).trans (Function.update_of_ne (StableHlo.devRef_ne_of_ne (τ := τ) (show (main_arg2 : Ref sig .tc) ≠ main_v4 by decide)) ((dats m 0 c).arrAt 15 cfg0.N) (V0 m c)).symm)
  · exact ((dats m 0 c).arrAt_in 5 rfl _).trans ((A_eq m c 5).trans (Function.update_of_ne (StableHlo.devRef_ne_of_ne (τ := τ) (show (main_arg3 : Ref sig .tc) ≠ main_v4 by decide)) ((dats m 0 c).arrAt 15 cfg0.N) (V0 m c)).symm)
  · exact ((dats m 0 c).arrAt_in 6 rfl _).trans ((A_eq m c 6).trans (Function.update_of_ne (StableHlo.devRef_ne_of_ne (τ := τ) (show (main_arg4 : Ref sig .tc) ≠ main_v4 by decide)) ((dats m 0 c).arrAt 15 cfg0.N) (V0 m c)).symm)
  · exact ((dats m 0 c).arrAt_in 7 rfl _).trans ((A_eq m c 7).trans (Function.update_of_ne (StableHlo.devRef_ne_of_ne (τ := τ) (show (main_arg5 : Ref sig .tc) ≠ main_v4 by decide)) ((dats m 0 c).arrAt 15 cfg0.N) (V0 m c)).symm)
  · exact ((dats m 0 c).arrAt_in 8 rfl _).trans ((A_eq m c 8).trans (Function.update_of_ne (StableHlo.devRef_ne_of_ne (τ := τ) (show (main_arg6 : Ref sig .tc) ≠ main_v4 by decide)) ((dats m 0 c).arrAt 15 cfg0.N) (V0 m c)).symm)
  · exact ((dats m 0 c).arrAt_in 9 rfl _).trans ((A_eq m c 9).trans (Function.update_of_ne (StableHlo.devRef_ne_of_ne (τ := τ) (show (main_arg7 : Ref sig .tc) ≠ main_v4 by decide)) ((dats m 0 c).arrAt 15 cfg0.N) (V0 m c)).symm)
  · exact ((dats m 0 c).arrAt_in 10 rfl _).trans ((A_eq m c 10).trans (Function.update_of_ne (StableHlo.devRef_ne_of_ne (τ := τ) (show (main_arg8 : Ref sig .tc) ≠ main_v4 by decide)) ((dats m 0 c).arrAt 15 cfg0.N) (V0 m c)).symm)
  · exact ((dats m 0 c).arrAt_in 11 rfl _).trans ((A_eq m c 11).trans (Function.update_of_ne (StableHlo.devRef_ne_of_ne (τ := τ) (show (main_arg9 : Ref sig .tc) ≠ main_v4 by decide)) ((dats m 0 c).arrAt 15 cfg0.N) (V0 m c)).symm)
  · exact ((dats m 0 c).arrAt_in 12 rfl _).trans ((A_eq m c 12).trans (Function.update_of_ne (StableHlo.devRef_ne_of_ne (τ := τ) (show (main_arg10 : Ref sig .tc) ≠ main_v4 by decide)) ((dats m 0 c).arrAt 15 cfg0.N) (V0 m c)).symm)
  · exact ((dats m 0 c).arrAt_in 13 rfl _).trans ((A_eq m c 13).trans (Function.update_of_ne (StableHlo.devRef_ne_of_ne (τ := τ) (show (main_arg11 : Ref sig .tc) ≠ main_v4 by decide)) ((dats m 0 c).arrAt 15 cfg0.N) (V0 m c)).symm)
  · exact ((dats m 0 c).arrAt_in 14 rfl _).trans ((A_eq m c 14).trans (Function.update_of_ne (StableHlo.devRef_ne_of_ne (τ := τ) (show (main_arg12 : Ref sig .tc) ≠ main_v4 by decide)) ((dats m 0 c).arrAt 15 cfg0.N) (V0 m c)).symm)
  · exact (Function.update_self (Proc.devRef (τ := τ) .tc main_v4) ((dats m 0 c).arrAt 15 cfg0.N) (V0 m c)).symm

/-- The buffers that are no window's array are as the region found them. -/
theorem rest_exit (c : Dev nD) :
    (Pipeline.unscopedRest spec0 c (V m c) : sProp 𝕄) = Pipeline.unscopedRest spec0 c (fun b => Wv m c (Proc.devRef .tc b)) := by
  unfold Pipeline.unscopedRest
  refine bigSep_congr fun b hb => ?_
  have hne : b ≠ main_v4 := fun e => (Finset.mem_sdiff.mp hb).2 (Finset.mem_image.mpr ⟨15, Finset.mem_univ _, e ▸ rfl⟩)
  unfold Wv
  dsimp only
  rw [Function.update_of_ne (StableHlo.devRef_ne_of_ne hne)]

/-- No window's array is a buffer the host lines after the region write. -/
theorem arr_ne : ∀ w : Fin 16, Pipeline.arrRef spec0 w ≠ main_v5 ∧ Pipeline.arrRef spec0 w ≠ main_cst ∧ Pipeline.arrRef spec0 w ≠ main_v6 := by decide

set_option maxHeartbeats 1600000 in
/-- So no host line after the region writes a window's array. -/
theorem tail_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  rcases hop with rfl | rfl | rfl
  · rw [StableHlo.reshape_writes, Finset.mem_singleton]; exact StableHlo.devRef_ne_of_ne (arr_ne w).1
  · rw [StableHlo.nullary_writes, Finset.mem_singleton]; exact StableHlo.devRef_ne_of_ne (arr_ne w).2.1
  · rw [StableHlo.binary_writes, Finset.mem_singleton]; exact StableHlo.devRef_ne_of_ne (arr_ne w).2.2

/-- The valuation after those lines. -/
abbrev Wend (c : Dev nD) : Valuation τ sig (Elt F) := StableHlo.after hostOps1 (Wv m c)

theorem arrAt_end (c : Dev nD) (w : Fin cfg0.W) :
    (dats m 0 c).arrAt w cfg0.N = Wend m c (Proc.devRef .tc (Pipeline.arrRef spec0 w)) := by
  rw [arrAt_exit m c w]
  exact (StableHlo.after_of_forall_not_mem hostOps1 (Wv m c) fun op hop => tail_keeps op hop w).symm

/-- At the region's exit the arrays and the other buffers are all the unscoped buffers, at `Wv`. -/
theorem exit_to_held (c : Dev nD) :
    iprop(((dats m 0 c).arrays ((dats m 0 c).arrAt · cfg0.N) : sProp 𝕄) ∗ Pipeline.unscopedRest spec0 c (V m c))
      ⊢ StableHlo.held (c.tc : Thread nD τ) (Pipeline.ucRefs τ sig) (Wv m c) := by
  have h1 : ((dats m 0 c).arrays ((dats m 0 c).arrAt · cfg0.N) : sProp 𝕄)
      = (dats m 0 c).arrays (fun w => (fun b : Ref sig .tc => Wv m c (Proc.devRef .tc b)) (Pipeline.arrRef spec0 w)) :=
    congrArg (dats m 0 c).arrays (funext (arrAt_exit m c))
  have h2 : (StableHlo.held (c.tc : Thread nD τ) (Pipeline.ucRefs τ sig) (Wv m c) : sProp 𝕄)
      = iprop((Pipeline.arrBufs spec0 c (fun b : Ref sig .tc => Wv m c (Proc.devRef .tc b)) : sProp 𝕄) ∗ Pipeline.unscopedRest spec0 c (fun b => Wv m c (Proc.devRef .tc b))) :=
    (Pipeline.unscopedBufs_held (Ix := Unit) (Name := ℕ) (U := UR sig nD τ) (Lvl := ℕ) c (Wv m c)).symm.trans
      (Pipeline.unscopedBufs_split₀ cfgs 0 winFacts₀0.arr_unscoped c _)
  exact (BIClass.sep_mono ((Entails.of_eq h1).trans (bufs_of_arrays m c (fun b : Ref sig .tc => Wv m c (Proc.devRef .tc b)))) (Entails.of_eq (rest_exit m c))).trans (Entails.of_eq h2.symm)

/-- After the host lines the unscoped buffers, at `Wend`, are again the arrays (unchanged) and the rest. -/
theorem held_to_end (c : Dev nD) :
    (StableHlo.held (c.tc : Thread nD τ) (Pipeline.ucRefs τ sig) (StableHlo.after ([hostOps1] : List (List (HloOp τ sig (Elt F)))).flatten (Wv m c)) : sProp 𝕄)
      ⊢ iprop((dats m 0 c).arrays ((dats m 0 c).arrAt · cfg0.N) ∗ Pipeline.unscopedRest spec0 c (fun b => Wend m c (Proc.devRef .tc b))) := by
  have h0 : ([hostOps1] : List (List (HloOp τ sig (Elt F)))).flatten = hostOps1 := by
    simp only [List.flatten_cons, List.flatten_nil, List.append_nil]
  have h1 : ((dats m 0 c).arrays ((dats m 0 c).arrAt · cfg0.N) : sProp 𝕄)
      = (dats m 0 c).arrays (fun w => (fun b : Ref sig .tc => Wend m c (Proc.devRef .tc b)) (Pipeline.arrRef spec0 w)) :=
    congrArg (dats m 0 c).arrays (funext (arrAt_end m c))
  have h2 : (StableHlo.held (c.tc : Thread nD τ) (Pipeline.ucRefs τ sig) (Wend m c) : sProp 𝕄)
      = iprop((Pipeline.arrBufs spec0 c (fun b : Ref sig .tc => Wend m c (Proc.devRef .tc b)) : sProp 𝕄) ∗ Pipeline.unscopedRest spec0 c (fun b => Wend m c (Proc.devRef .tc b))) :=
    (Pipeline.unscopedBufs_held (Ix := Unit) (Name := ℕ) (U := UR sig nD τ) (Lvl := ℕ) c (Wend m c)).symm.trans
      (Pipeline.unscopedBufs_split₀ cfgs 0 winFacts₀0.arr_unscoped c _)
  rw [h0]
  exact (Entails.of_eq h2).trans (BIClass.sep_mono ((arrays_of_bufs m c (fun b : Ref sig .tc => Wend m c (Proc.devRef .tc b))).trans (Entails.of_eq h1.symm)) .rfl)

set_option maxHeartbeats 1000000 in
set_option backward.isDefEq.respectTransparency.types false in
/-- THE LINES AFTER THE REGION: from the region's exit — the arrays at their final contents, the other buffers as
    found — they run, and hand back the arrays at the same contents and the other buffers at the lines' results. -/
theorem htail (𝒱₀ : Variants) (c : Dev nD) (Q' : PUnit → sProp 𝕄) :
    iprop((iprop((dats m 0 c).arrays ((dats m 0 c).arrAt · cfg0.N) ∗ Pipeline.unscopedRest spec0 c (fun b => Wend m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c.tc : Thread nD τ) none) Set.univ (Pipeline.chain [StableHlo.seq hostOps1]) Q' := by
  rw [show (Pipeline.chain [StableHlo.seq hostOps1] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, Ha, HZ⟩
  ihave Hh := (exit_to_held m c) $$ [Ha HZ]
  · isplitl [Ha] <;> iassumption
  iapply (Pipeline.wp_seqs_then (pcfgs (F := F)) defs₀ 𝒱₀ c (Pipeline.ucRefs τ sig) [] [hostOps1]
    (fun ops ho op h => by
      simp only [List.mem_cons, List.mem_nil_iff, or_false] at ho; subst ho
      exact Pipeline.sub_ucRefs op ((List.forall_iff_forall_mem.mp hostOps1_sub) op h))
    (fun ops ho op h => by
      simp only [List.mem_cons, List.mem_nil_iff, or_false] at ho; subst ho
      exact (List.forall_iff_forall_mem.mp hostOps1_fresh) op h) (Wv m c)) $$ [Hb Hh]
  · isplitl [Hb] <;> iassumption
  iintro Hb
  rw [Pipeline.chain_nil, wp_pure]
  imodintro
  iapply Hk
  icases Hb with ⟨-, H⟩
  iapply (held_to_end m c)
  iexact H

end Cert.Kernel.Hand

end
-- ==== Proof.KLaunch.lean ====
/-
  The run of the whole program, by the pipeline library's launch theorem for a region followed by host lines, with the
  layout facts of a call whose windows share an array.
-/
import proofs.«102768_j73547019976967_2_alg».proof.Proof.KLaunchA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What every final state satisfies: each window's array at what the proof data computes, every other unscoped
    buffer at the result of the host lines after the region. -/
def RunPost : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = Wend m c (Proc.devRef .tc b)

set_option backward.isDefEq.respectTransparency.types false in
/-- At the compiled mesh, from any memory with zero counters: every weakly fair execution of @main terminates, nothing
    faulting, in a state satisfying `RunPost`. -/
theorem run_main : θ_run defs (onTc (τ := τ) (main (F := F))) ⟨m, fun _ => 0, ρ⟩ (RunPost m) :=
  Pipeline.θ_run_region_pf_tail (pcfgs (F := F)) (fun p => (cfgs p).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [show ((dats m 0 c).arrAt · 0) = fun w => V m c (Pipeline.arrRef spec0 w) from funext fun w => A_eq m c w]
      exact arrays_of_bufs m c (V m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m Variants.none c Q')
    (QY := fun c s => ∀ b ∈ Pipeline.restRefs sig spec0, s.mem ((c.tc : Thread nD τ).loc b) = Wend m c (Proc.devRef .tc b))
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

end Cert.Kernel.Hand

end
-- ==== Proof.KKept.lean ====
/-
  What the run's post says of the thirteen argument arrays and of the result.

  No host operation writes an argument (each writes only its own result buffer) and the kernel's input windows are
  never written back, so every argument ends as it started; the result buffer ends at what the three host operations
  after the region compute from the array of outputs.
-/
import proofs.«102768_j73547019976967_2_alg».proof.Proof.KLaunch

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

set_option maxHeartbeats 1600000 in
/-- The host lines before the region write only their own four results. -/
theorem host0_keeps (b : Ref sig .tc) (hb : b ≠ main_v0 ∧ b ≠ main_v1 ∧ b ≠ main_v2 ∧ b ≠ main_v3) :
    ∀ op ∈ (hostOps0 : List (HloOp τ sig (Elt F))), Proc.devRef .tc b ∉ op.writes := by
  obtain ⟨h0, h1, h2, h3⟩ := hb
  intro op hop
  simp only [hostOps0, List.mem_cons, List.mem_nil_iff, or_false] at hop
  rcases hop with rfl | rfl | rfl | rfl
  · rw [StableHlo.reshape_writes, Finset.mem_singleton]; exact StableHlo.devRef_ne_of_ne h0
  · rw [StableHlo.reshape_writes, Finset.mem_singleton]; exact StableHlo.devRef_ne_of_ne h1
  · rw [StableHlo.unary_writes, Finset.mem_singleton]; exact StableHlo.devRef_ne_of_ne h2
  · rw [StableHlo.unary_writes, Finset.mem_singleton]; exact StableHlo.devRef_ne_of_ne h3

set_option maxHeartbeats 1600000 in
/-- The host lines after the region write only their own three results. -/
theorem host1_keeps (b : Ref sig .tc) (hb : b ≠ main_v5 ∧ b ≠ main_cst ∧ b ≠ main_v6) :
    ∀ op ∈ (hostOps1 : List (HloOp τ sig (Elt F))), Proc.devRef .tc b ∉ op.writes := by
  obtain ⟨h0, h1, h2⟩ := hb
  intro op hop
  simp only [hostOps1, List.mem_cons, List.mem_nil_iff, or_false] at hop
  rcases hop with rfl | rfl | rfl
  · rw [StableHlo.reshape_writes, Finset.mem_singleton]; exact StableHlo.devRef_ne_of_ne h0
  · rw [StableHlo.nullary_writes, Finset.mem_singleton]; exact StableHlo.devRef_ne_of_ne h1
  · rw [StableHlo.binary_writes, Finset.mem_singleton]; exact StableHlo.devRef_ne_of_ne h2

/-- A buffer the first four host lines do not write is, at the region's entry, as launched. -/
theorem V_kept (c : Dev nD) (b : Ref sig .tc) (hb : b ≠ main_v0 ∧ b ≠ main_v1 ∧ b ≠ main_v2 ∧ b ≠ main_v3) :
    V m c b = m ((c : Thread nD τ).loc b) := by
  show StableHlo.after (List.flatten [hostOps0]) (fun b => m (c, b)) (Proc.devRef .tc b) = _
  rw [show List.flatten [hostOps0] = (hostOps0 : List (HloOp τ sig (Elt F))) from by simp only [List.flatten_cons, List.flatten_nil, List.append_nil]]
  exact StableHlo.after_of_forall_not_mem hostOps0 _ (host0_keeps b hb)

/-- A buffer no host line writes and that is not the array of outputs ends as launched. -/
theorem Wend_kept (c : Dev nD) (b : Ref sig .tc) (hb0 : b ≠ main_v0 ∧ b ≠ main_v1 ∧ b ≠ main_v2 ∧ b ≠ main_v3)
    (hb1 : b ≠ main_v5 ∧ b ≠ main_cst ∧ b ≠ main_v6) (hb4 : b ≠ main_v4) :
    Wend m c (Proc.devRef .tc b) = m ((c : Thread nD τ).loc b) := by
  show StableHlo.after hostOps1 (Wv m c) (Proc.devRef .tc b) = _
  rw [StableHlo.after_of_forall_not_mem hostOps1 _ (host1_keeps b hb1)]
  unfold Wv
  rw [Function.update_of_ne (StableHlo.devRef_ne_of_ne hb4)]
  exact V_kept m c b hb0

/-- An argument that is an input window's whole array ends as launched. -/
theorem arr_kept (c : Dev nD) (w : Fin cfg0.W) (hw : (cfg0.win w).isOut = false)
    (hb : Pipeline.arrRef spec0 w ≠ main_v0 ∧ Pipeline.arrRef spec0 w ≠ main_v1 ∧ Pipeline.arrRef spec0 w ≠ main_v2 ∧ Pipeline.arrRef spec0 w ≠ main_v3) :
    (dats m 0 c).arrAt w cfg0.N = m ((c : Thread nD τ).loc (Pipeline.arrRef spec0 w)) :=
  ((dats m 0 c).arrAt_in w hw _).trans ((A_eq m c w).trans (V_kept m c _ hb))

/-- Every argument array ends unchanged. -/
theorem kept_of_post {r : PUnit × MemSt nD τ sig (Elt F)} (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨((h c).2 main_arg0 (by decide)).trans (Wend_kept m c main_arg0 (by decide) (by decide) (by decide)),
   ((h c).2 main_arg1 (by decide)).trans (Wend_kept m c main_arg1 (by decide) (by decide) (by decide)),
   ((h c).1 4).trans (arr_kept m c 4 rfl (by decide)),
   ((h c).1 5).trans (arr_kept m c 5 rfl (by decide)),
   ((h c).1 6).trans (arr_kept m c 6 rfl (by decide)),
   ((h c).1 7).trans (arr_kept m c 7 rfl (by decide)),
   ((h c).1 8).trans (arr_kept m c 8 rfl (by decide)),
   ((h c).1 9).trans (arr_kept m c 9 rfl (by decide)),
   ((h c).1 10).trans (arr_kept m c 10 rfl (by decide)),
   ((h c).1 11).trans (arr_kept m c 11 rfl (by decide)),
   ((h c).1 12).trans (arr_kept m c 12 rfl (by decide)),
   ((h c).1 13).trans (arr_kept m c 13 rfl (by decide)),
   ((h c).1 14).trans (arr_kept m c 14 rfl (by decide))⟩

/-- The result buffer ends at what the host lines after the region compute. -/
theorem result_of_post {r : PUnit × MemSt nD τ sig (Elt F)} (h : RunPost m r) (c : Dev nD) :
    r.2.mem ((c.tc : Thread nD τ).loc main_v6) = Wend m c (Proc.devRef .tc main_v6) :=
  (h c).2 main_v6 (by decide)

end Cert.Kernel.Hand

end
-- ==== Proof.KIRuns.lean ====
/-
  What the three runs of the kernel body share.

  The body of the pallas_call is run at every point (a, t) of the grid 16 × 4: a names one of the 16 point
  clouds of 128 points, t one chunk of 32 "i" rows. It branches twice on t alone: at t = 0 it first resets the
  running maximum kept in the scratch buffer to -inf, and at t = 3 it also applies the three final layers to that
  maximum and stores the 40 results. So a point is in one of three cases: t = 0 (reset, no output), t = 1, 2
  (neither), t = 3 (output). Both conditions are decided here over the 64 points in closed form.
-/
import proofs.«102768_j73547019976967_2_alg».proof.Proof.Gen.KernelIdeal.Launch
import proofs.«102768_j73547019976967_2_alg».proof.Proof.Gen.KernelIdeal.Skeleton
import proofs.«102768_j73547019976967_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- "This is the first chunk": the body's first branch condition, as the chain of scalar operations on the
    second grid coordinate that the body computes. -/
abbrev isFirst (i : grid0.Coords) : Prop :=
  (Scalar.cmpi .ne (Scalar.extui (Scalar.cmpi .eq (BitVec.ofNat 32 (i 1).val) 0#32)) 0#32) = 1#1
/-- It holds exactly at the points whose position is a multiple of 4 (t = 0). -/
theorem isFirst_iff : ∀ t : Fin cfg0.N, isFirst (grid0.coords t) ↔ t.val % 4 = 0 :=
  (by decide +kernel : ∀ t : Fin grid0.N, isFirst (grid0.coords t) ↔ t.val % 4 = 0)

/-- "This is the last chunk": the body's second branch condition. -/
abbrev isLast (i : grid0.Coords) : Prop := k0_cond2 i = 1#1
/-- It holds exactly at the points whose position is 3 modulo 4 (t = 3). -/
theorem isLast_iff : ∀ t : Fin cfg0.N, isLast (grid0.coords t) ↔ t.val % 4 = 3 :=
  (by decide +kernel : ∀ t : Fin grid0.N, isLast (grid0.coords t) ↔ t.val % 4 = 3)

end Cert.KernelIdeal.Hand

end
-- ==== Proof.KIRunFirst.lean ====
/-
  The kernel body run at the first chunk of a cloud (t = 0): the running maximum is reset to -inf, then raised by this chunk's maxima; nothing is stored into the output block.

  On whole staging buffers — the fifteen inputs at given contents, the output block at contents handed back untouched, the
  scratch at anything — the body runs without fault and leaves the inputs as they were and the scratch
  with its stores written: the list of stored pieces is found while the body is run symbolically.
-/
import proofs.«102768_j73547019976967_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stored pieces (output block, then scratch), with the proof that the body runs to them. -/
noncomputable def runFirst (c : Dev nD) (i : grid0.Coords) (arg2 : Memref sig .tc .vmem S1x128x3 .f32) (harg2 : arg2.IsWhole) (arg3 : Memref sig .tc .vmem S1x32x3 .f32) (harg3 : arg3.IsWhole) (arg4 : Memref sig .tc .vmem S64x3 .f32) (harg4 : arg4.IsWhole) (arg5 : Memref sig .tc .vmem S64x3 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S256x128 .f32) (harg9 : arg9.IsWhole) (arg10 : Memref sig .tc .vmem S256 .f32) (harg10 : arg10.IsWhole) (arg11 : Memref sig .tc .vmem S512x256 .f32) (harg11 : arg11.IsWhole) (arg12 : Memref sig .tc .vmem S512 .f32) (harg12 : arg12.IsWhole) (arg13 : Memref sig .tc .vmem S256x512 .f32) (harg13 : arg13.IsWhole) (arg14 : Memref sig .tc .vmem S256 .f32) (harg14 : arg14.IsWhole) (arg15 : Memref sig .tc .vmem S40x256 .f32) (harg15 : arg15.IsWhole) (arg16 : Memref sig .tc .vmem S40 .f32) (harg16 : arg16.IsWhole) (arg17 : Memref sig .tc .vmem S1x1x40 .f32) (harg17 : arg17.IsWhole) (arg18 : Memref sig .tc .vmem S256x1 .f32) (harg18 : arg18.IsWhole) (hc0 : isFirst i) (hc1 : ¬isLast i)
    (x0 : Vec F S1x128x3 .f32) (x1 : Vec F S1x32x3 .f32) (x2 : Vec F S64x3 .f32) (x3 : Vec F S64x3 .f32) (x4 : Vec F S64 .f32) (x5 : Vec F S128x64 .f32) (x6 : Vec F S128 .f32) (x7 : Vec F S256x128 .f32) (x8 : Vec F S256 .f32) (x9 : Vec F S512x256 .f32) (x10 : Vec F S512 .f32) (x11 : Vec F S256x512 .f32) (x12 : Vec F S256 .f32) (x13 : Vec F S40x256 .f32) (x14 : Vec F S40 .f32) :
    Σ' (LO : List (View.Piece (Elt F) S1x1x40 .f32)), { LS : List (View.Piece (Elt F) S256x1 .f32) //
      ∀ (xo : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ (∃ f, arg18.view.loc (c : Thread nD τ) ↦[arg18.view.set]{fullShare} arg18.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xo E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HO]
    · iexists _; isplitr; · ipureintro; exact harg17.read_unread _
      iexact HO
    iexists _; iexact HS

end Cert.KernelIdeal.Hand

end
-- ==== Proof.KIRunMid.lean ====
/-
  The kernel body run at a middle chunk (t = 1, 2): the running maximum is raised by this chunk's maxima; nothing is stored into the output block.

  On whole staging buffers — the fifteen inputs at given contents, the output block at contents handed back untouched, the
  scratch at the running maximum the chunk before left — the body runs without fault and leaves the inputs as they were and the scratch
  with its stores written: the list of stored pieces is found while the body is run symbolically.
-/
import proofs.«102768_j73547019976967_2_alg».proof.Proof.KIRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stored pieces (output block, then scratch), with the proof that the body runs to them. -/
noncomputable def runMid (c : Dev nD) (i : grid0.Coords) (arg2 : Memref sig .tc .vmem S1x128x3 .f32) (harg2 : arg2.IsWhole) (arg3 : Memref sig .tc .vmem S1x32x3 .f32) (harg3 : arg3.IsWhole) (arg4 : Memref sig .tc .vmem S64x3 .f32) (harg4 : arg4.IsWhole) (arg5 : Memref sig .tc .vmem S64x3 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S256x128 .f32) (harg9 : arg9.IsWhole) (arg10 : Memref sig .tc .vmem S256 .f32) (harg10 : arg10.IsWhole) (arg11 : Memref sig .tc .vmem S512x256 .f32) (harg11 : arg11.IsWhole) (arg12 : Memref sig .tc .vmem S512 .f32) (harg12 : arg12.IsWhole) (arg13 : Memref sig .tc .vmem S256x512 .f32) (harg13 : arg13.IsWhole) (arg14 : Memref sig .tc .vmem S256 .f32) (harg14 : arg14.IsWhole) (arg15 : Memref sig .tc .vmem S40x256 .f32) (harg15 : arg15.IsWhole) (arg16 : Memref sig .tc .vmem S40 .f32) (harg16 : arg16.IsWhole) (arg17 : Memref sig .tc .vmem S1x1x40 .f32) (harg17 : arg17.IsWhole) (arg18 : Memref sig .tc .vmem S256x1 .f32) (harg18 : arg18.IsWhole) (hc0 : ¬isFirst i) (hc1 : ¬isLast i)
    (x0 : Vec F S1x128x3 .f32) (x1 : Vec F S1x32x3 .f32) (x2 : Vec F S64x3 .f32) (x3 : Vec F S64x3 .f32) (x4 : Vec F S64 .f32) (x5 : Vec F S128x64 .f32) (x6 : Vec F S128 .f32) (x7 : Vec F S256x128 .f32) (x8 : Vec F S256 .f32) (x9 : Vec F S512x256 .f32) (x10 : Vec F S512 .f32) (x11 : Vec F S256x512 .f32) (x12 : Vec F S256 .f32) (x13 : Vec F S40x256 .f32) (x14 : Vec F S40 .f32) (xs : Vec F S256x1 .f32) :
    Σ' (LO : List (View.Piece (Elt F) S1x1x40 .f32)), { LS : List (View.Piece (Elt F) S256x1 .f32) //
      ∀ (xo : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ owns (c : Thread nD τ) arg18 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo ∗ (∃ f, arg18.view.loc (c : Thread nD τ) ↦[arg18.view.set]{fullShare} arg18.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xo E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfo; obtain rfl := harg18.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HO]
    · iexists _; isplitr; · ipureintro; exact harg17.read_unread _
      iexact HO
    iexists _; iexact HS

end Cert.KernelIdeal.Hand

end
-- ==== Proof.KIRunLast.lean ====
/-
  The kernel body run at the last chunk (t = 3): the running maximum is raised by this chunk's maxima, and the three final layers applied to it are stored as the cloud's 40 outputs.

  On whole staging buffers — the fifteen inputs at given contents, the output block at anything, the
  scratch at the running maximum the chunk before left — the body runs without fault and leaves the inputs as they were and the scratch and the output block
  with its stores written: the list of stored pieces is found while the body is run symbolically.
-/
import proofs.«102768_j73547019976967_2_alg».proof.Proof.KIRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stored pieces (output block, then scratch), with the proof that the body runs to them. -/
noncomputable def runLast (c : Dev nD) (i : grid0.Coords) (arg2 : Memref sig .tc .vmem S1x128x3 .f32) (harg2 : arg2.IsWhole) (arg3 : Memref sig .tc .vmem S1x32x3 .f32) (harg3 : arg3.IsWhole) (arg4 : Memref sig .tc .vmem S64x3 .f32) (harg4 : arg4.IsWhole) (arg5 : Memref sig .tc .vmem S64x3 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S256x128 .f32) (harg9 : arg9.IsWhole) (arg10 : Memref sig .tc .vmem S256 .f32) (harg10 : arg10.IsWhole) (arg11 : Memref sig .tc .vmem S512x256 .f32) (harg11 : arg11.IsWhole) (arg12 : Memref sig .tc .vmem S512 .f32) (harg12 : arg12.IsWhole) (arg13 : Memref sig .tc .vmem S256x512 .f32) (harg13 : arg13.IsWhole) (arg14 : Memref sig .tc .vmem S256 .f32) (harg14 : arg14.IsWhole) (arg15 : Memref sig .tc .vmem S40x256 .f32) (harg15 : arg15.IsWhole) (arg16 : Memref sig .tc .vmem S40 .f32) (harg16 : arg16.IsWhole) (arg17 : Memref sig .tc .vmem S1x1x40 .f32) (harg17 : arg17.IsWhole) (arg18 : Memref sig .tc .vmem S256x1 .f32) (harg18 : arg18.IsWhole) (hc0 : ¬isFirst i) (hc1 : isLast i)
    (x0 : Vec F S1x128x3 .f32) (x1 : Vec F S1x32x3 .f32) (x2 : Vec F S64x3 .f32) (x3 : Vec F S64x3 .f32) (x4 : Vec F S64 .f32) (x5 : Vec F S128x64 .f32) (x6 : Vec F S128 .f32) (x7 : Vec F S256x128 .f32) (x8 : Vec F S256 .f32) (x9 : Vec F S512x256 .f32) (x10 : Vec F S512 .f32) (x11 : Vec F S256x512 .f32) (x12 : Vec F S256 .f32) (x13 : Vec F S40x256 .f32) (x14 : Vec F S40 .f32) (xs : Vec F S256x1 .f32) :
    Σ' (LO : List (View.Piece (Elt F) S1x1x40 .f32)), { LS : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f LO) ∗ (∃ f, arg18.view.loc (c : Thread nD τ) ↦[arg18.view.set]{fullShare} arg18.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%dout, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HO]; · iexists _; iexact HO
    iexists _; iexact HS

end Cert.KernelIdeal.Hand

end
-- ==== Proof.KIFrame.lean ====
/-
  The frame of the pallas_call, point by point.

  A point (a, t) of the grid 16 × 4 is at position 4a + t. The body keeps a running maximum in a scratch buffer:
  reset at t = 0, raised at every t by the maxima over this chunk's 32 × 128 pairs, and at t = 3 fed to the three
  final layers whose 40 results are stored into the output block of cloud a (written back only then). What the
  scratch and the output block hold after each position is defined by recursion on the position from the three
  runs of the body; the invariant between positions carries the scratch at exactly that contents; the proof data
  names every input buffer at its block of the array as the region finds it. From these the body's obligation to
  the pipeline follows at every position by the closed forms of the two branch conditions.
-/
import proofs.«102768_j73547019976967_2_alg».proof.Proof.KIRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the four host operations before it (two reshapes of the points,
    two column slices of the first weight matrix) have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at position `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every position, fetched there or not (an unfetched
    window's block index has not moved). -/
theorem before_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem live0 : ∀ t : Fin cfg0.N, cfg0.idle 0 (grid0.coords t) = false := by decide +kernel
/-- Input window 1's current staging buffer holds its block at every position, fetched there or not (an unfetched
    window's block index has not moved). -/
theorem before_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem live1 : ∀ t : Fin cfg0.N, cfg0.idle 1 (grid0.coords t) = false := by decide +kernel
/-- Input window 2's current staging buffer holds its block at every position, fetched there or not (an unfetched
    window's block index has not moved). -/
theorem before_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem live2 : ∀ t : Fin cfg0.N, cfg0.idle 2 (grid0.coords t) = false := by decide +kernel
/-- Input window 3's current staging buffer holds its block at every position, fetched there or not (an unfetched
    window's block index has not moved). -/
theorem before_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem live3 : ∀ t : Fin cfg0.N, cfg0.idle 3 (grid0.coords t) = false := by decide +kernel
/-- Input window 4's current staging buffer holds its block at every position, fetched there or not (an unfetched
    window's block index has not moved). -/
theorem before_of4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem live4 : ∀ t : Fin cfg0.N, cfg0.idle 4 (grid0.coords t) = false := by decide +kernel
/-- Input window 5's current staging buffer holds its block at every position, fetched there or not (an unfetched
    window's block index has not moved). -/
theorem before_of5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem live5 : ∀ t : Fin cfg0.N, cfg0.idle 5 (grid0.coords t) = false := by decide +kernel
/-- Input window 6's current staging buffer holds its block at every position, fetched there or not (an unfetched
    window's block index has not moved). -/
theorem before_of6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem live6 : ∀ t : Fin cfg0.N, cfg0.idle 6 (grid0.coords t) = false := by decide +kernel
/-- Input window 7's current staging buffer holds its block at every position, fetched there or not (an unfetched
    window's block index has not moved). -/
theorem before_of7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem live7 : ∀ t : Fin cfg0.N, cfg0.idle 7 (grid0.coords t) = false := by decide +kernel
/-- Input window 8's current staging buffer holds its block at every position, fetched there or not (an unfetched
    window's block index has not moved). -/
theorem before_of8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem live8 : ∀ t : Fin cfg0.N, cfg0.idle 8 (grid0.coords t) = false := by decide +kernel
/-- Input window 9's current staging buffer holds its block at every position, fetched there or not (an unfetched
    window's block index has not moved). -/
theorem before_of9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem live9 : ∀ t : Fin cfg0.N, cfg0.idle 9 (grid0.coords t) = false := by decide +kernel
/-- Input window 10's current staging buffer holds its block at every position, fetched there or not (an unfetched
    window's block index has not moved). -/
theorem before_of10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem live10 : ∀ t : Fin cfg0.N, cfg0.idle 10 (grid0.coords t) = false := by decide +kernel
/-- Input window 11's current staging buffer holds its block at every position, fetched there or not (an unfetched
    window's block index has not moved). -/
theorem before_of11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem live11 : ∀ t : Fin cfg0.N, cfg0.idle 11 (grid0.coords t) = false := by decide +kernel
/-- Input window 12's current staging buffer holds its block at every position, fetched there or not (an unfetched
    window's block index has not moved). -/
theorem before_of12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem live12 : ∀ t : Fin cfg0.N, cfg0.idle 12 (grid0.coords t) = false := by decide +kernel
/-- Input window 13's current staging buffer holds its block at every position, fetched there or not (an unfetched
    window's block index has not moved). -/
theorem before_of13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem live13 : ∀ t : Fin cfg0.N, cfg0.idle 13 (grid0.coords t) = false := by decide +kernel
/-- Input window 14's current staging buffer holds its block at every position, fetched there or not (an unfetched
    window's block index has not moved). -/
theorem before_of14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem live14 : ∀ t : Fin cfg0.N, cfg0.idle 14 (grid0.coords t) = false := by decide +kernel

/-! ## Where the output block is idle -/

theorem idleOut_first : ∀ t : Fin cfg0.N, isFirst (grid0.coords t) → ¬isLast (grid0.coords t) → cfg0.idle 15 (grid0.coords t) = true := by decide +kernel
theorem noFlush_first : ∀ t : Fin cfg0.N, isFirst (grid0.coords t) → ¬isLast (grid0.coords t) → (cfg0.win 15).flush t = false := by decide +kernel
theorem idleOut_mid : ∀ t : Fin cfg0.N, ¬isFirst (grid0.coords t) → ¬isLast (grid0.coords t) → cfg0.idle 15 (grid0.coords t) = true := by decide +kernel
theorem noFlush_mid : ∀ t : Fin cfg0.N, ¬isFirst (grid0.coords t) → ¬isLast (grid0.coords t) → (cfg0.win 15).flush t = false := by decide +kernel
theorem liveOut_last : ∀ t : Fin cfg0.N, ¬isFirst (grid0.coords t) → isLast (grid0.coords t) → cfg0.idle 15 (grid0.coords t) = false := by decide +kernel

/-! ## The staging memrefs at a position, the scratch, and the class invariant -/

abbrev ms0 (t : Fin cfg0.N) : Memref sig .tc .vmem S1x128x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S40x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S40 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x1x40 .f32 := win0_15.stage (cfg0.slots t 15)
abbrev hs15 (t : Fin cfg0.N) : (ms15 t).IsWhole := hstage0_15 ((cfg0.slots t 15).cast nbuf0_15)
/-- The scratch operand: a whole scoped buffer of the kernel's own. -/
abbrev scM : Memref sig .tc .vmem S256x1 .f32 := Memref.whole cc0_scratch0
abbrev VS : View sig .tc .vmem S256x1 .f32 := scM.view
/-- One staging buffer of the output window, through which its contents are stated. -/
abbrev VO : View sig .tc .vmem S1x1x40 .f32 := (Memref.whole cc0_stg15_0 : Memref sig .tc .vmem S1x1x40 .f32).view

/-- What the launch hands the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The three runs at a position -/

/-- The first-chunk run at position `t`, on the position's staging memrefs and input blocks. -/
def resFirst (c : Dev nD) (t : Fin cfg0.N) (h0 : isFirst (grid0.coords t)) (h1 : ¬isLast (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
/-- A middle-chunk run at position `t`, the scratch found at `xs`. -/
def resMid (c : Dev nD) (t : Fin cfg0.N) (h0 : ¬isFirst (grid0.coords t)) (h1 : ¬isLast (grid0.coords t)) (xs : Vec F S256x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs
/-- The last-chunk run at position `t`, the scratch found at `xs`. -/
def resLast (c : Dev nD) (t : Fin cfg0.N) (h0 : ¬isFirst (grid0.coords t)) (h1 : isLast (grid0.coords t)) (xs : Vec F S256x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs

/-- Stored pieces read back as a buffer's contents. -/
abbrev rdO (L : List (View.Piece (Elt F) S1x1x40 .f32)) : Vec F S1x1x40 .f32 := VO.read (Elt F) (VO.writes (Elt F) VO.junk L)
abbrev rdS (L : List (View.Piece (Elt F) S256x1 .f32)) : Vec F S256x1 .f32 := VS.read (Elt F) (VS.writes (Elt F) VS.junk L)

/-- Each run stores the scratch whole; the last also the output block. -/
theorem scoverFirst (c : Dev nD) (t : Fin cfg0.N) (h0 : isFirst (grid0.coords t)) (h1 : ¬isLast (grid0.coords t)) (y : S256x1.Idx) :
    ∃ pc ∈ (resFirst m c t h0 h1).2.1, y ∈ pc.1.set :=
  View.cover_of_tiledL (resFirst m c t h0 h1).2.1 S256x1.size (by sl_kernel_rfl) y
theorem scoverMid (c : Dev nD) (t : Fin cfg0.N) (h0 : ¬isFirst (grid0.coords t)) (h1 : ¬isLast (grid0.coords t)) (xs : Vec F S256x1 .f32) (y : S256x1.Idx) :
    ∃ pc ∈ (resMid m c t h0 h1 xs).2.1, y ∈ pc.1.set :=
  View.cover_of_tiledL (resMid m c t h0 h1 xs).2.1 S256x1.size (by sl_kernel_rfl) y
theorem scoverLast (c : Dev nD) (t : Fin cfg0.N) (h0 : ¬isFirst (grid0.coords t)) (h1 : isLast (grid0.coords t)) (xs : Vec F S256x1 .f32) (y : S256x1.Idx) :
    ∃ pc ∈ (resLast m c t h0 h1 xs).2.1, y ∈ pc.1.set :=
  View.cover_of_tiledL (resLast m c t h0 h1 xs).2.1 S256x1.size (by sl_kernel_rfl) y
theorem ocoverLast (c : Dev nD) (t : Fin cfg0.N) (h0 : ¬isFirst (grid0.coords t)) (h1 : isLast (grid0.coords t)) (xs : Vec F S256x1 .f32) (y : S1x1x40.Idx) :
    ∃ pc ∈ (resLast m c t h0 h1 xs).1, y ∈ pc.1.set :=
  View.cover_of_tiledL (resLast m c t h0 h1 xs).1 S1x1x40.size (by sl_kernel_rfl) y

/-! ## What the output block and the scratch hold after each position -/

/-- After position `n`: (the output block's staging contents, the scratch's contents). At t = 0 the first-chunk run,
    later the middle or last run over the scratch the position before left. -/
def outsAt (c : Dev nD) : (n : ℕ) → n < cfg0.N → Vec F S1x1x40 .f32 × Vec F S256x1 .f32
  | 0, hn => (rdO (resFirst m c ⟨0, hn⟩ ((isFirst_iff ⟨0, hn⟩).mpr (Nat.zero_mod _)) (fun h => (fun h => by (try dsimp only at h); omega) ((isLast_iff ⟨0, hn⟩).mp h))).1,
              rdS (resFirst m c ⟨0, hn⟩ ((isFirst_iff ⟨0, hn⟩).mpr (Nat.zero_mod _)) (fun h => (fun h => by (try dsimp only at h); omega) ((isLast_iff ⟨0, hn⟩).mp h))).2.1)
  | n + 1, hn =>
    if h0 : (n + 1) % 4 = 0 then
      if h1 : (n + 1) % 4 = 3 then
        False.elim (by omega)
      else
        (rdO (resFirst m c ⟨n + 1, hn⟩ ((isFirst_iff ⟨n + 1, hn⟩).mpr h0) (fun h => h1 ((isLast_iff ⟨n + 1, hn⟩).mp h))).1,
         rdS (resFirst m c ⟨n + 1, hn⟩ ((isFirst_iff ⟨n + 1, hn⟩).mpr h0) (fun h => h1 ((isLast_iff ⟨n + 1, hn⟩).mp h))).2.1)
    else
      if h1 : (n + 1) % 4 = 3 then
        (rdO (resLast m c ⟨n + 1, hn⟩ (fun h => h0 ((isFirst_iff ⟨n + 1, hn⟩).mp h)) ((isLast_iff ⟨n + 1, hn⟩).mpr h1) (outsAt c n (Nat.lt_of_succ_lt hn)).2).1,
         rdS (resLast m c ⟨n + 1, hn⟩ (fun h => h0 ((isFirst_iff ⟨n + 1, hn⟩).mp h)) ((isLast_iff ⟨n + 1, hn⟩).mpr h1) (outsAt c n (Nat.lt_of_succ_lt hn)).2).2.1)
      else
        (rdO (resMid m c ⟨n + 1, hn⟩ (fun h => h0 ((isFirst_iff ⟨n + 1, hn⟩).mp h)) (fun h => h1 ((isLast_iff ⟨n + 1, hn⟩).mp h)) (outsAt c n (Nat.lt_of_succ_lt hn)).2).1,
         rdS (resMid m c ⟨n + 1, hn⟩ (fun h => h0 ((isFirst_iff ⟨n + 1, hn⟩).mp h)) (fun h => h1 ((isLast_iff ⟨n + 1, hn⟩).mp h)) (outsAt c n (Nat.lt_of_succ_lt hn)).2).2.1)

theorem outsAt_first (c : Dev nD) (t : Fin cfg0.N) (h0 : t.val % 4 = 0) (h1 : ¬t.val % 4 = 3) :
    outsAt m c t.val t.isLt = (rdO (resFirst m c t ((isFirst_iff t).mpr h0) (fun h => h1 ((isLast_iff t).mp h))).1,
      rdS (resFirst m c t ((isFirst_iff t).mpr h0) (fun h => h1 ((isLast_iff t).mp h))).2.1) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt m c t.val t.isLt = (rdO (resMid m c t (fun h => h0 ((isFirst_iff t).mp h)) (fun h => h1 ((isLast_iff t).mp h)) (outsAt m c (t.val - 1) (Nat.lt_of_le_of_lt (Nat.sub_le _ _) t.isLt)).2).1,
      rdS (resMid m c t (fun h => h0 ((isFirst_iff t).mp h)) (fun h => h1 ((isLast_iff t).mp h)) (outsAt m c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = (rdO (resLast m c t (fun h => h0 ((isFirst_iff t).mp h)) ((isLast_iff t).mpr h1) (outsAt m c (t.val - 1) (Nat.lt_of_le_of_lt (Nat.sub_le _ _) t.isLt)).2).1,
      rdS (resLast m c t (fun h => h0 ((isFirst_iff t).mp h)) ((isLast_iff t).mpr h1) (outsAt m c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-- The invariant before position `n`: at first what the launch hands over (the scratch at anything); afterwards
    the scratch at what the position before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- On core `c`: the arrays as the region finds them; after the body each input's buffer at its block and the
    output's at `outsAt`; the invariant `PhiS`; nothing owed. The two windows on the array of points share it:
    the window of all 128 points holds the left half of its share, the window of the 32-point chunk the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t.val t.isLt).1
    | ⟨_ + 16, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before_of0 m (dats m 0 c) (A_eq m c 0) (after0 m c) t d
theorem leaves0 (c : Dev nD) (t : Fin cfg0.N) : (dats m 0 c).leavesExact 0 t = owns (c : Thread nD τ) (ms0 t) fullShare (iblk m c 0 t) := by
  unfold Dat.leavesExact; rw [live0 t, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before_of1 m (dats m 0 c) (A_eq m c 1) (after1 m c) t d
theorem leaves1 (c : Dev nD) (t : Fin cfg0.N) : (dats m 0 c).leavesExact 1 t = owns (c : Thread nD τ) (ms1 t) fullShare (iblk m c 1 t) := by
  unfold Dat.leavesExact; rw [live1 t, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before_of2 m (dats m 0 c) (A_eq m c 2) (after2 m c) t d
theorem leaves2 (c : Dev nD) (t : Fin cfg0.N) : (dats m 0 c).leavesExact 2 t = owns (c : Thread nD τ) (ms2 t) fullShare (iblk m c 2 t) := by
  unfold Dat.leavesExact; rw [live2 t, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before_of3 m (dats m 0 c) (A_eq m c 3) (after3 m c) t d
theorem leaves3 (c : Dev nD) (t : Fin cfg0.N) : (dats m 0 c).leavesExact 3 t = owns (c : Thread nD τ) (ms3 t) fullShare (iblk m c 3 t) := by
  unfold Dat.leavesExact; rw [live3 t, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before_of4 m (dats m 0 c) (A_eq m c 4) (after4 m c) t d
theorem leaves4 (c : Dev nD) (t : Fin cfg0.N) : (dats m 0 c).leavesExact 4 t = owns (c : Thread nD τ) (ms4 t) fullShare (iblk m c 4 t) := by
  unfold Dat.leavesExact; rw [live4 t, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before_of5 m (dats m 0 c) (A_eq m c 5) (after5 m c) t d
theorem leaves5 (c : Dev nD) (t : Fin cfg0.N) : (dats m 0 c).leavesExact 5 t = owns (c : Thread nD τ) (ms5 t) fullShare (iblk m c 5 t) := by
  unfold Dat.leavesExact; rw [live5 t, after5]
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before_of6 m (dats m 0 c) (A_eq m c 6) (after6 m c) t d
theorem leaves6 (c : Dev nD) (t : Fin cfg0.N) : (dats m 0 c).leavesExact 6 t = owns (c : Thread nD τ) (ms6 t) fullShare (iblk m c 6 t) := by
  unfold Dat.leavesExact; rw [live6 t, after6]
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before_of7 m (dats m 0 c) (A_eq m c 7) (after7 m c) t d
theorem leaves7 (c : Dev nD) (t : Fin cfg0.N) : (dats m 0 c).leavesExact 7 t = owns (c : Thread nD τ) (ms7 t) fullShare (iblk m c 7 t) := by
  unfold Dat.leavesExact; rw [live7 t, after7]
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before_of8 m (dats m 0 c) (A_eq m c 8) (after8 m c) t d
theorem leaves8 (c : Dev nD) (t : Fin cfg0.N) : (dats m 0 c).leavesExact 8 t = owns (c : Thread nD τ) (ms8 t) fullShare (iblk m c 8 t) := by
  unfold Dat.leavesExact; rw [live8 t, after8]
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before_of9 m (dats m 0 c) (A_eq m c 9) (after9 m c) t d
theorem leaves9 (c : Dev nD) (t : Fin cfg0.N) : (dats m 0 c).leavesExact 9 t = owns (c : Thread nD τ) (ms9 t) fullShare (iblk m c 9 t) := by
  unfold Dat.leavesExact; rw [live9 t, after9]
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before_of10 m (dats m 0 c) (A_eq m c 10) (after10 m c) t d
theorem leaves10 (c : Dev nD) (t : Fin cfg0.N) : (dats m 0 c).leavesExact 10 t = owns (c : Thread nD τ) (ms10 t) fullShare (iblk m c 10 t) := by
  unfold Dat.leavesExact; rw [live10 t, after10]
theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before_of11 m (dats m 0 c) (A_eq m c 11) (after11 m c) t d
theorem leaves11 (c : Dev nD) (t : Fin cfg0.N) : (dats m 0 c).leavesExact 11 t = owns (c : Thread nD τ) (ms11 t) fullShare (iblk m c 11 t) := by
  unfold Dat.leavesExact; rw [live11 t, after11]
theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before_of12 m (dats m 0 c) (A_eq m c 12) (after12 m c) t d
theorem leaves12 (c : Dev nD) (t : Fin cfg0.N) : (dats m 0 c).leavesExact 12 t = owns (c : Thread nD τ) (ms12 t) fullShare (iblk m c 12 t) := by
  unfold Dat.leavesExact; rw [live12 t, after12]
theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before_of13 m (dats m 0 c) (A_eq m c 13) (after13 m c) t d
theorem leaves13 (c : Dev nD) (t : Fin cfg0.N) : (dats m 0 c).leavesExact 13 t = owns (c : Thread nD τ) (ms13 t) fullShare (iblk m c 13 t) := by
  unfold Dat.leavesExact; rw [live13 t, after13]
theorem after14 (c : Dev nD) (t : Fin cfg0.N) : (dats m 0 c).after 14 t = iblk m c 14 t := by dsimp only [dats]
theorem before14 (c : Dev nD) (t : Fin cfg0.N) (d) : (dats m 0 c).before 14 t d = iblk m c 14 t :=
  before_of14 m (dats m 0 c) (A_eq m c 14) (after14 m c) t d
theorem leaves14 (c : Dev nD) (t : Fin cfg0.N) : (dats m 0 c).leavesExact 14 t = owns (c : Thread nD τ) (ms14 t) fullShare (iblk m c 14 t) := by
  unfold Dat.leavesExact; rw [live14 t, after14]
theorem after15 (c : Dev nD) (t : Fin cfg0.N) : (dats m 0 c).after 15 t = (outsAt m c t.val t.isLt).1 := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The body at any position: the inputs' memrefs hold their blocks; the closed forms say which of the three cases the
    position is in; that case's run applies, the invariant handing it the scratch at what the position before left
    (at anything at the very first position) and taking it back at this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  simp only [leaves0, leaves1, leaves2, leaves3, leaves4, leaves5, leaves6, leaves7, leaves8, leaves9, leaves10, leaves11, leaves12, leaves13, leaves14]
  by_cases h0 : t.val % 4 = 0
  · by_cases h1 : t.val % 4 = 3
    · exfalso; omega
    · rw [Dat.leavesExact_idle (dats m 0 c) 15 t (idleOut_first t ((isFirst_iff t).mpr h0) (fun h => h1 ((isLast_iff t).mp h))) (noFlush_first t ((isFirst_iff t).mpr h0) (fun h => h1 ((isLast_iff t).mp h)))]
      rw [outsAt_first m c t h0 h1]
      (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resFirst m c t ((isFirst_iff t).mpr h0) (fun h => h1 ((isLast_iff t).mp h))).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS]; · iexact HS
        iintro ⟨H0, H1, H2, H3, H4, H5, H6, H7, H8, H9, H10, H11, H12, H13, H14, H15, ⟨%es, HS⟩⟩
        isplitl [HS Hg]
        · isplitl [HS]
          · unfold owns; iexists _; isplitr
            swap; · iexact HS
            ipureintro; exact View.read_writes_of_cover _ _ _ _ _ (scoverFirst m c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resFirst m c t ((isFirst_iff t).mpr h0) (fun h => h1 ((isLast_iff t).mp h))).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS]; · iexists _; iexact HS
        iintro ⟨H0, H1, H2, H3, H4, H5, H6, H7, H8, H9, H10, H11, H12, H13, H14, H15, ⟨%es, HS⟩⟩
        isplitl [HS Hg]
        · isplitl [HS]
          · unfold owns; iexists _; isplitr
            swap; · iexact HS
            ipureintro; exact View.read_writes_of_cover _ _ _ _ _ (scoverFirst m c t _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
  · by_cases h1 : t.val % 4 = 3
    · rw [show (dats m 0 c).leavesExact 15 t = owns (c : Thread nD τ) (ms15 t) fullShare ((dats m 0 c).after 15 t) from by
        unfold Dat.leavesExact; rw [liveOut_last t (fun h => h0 ((isFirst_iff t).mp h)) ((isLast_iff t).mpr h1)], after15]
      rw [outsAt_last m c t h0 h1]
      (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resLast m c t (fun h => h0 ((isFirst_iff t).mp h)) ((isLast_iff t).mpr h1) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [HS]; · iexact HS
        iintro ⟨H0, H1, H2, H3, H4, H5, H6, H7, H8, H9, H10, H11, H12, H13, H14, ⟨%eo, H15⟩, ⟨%es, HS⟩⟩
        isplitl [HS Hg]
        · isplitl [HS]
          · unfold owns; iexists _; isplitr
            swap; · iexact HS
            ipureintro; exact View.read_writes_of_cover _ _ _ _ _ (scoverLast m c t _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        unfold owns; iexists _; isplitr
        swap; · iexact H15
        ipureintro; exact View.read_writes_of_cover _ _ _ _ _ (ocoverLast m c t _ _ _)
    · rw [Dat.leavesExact_idle (dats m 0 c) 15 t (idleOut_mid t (fun h => h0 ((isFirst_iff t).mp h)) (fun h => h1 ((isLast_iff t).mp h))) (noFlush_mid t (fun h => h0 ((isFirst_iff t).mp h)) (fun h => h1 ((isLast_iff t).mp h)))]
      rw [outsAt_mid m c t h0 h1]
      (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((resMid m c t (fun h => h0 ((isFirst_iff t).mp h)) (fun h => h1 ((isLast_iff t).mp h)) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS]; · iexact HS
        iintro ⟨H0, H1, H2, H3, H4, H5, H6, H7, H8, H9, H10, H11, H12, H13, H14, H15, ⟨%es, HS⟩⟩
        isplitl [HS Hg]
        · isplitl [HS]
          · unfold owns; iexists _; isplitr
            swap; · iexact HS
            ipureintro; exact View.read_writes_of_cover _ _ _ _ _ (scoverMid m c t _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15

/-- The pipeline's body obligation, at every position. -/
theorem body_obligation (c : Dev nD) : BodyObligation (dats (F := F) m 0 c) (defs₀ (F := F)) Variants.none () Set.univ := fun t => by
  rw [bigSep_W0, bigSep_W0]
  exact sound_body m c t

/-- What the launch hands the region is the invariant before the first position. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last position the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.KernelIdeal.Hand

end
-- ==== Proof.KILaunchA.lean ====
/-
  The run of the whole program: the four host operations, the pallas_call, the three host operations after it.

  The kernel is handed the array of points TWICE — once as the window of all 128 points of a cloud and once as the
  window of the current chunk of 32 — so the two windows hold the two halves of that array's share; every other array
  is held whole by its one window. After the region the array of outputs holds what the proof data computes and every
  other buffer what it held at the region's entry; the host operations after it (a reshape, the constant -inf, the
  maximum over the four clouds of a batch element) then run from that valuation.
-/
import proofs.«102768_j73547019976967_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' arrays, one by one -/

/-- The fifteen distinct buffers behind the sixteen windows. -/
abbrev arrList : List (Ref sig .tc) := [main_v1, main_v2, main_v3, main_arg2, main_arg3, main_arg4, main_arg5, main_arg6, main_arg7, main_arg8, main_arg9, main_arg10, main_arg11, main_arg12, main_v4]

theorem arrBufs_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v2) ↦{fullShare} Vv main_v2) ∗ (((c : Thread nD τ).loc main_v3) ↦{fullShare} Vv main_v3) ∗ (((c : Thread nD τ).loc main_arg2) ↦{fullShare} Vv main_arg2) ∗ (((c : Thread nD τ).loc main_arg3) ↦{fullShare} Vv main_arg3) ∗ (((c : Thread nD τ).loc main_arg4) ↦{fullShare} Vv main_arg4) ∗ (((c : Thread nD τ).loc main_arg5) ↦{fullShare} Vv main_arg5) ∗ (((c : Thread nD τ).loc main_arg6) ↦{fullShare} Vv main_arg6) ∗ (((c : Thread nD τ).loc main_arg7) ↦{fullShare} Vv main_arg7) ∗ (((c : Thread nD τ).loc main_arg8) ↦{fullShare} Vv main_arg8) ∗ (((c : Thread nD τ).loc main_arg9) ↦{fullShare} Vv main_arg9) ∗ (((c : Thread nD τ).loc main_arg10) ↦{fullShare} Vv main_arg10) ∗ (((c : Thread nD τ).loc main_arg11) ↦{fullShare} Vv main_arg11) ∗ (((c : Thread nD τ).loc main_arg12) ↦{fullShare} Vv main_arg12) ∗ (((c : Thread nD τ).loc main_v4) ↦{fullShare} Vv main_v4)) := by
  unfold Pipeline.arrBufs
  rw [bigSep_eq_bigSepL_of_eq arrList (by decide) (by decide)]
  rfl

/-- The proof data's arrays: the array of points at the two half shares, the others whole. -/
theorem arrays_eq' (c : Dev nD) (Fv : (w : Fin cfg0.W) → Buf (Elt F) ((cfg0.win w).arr.view.loc (c : Thread nD τ))) :
    ((dats m 0 c).arrays Fv : sProp 𝕄)
      = iprop((((c : Thread nD τ).loc main_v1) ↦{fullShare.left} Fv 0) ∗ (((c : Thread nD τ).loc main_v1) ↦{fullShare.right} Fv 1) ∗ (((c : Thread nD τ).loc main_v2) ↦{fullShare} Fv 2) ∗ (((c : Thread nD τ).loc main_v3) ↦{fullShare} Fv 3) ∗ (((c : Thread nD τ).loc main_arg2) ↦{fullShare} Fv 4) ∗ (((c : Thread nD τ).loc main_arg3) ↦{fullShare} Fv 5) ∗ (((c : Thread nD τ).loc main_arg4) ↦{fullShare} Fv 6) ∗ (((c : Thread nD τ).loc main_arg5) ↦{fullShare} Fv 7) ∗ (((c : Thread nD τ).loc main_arg6) ↦{fullShare} Fv 8) ∗ (((c : Thread nD τ).loc main_arg7) ↦{fullShare} Fv 9) ∗ (((c : Thread nD τ).loc main_arg8) ↦{fullShare} Fv 10) ∗ (((c : Thread nD τ).loc main_arg9) ↦{fullShare} Fv 11) ∗ (((c : Thread nD τ).loc main_arg10) ↦{fullShare} Fv 12) ∗ (((c : Thread nD τ).loc main_arg11) ↦{fullShare} Fv 13) ∗ (((c : Thread nD τ).loc main_arg12) ↦{fullShare} Fv 14) ∗ (((c : Thread nD τ).loc main_v4) ↦{fullShare} Fv 15)) := by
  unfold Pipeline.Dat.arrays
  rw [show (bigSep Finset.univ fun w : Fin cfg0.W => ((cfg0.win w).arr.view.loc (c : Thread nD τ) ↦[(cfg0.win w).arr.view.set]{(dats m 0 c).share w} Fv w : sProp 𝕄))
        = bigSep Finset.univ fun w : Fin 16 => (((c : Thread nD τ).loc (Pipeline.arrRef spec0 w)) ↦{(dats m 0 c).share w} Fv w : sProp 𝕄) from
      bigSep_congr fun w _ => by rw [(arr_whole0 w).set_eq_univ]]
  rw [bigSep_W0]
  rfl

/-- The buffers behind the arrays, whole, are the proof data's arrays: the array of points split along its share. -/
theorem arrays_of_bufs (c : Dev nD) (Vv : (b : Ref sig .tc) → Buf (Elt F) ((c : Thread nD τ).loc b)) :
    (Pipeline.arrBufs spec0 c Vv : sProp 𝕄) ⊢ (dats m 0 c).arrays (fun w => Vv (Pipeline.arrRef spec0 w)) := by
  rw [arrBufs_eq, arrays_eq']
  iintro ⟨H1, Hrest⟩
  ihave H := (pointsTo_share (PosShare.mem_left_op_right fullShare)).1 $$ H1
  icases H with ⟨Hl, Hr⟩
  isplitl [Hl]; · iexact Hl
  isplitl [Hr]; · iexact Hr
  iexact Hrest

/-- And back: the two halves joined. -/
theorem bufs_of_arrays (c : Dev nD) (Vv : (b : Ref sig .tc) → Buf (Elt F) ((c : Thread nD τ).loc b)) :
    ((dats m 0 c).arrays (fun w => Vv (Pipeline.arrRef spec0 w)) : sProp 𝕄) ⊢ Pipeline.arrBufs spec0 c Vv := by
  rw [arrBufs_eq, arrays_eq']
  iintro ⟨Hl, Hr, Hrest⟩
  isplitl [Hl Hr]
  · iapply (pointsTo_share (PosShare.mem_left_op_right fullShare)).2
    isplitl [Hl]; · iexact Hl
    iexact Hr
  iexact Hrest

/-! ## The buffers after the region -/

/-- Core `c`'s buffers when the region is left: the array of outputs at what the proof data computes, every other
    buffer as the region found it. -/
def Wv (c : Dev nD) : Valuation τ sig (Elt F) :=
  Function.update (V0 m c) (Proc.devRef .tc main_v4) ((dats m 0 c).arrAt 15 cfg0.N)

/-- Every window's array at the region's exit is `Wv`'s: an input's array is never written. -/
theorem arrAt_exit (c : Dev nD) (w : Fin cfg0.W) :
    (dats m 0 c).arrAt w cfg0.N = Wv m c (Proc.devRef .tc (Pipeline.arrRef spec0 w)) := by
  unfold Wv
  fin_cases w
  · exact ((dats m 0 c).arrAt_in 0 rfl _).trans ((A_eq m c 0).trans (Function.update_of_ne (StableHlo.devRef_ne_of_ne (τ := τ) (show (main_v1 : Ref sig .tc) ≠ main_v4 by decide)) ((dats m 0 c).arrAt 15 cfg0.N) (V0 m c)).symm)
  · exact ((dats m 0 c).arrAt_in 1 rfl _).trans ((A_eq m c 1).trans (Function.update_of_ne (StableHlo.devRef_ne_of_ne (τ := τ) (show (main_v1 : Ref sig .tc) ≠ main_v4 by decide)) ((dats m 0 c).arrAt 15 cfg0.N) (V0 m c)).symm)
  · exact ((dats m 0 c).arrAt_in 2 rfl _).trans ((A_eq m c 2).trans (Function.update_of_ne (StableHlo.devRef_ne_of_ne (τ := τ) (show (main_v2 : Ref sig .tc) ≠ main_v4 by decide)) ((dats m 0 c).arrAt 15 cfg0.N) (V0 m c)).symm)
  · exact ((dats m 0 c).arrAt_in 3 rfl _).trans ((A_eq m c 3).trans (Function.update_of_ne (StableHlo.devRef_ne_of_ne (τ := τ) (show (main_v3 : Ref sig .tc) ≠ main_v4 by decide)) ((dats m 0 c).arrAt 15 cfg0.N) (V0 m c)).symm)
  · exact ((dats m 0 c).arrAt_in 4 rfl _).trans ((A_eq m c 4).trans (Function.update_of_ne (StableHlo.devRef_ne_of_ne (τ := τ) (show (main_arg2 : Ref sig .tc) ≠ main_v4 by decide)) ((dats m 0 c).arrAt 15 cfg0.N) (V0 m c)).symm)
  · exact ((dats m 0 c).arrAt_in 5 rfl _).trans ((A_eq m c 5).trans (Function.update_of_ne (StableHlo.devRef_ne_of_ne (τ := τ) (show (main_arg3 : Ref sig .tc) ≠ main_v4 by decide)) ((dats m 0 c).arrAt 15 cfg0.N) (V0 m c)).symm)
  · exact ((dats m 0 c).arrAt_in 6 rfl _).trans ((A_eq m c 6).trans (Function.update_of_ne (StableHlo.devRef_ne_of_ne (τ := τ) (show (main_arg4 : Ref sig .tc) ≠ main_v4 by decide)) ((dats m 0 c).arrAt 15 cfg0.N) (V0 m c)).symm)
  · exact ((dats m 0 c).arrAt_in 7 rfl _).trans ((A_eq m c 7).trans (Function.update_of_ne (StableHlo.devRef_ne_of_ne (τ := τ) (show (main_arg5 : Ref sig .tc) ≠ main_v4 by decide)) ((dats m 0 c).arrAt 15 cfg0.N) (V0 m c)).symm)
  · exact ((dats m 0 c).arrAt_in 8 rfl _).trans ((A_eq m c 8).trans (Function.update_of_ne (StableHlo.devRef_ne_of_ne (τ := τ) (show (main_arg6 : Ref sig .tc) ≠ main_v4 by decide)) ((dats m 0 c).arrAt 15 cfg0.N) (V0 m c)).symm)
  · exact ((dats m 0 c).arrAt_in 9 rfl _).trans ((A_eq m c 9).trans (Function.update_of_ne (StableHlo.devRef_ne_of_ne (τ := τ) (show (main_arg7 : Ref sig .tc) ≠ main_v4 by decide)) ((dats m 0 c).arrAt 15 cfg0.N) (V0 m c)).symm)
  · exact ((dats m 0 c).arrAt_in 10 rfl _).trans ((A_eq m c 10).trans (Function.update_of_ne (StableHlo.devRef_ne_of_ne (τ := τ) (show (main_arg8 : Ref sig .tc) ≠ main_v4 by decide)) ((dats m 0 c).arrAt 15 cfg0.N) (V0 m c)).symm)
  · exact ((dats m 0 c).arrAt_in 11 rfl _).trans ((A_eq m c 11).trans (Function.update_of_ne (StableHlo.devRef_ne_of_ne (τ := τ) (show (main_arg9 : Ref sig .tc) ≠ main_v4 by decide)) ((dats m 0 c).arrAt 15 cfg0.N) (V0 m c)).symm)
  · exact ((dats m 0 c).arrAt_in 12 rfl _).trans ((A_eq m c 12).trans (Function.update_of_ne (StableHlo.devRef_ne_of_ne (τ := τ) (show (main_arg10 : Ref sig .tc) ≠ main_v4 by decide)) ((dats m 0 c).arrAt 15 cfg0.N) (V0 m c)).symm)
  · exact ((dats m 0 c).arrAt_in 13 rfl _).trans ((A_eq m c 13).trans (Function.update_of_ne (StableHlo.devRef_ne_of_ne (τ := τ) (show (main_arg11 : Ref sig .tc) ≠ main_v4 by decide)) ((dats m 0 c).arrAt 15 cfg0.N) (V0 m c)).symm)
  · exact ((dats m 0 c).arrAt_in 14 rfl _).trans ((A_eq m c 14).trans (Function.update_of_ne (StableHlo.devRef_ne_of_ne (τ := τ) (show (main_arg12 : Ref sig .tc) ≠ main_v4 by decide)) ((dats m 0 c).arrAt 15 cfg0.N) (V0 m c)).symm)
  · exact (Function.update_self (Proc.devRef (τ := τ) .tc main_v4) ((dats m 0 c).arrAt 15 cfg0.N) (V0 m c)).symm

/-- The buffers that are no window's array are as the region found them. -/
theorem rest_exit (c : Dev nD) :
    (Pipeline.unscopedRest spec0 c (V m c) : sProp 𝕄) = Pipeline.unscopedRest spec0 c (fun b => Wv m c (Proc.devRef .tc b)) := by
  unfold Pipeline.unscopedRest
  refine bigSep_congr fun b hb => ?_
  have hne : b ≠ main_v4 := fun e => (Finset.mem_sdiff.mp hb).2 (Finset.mem_image.mpr ⟨15, Finset.mem_univ _, e ▸ rfl⟩)
  unfold Wv
  dsimp only
  rw [Function.update_of_ne (StableHlo.devRef_ne_of_ne hne)]

/-- No window's array is a buffer the host lines after the region write. -/
theorem arr_ne : ∀ w : Fin 16, Pipeline.arrRef spec0 w ≠ main_v5 ∧ Pipeline.arrRef spec0 w ≠ main_cst ∧ Pipeline.arrRef spec0 w ≠ main_v6 := by decide

set_option maxHeartbeats 1600000 in
/-- So no host line after the region writes a window's array. -/
theorem tail_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  rcases hop with rfl | rfl | rfl
  · rw [StableHlo.reshape_writes, Finset.mem_singleton]; exact StableHlo.devRef_ne_of_ne (arr_ne w).1
  · rw [StableHlo.nullary_writes, Finset.mem_singleton]; exact StableHlo.devRef_ne_of_ne (arr_ne w).2.1
  · rw [StableHlo.binary_writes, Finset.mem_singleton]; exact StableHlo.devRef_ne_of_ne (arr_ne w).2.2

/-- The valuation after those lines. -/
abbrev Wend (c : Dev nD) : Valuation τ sig (Elt F) := StableHlo.after hostOps1 (Wv m c)

theorem arrAt_end (c : Dev nD) (w : Fin cfg0.W) :
    (dats m 0 c).arrAt w cfg0.N = Wend m c (Proc.devRef .tc (Pipeline.arrRef spec0 w)) := by
  rw [arrAt_exit m c w]
  exact (StableHlo.after_of_forall_not_mem hostOps1 (Wv m c) fun op hop => tail_keeps op hop w).symm

/-- At the region's exit the arrays and the other buffers are all the unscoped buffers, at `Wv`. -/
theorem exit_to_held (c : Dev nD) :
    iprop(((dats m 0 c).arrays ((dats m 0 c).arrAt · cfg0.N) : sProp 𝕄) ∗ Pipeline.unscopedRest spec0 c (V m c))
      ⊢ StableHlo.held (c.tc : Thread nD τ) (Pipeline.ucRefs τ sig) (Wv m c) := by
  have h1 : ((dats m 0 c).arrays ((dats m 0 c).arrAt · cfg0.N) : sProp 𝕄)
      = (dats m 0 c).arrays (fun w => (fun b : Ref sig .tc => Wv m c (Proc.devRef .tc b)) (Pipeline.arrRef spec0 w)) :=
    congrArg (dats m 0 c).arrays (funext (arrAt_exit m c))
  have h2 : (StableHlo.held (c.tc : Thread nD τ) (Pipeline.ucRefs τ sig) (Wv m c) : sProp 𝕄)
      = iprop((Pipeline.arrBufs spec0 c (fun b : Ref sig .tc => Wv m c (Proc.devRef .tc b)) : sProp 𝕄) ∗ Pipeline.unscopedRest spec0 c (fun b => Wv m c (Proc.devRef .tc b))) :=
    (Pipeline.unscopedBufs_held (Ix := Unit) (Name := ℕ) (U := UR sig nD τ) (Lvl := ℕ) c (Wv m c)).symm.trans
      (Pipeline.unscopedBufs_split₀ cfgs 0 winFacts₀0.arr_unscoped c _)
  exact (BIClass.sep_mono ((Entails.of_eq h1).trans (bufs_of_arrays m c (fun b : Ref sig .tc => Wv m c (Proc.devRef .tc b)))) (Entails.of_eq (rest_exit m c))).trans (Entails.of_eq h2.symm)

/-- After the host lines the unscoped buffers, at `Wend`, are again the arrays (unchanged) and the rest. -/
theorem held_to_end (c : Dev nD) :
    (StableHlo.held (c.tc : Thread nD τ) (Pipeline.ucRefs τ sig) (StableHlo.after ([hostOps1] : List (List (HloOp τ sig (Elt F)))).flatten (Wv m c)) : sProp 𝕄)
      ⊢ iprop((dats m 0 c).arrays ((dats m 0 c).arrAt · cfg0.N) ∗ Pipeline.unscopedRest spec0 c (fun b => Wend m c (Proc.devRef .tc b))) := by
  have h0 : ([hostOps1] : List (List (HloOp τ sig (Elt F)))).flatten = hostOps1 := by
    simp only [List.flatten_cons, List.flatten_nil, List.append_nil]
  have h1 : ((dats m 0 c).arrays ((dats m 0 c).arrAt · cfg0.N) : sProp 𝕄)
      = (dats m 0 c).arrays (fun w => (fun b : Ref sig .tc => Wend m c (Proc.devRef .tc b)) (Pipeline.arrRef spec0 w)) :=
    congrArg (dats m 0 c).arrays (funext (arrAt_end m c))
  have h2 : (StableHlo.held (c.tc : Thread nD τ) (Pipeline.ucRefs τ sig) (Wend m c) : sProp 𝕄)
      = iprop((Pipeline.arrBufs spec0 c (fun b : Ref sig .tc => Wend m c (Proc.devRef .tc b)) : sProp 𝕄) ∗ Pipeline.unscopedRest spec0 c (fun b => Wend m c (Proc.devRef .tc b))) :=
    (Pipeline.unscopedBufs_held (Ix := Unit) (Name := ℕ) (U := UR sig nD τ) (Lvl := ℕ) c (Wend m c)).symm.trans
      (Pipeline.unscopedBufs_split₀ cfgs 0 winFacts₀0.arr_unscoped c _)
  rw [h0]
  exact (Entails.of_eq h2).trans (BIClass.sep_mono ((arrays_of_bufs m c (fun b : Ref sig .tc => Wend m c (Proc.devRef .tc b))).trans (Entails.of_eq h1.symm)) .rfl)

set_option maxHeartbeats 1000000 in
set_option backward.isDefEq.respectTransparency.types false in
/-- THE LINES AFTER THE REGION: from the region's exit — the arrays at their final contents, the other buffers as
    found — they run, and hand back the arrays at the same contents and the other buffers at the lines' results. -/
theorem htail (𝒱₀ : Variants) (c : Dev nD) (Q' : PUnit → sProp 𝕄) :
    iprop((iprop((dats m 0 c).arrays ((dats m 0 c).arrAt · cfg0.N) ∗ Pipeline.unscopedRest spec0 c (fun b => Wend m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c.tc : Thread nD τ) none) Set.univ (Pipeline.chain [StableHlo.seq hostOps1]) Q' := by
  rw [show (Pipeline.chain [StableHlo.seq hostOps1] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, Ha, HZ⟩
  ihave Hh := (exit_to_held m c) $$ [Ha HZ]
  · isplitl [Ha] <;> iassumption
  iapply (Pipeline.wp_seqs_then (pcfgs (F := F)) defs₀ 𝒱₀ c (Pipeline.ucRefs τ sig) [] [hostOps1]
    (fun ops ho op h => by
      simp only [List.mem_cons, List.mem_nil_iff, or_false] at ho; subst ho
      exact Pipeline.sub_ucRefs op ((List.forall_iff_forall_mem.mp hostOps1_sub) op h))
    (fun ops ho op h => by
      simp only [List.mem_cons, List.mem_nil_iff, or_false] at ho; subst ho
      exact (List.forall_iff_forall_mem.mp hostOps1_fresh) op h) (Wv m c)) $$ [Hb Hh]
  · isplitl [Hb] <;> iassumption
  iintro Hb
  rw [Pipeline.chain_nil, wp_pure]
  imodintro
  iapply Hk
  icases Hb with ⟨-, H⟩
  iapply (held_to_end m c)
  iexact H

end Cert.KernelIdeal.Hand

end
-- ==== Proof.KILaunch.lean ====
/-
  The run of the whole program, by the pipeline library's launch theorem for a region followed by host lines, with the
  layout facts of a call whose windows share an array.
-/
import proofs.«102768_j73547019976967_2_alg».proof.Proof.KILaunchA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What every final state satisfies: each window's array at what the proof data computes, every other unscoped
    buffer at the result of the host lines after the region. -/
def RunPost : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = Wend m c (Proc.devRef .tc b)

set_option backward.isDefEq.respectTransparency.types false in
/-- At the compiled mesh, from any memory with zero counters: every weakly fair execution of @main terminates, nothing
    faulting, in a state satisfying `RunPost`. -/
theorem run_main : θ_run defs (onTc (τ := τ) (main (F := F))) ⟨m, fun _ => 0, ρ⟩ (RunPost m) :=
  Pipeline.θ_run_region_pf_tail (pcfgs (F := F)) (fun p => (cfgs p).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [show ((dats m 0 c).arrAt · 0) = fun w => V m c (Pipeline.arrRef spec0 w) from funext fun w => A_eq m c w]
      exact arrays_of_bufs m c (V m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m Variants.none c Q')
    (QY := fun c s => ∀ b ∈ Pipeline.restRefs sig spec0, s.mem ((c.tc : Thread nD τ).loc b) = Wend m c (Proc.devRef .tc b))
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

end Cert.KernelIdeal.Hand

end
-- ==== Proof.KIKept.lean ====
/-
  What the run's post says of the thirteen argument arrays and of the result.

  No host operation writes an argument (each writes only its own result buffer) and the kernel's input windows are
  never written back, so every argument ends as it started; the result buffer ends at what the three host operations
  after the region compute from the array of outputs.
-/
import proofs.«102768_j73547019976967_2_alg».proof.Proof.KILaunch

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

set_option maxHeartbeats 1600000 in
/-- The host lines before the region write only their own four results. -/
theorem host0_keeps (b : Ref sig .tc) (hb : b ≠ main_v0 ∧ b ≠ main_v1 ∧ b ≠ main_v2 ∧ b ≠ main_v3) :
    ∀ op ∈ (hostOps0 : List (HloOp τ sig (Elt F))), Proc.devRef .tc b ∉ op.writes := by
  obtain ⟨h0, h1, h2, h3⟩ := hb
  intro op hop
  simp only [hostOps0, List.mem_cons, List.mem_nil_iff, or_false] at hop
  rcases hop with rfl | rfl | rfl | rfl
  · rw [StableHlo.reshape_writes, Finset.mem_singleton]; exact StableHlo.devRef_ne_of_ne h0
  · rw [StableHlo.reshape_writes, Finset.mem_singleton]; exact StableHlo.devRef_ne_of_ne h1
  · rw [StableHlo.unary_writes, Finset.mem_singleton]; exact StableHlo.devRef_ne_of_ne h2
  · rw [StableHlo.unary_writes, Finset.mem_singleton]; exact StableHlo.devRef_ne_of_ne h3

set_option maxHeartbeats 1600000 in
/-- The host lines after the region write only their own three results. -/
theorem host1_keeps (b : Ref sig .tc) (hb : b ≠ main_v5 ∧ b ≠ main_cst ∧ b ≠ main_v6) :
    ∀ op ∈ (hostOps1 : List (HloOp τ sig (Elt F))), Proc.devRef .tc b ∉ op.writes := by
  obtain ⟨h0, h1, h2⟩ := hb
  intro op hop
  simp only [hostOps1, List.mem_cons, List.mem_nil_iff, or_false] at hop
  rcases hop with rfl | rfl | rfl
  · rw [StableHlo.reshape_writes, Finset.mem_singleton]; exact StableHlo.devRef_ne_of_ne h0
  · rw [StableHlo.nullary_writes, Finset.mem_singleton]; exact StableHlo.devRef_ne_of_ne h1
  · rw [StableHlo.binary_writes, Finset.mem_singleton]; exact StableHlo.devRef_ne_of_ne h2

/-- A buffer the first four host lines do not write is, at the region's entry, as launched. -/
theorem V_kept (c : Dev nD) (b : Ref sig .tc) (hb : b ≠ main_v0 ∧ b ≠ main_v1 ∧ b ≠ main_v2 ∧ b ≠ main_v3) :
    V m c b = m ((c : Thread nD τ).loc b) := by
  show StableHlo.after (List.flatten [hostOps0]) (fun b => m (c, b)) (Proc.devRef .tc b) = _
  rw [show List.flatten [hostOps0] = (hostOps0 : List (HloOp τ sig (Elt F))) from by simp only [List.flatten_cons, List.flatten_nil, List.append_nil]]
  exact StableHlo.after_of_forall_not_mem hostOps0 _ (host0_keeps b hb)

/-- A buffer no host line writes and that is not the array of outputs ends as launched. -/
theorem Wend_kept (c : Dev nD) (b : Ref sig .tc) (hb0 : b ≠ main_v0 ∧ b ≠ main_v1 ∧ b ≠ main_v2 ∧ b ≠ main_v3)
    (hb1 : b ≠ main_v5 ∧ b ≠ main_cst ∧ b ≠ main_v6) (hb4 : b ≠ main_v4) :
    Wend m c (Proc.devRef .tc b) = m ((c : Thread nD τ).loc b) := by
  show StableHlo.after hostOps1 (Wv m c) (Proc.devRef .tc b) = _
  rw [StableHlo.after_of_forall_not_mem hostOps1 _ (host1_keeps b hb1)]
  unfold Wv
  rw [Function.update_of_ne (StableHlo.devRef_ne_of_ne hb4)]
  exact V_kept m c b hb0

/-- An argument that is an input window's whole array ends as launched. -/
theorem arr_kept (c : Dev nD) (w : Fin cfg0.W) (hw : (cfg0.win w).isOut = false)
    (hb : Pipeline.arrRef spec0 w ≠ main_v0 ∧ Pipeline.arrRef spec0 w ≠ main_v1 ∧ Pipeline.arrRef spec0 w ≠ main_v2 ∧ Pipeline.arrRef spec0 w ≠ main_v3) :
    (dats m 0 c).arrAt w cfg0.N = m ((c : Thread nD τ).loc (Pipeline.arrRef spec0 w)) :=
  ((dats m 0 c).arrAt_in w hw _).trans ((A_eq m c w).trans (V_kept m c _ hb))

/-- Every argument array ends unchanged. -/
theorem kept_of_post {r : PUnit × MemSt nD τ sig (Elt F)} (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨((h c).2 main_arg0 (by decide)).trans (Wend_kept m c main_arg0 (by decide) (by decide) (by decide)),
   ((h c).2 main_arg1 (by decide)).trans (Wend_kept m c main_arg1 (by decide) (by decide) (by decide)),
   ((h c).1 4).trans (arr_kept m c 4 rfl (by decide)),
   ((h c).1 5).trans (arr_kept m c 5 rfl (by decide)),
   ((h c).1 6).trans (arr_kept m c 6 rfl (by decide)),
   ((h c).1 7).trans (arr_kept m c 7 rfl (by decide)),
   ((h c).1 8).trans (arr_kept m c 8 rfl (by decide)),
   ((h c).1 9).trans (arr_kept m c 9 rfl (by decide)),
   ((h c).1 10).trans (arr_kept m c 10 rfl (by decide)),
   ((h c).1 11).trans (arr_kept m c 11 rfl (by decide)),
   ((h c).1 12).trans (arr_kept m c 12 rfl (by decide)),
   ((h c).1 13).trans (arr_kept m c 13 rfl (by decide)),
   ((h c).1 14).trans (arr_kept m c 14 rfl (by decide))⟩

/-- The result buffer ends at what the host lines after the region compute. -/
theorem result_of_post {r : PUnit × MemSt nD τ sig (Elt F)} (h : RunPost m r) (c : Dev nD) :
    r.2.mem ((c.tc : Thread nD τ).loc main_v6) = Wend m c (Proc.devRef .tc main_v6) :=
  (h c).2 main_v6 (by decide)

end Cert.KernelIdeal.Hand

end
-- ==== Proof.TailSpec.lean ====
/-
  The three host operations that follow the kernel's region: the 16 × 1 × 40 block results are regrouped as
  4 × 4 × 40 (cloud `4 b + d` of the block array is part `d` of batch `b`) and maximised over the four parts of each batch.
-/
import proofs.«102768_j73547019976967_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Reduce
import Idealize.ShloMosaic.PureOps.Ideal.Laws

noncomputable section

namespace Cert.KernelIdeal.TailSpec

open Cert.KernelIdeal Cert.KernelIdeal.Gen Idealize.ShloMosaic Idealize.ShloMosaic.TcCoe Idealize.ShloMosaic.ValueIdx Idealize.SL.Sem

/-- The bit pattern of the reduction's initial value denotes the least extended real. -/
theorem ofBits_neg_inf : Ideal.ofBits .f32 0xFF800000#32 = (⊥ : EReal) := by simp [Ideal.ofBits, Ideal.ieee]

/-- A maximum over the members of a family picked out by a condition, re-indexed: when `f` maps onto the members and
    `x ∘ f = y`, the maximum of `x` over the members is the maximum of `y`. -/
theorem sup_filter_reindex {ι κ : Type} [Fintype ι] [Fintype κ] (P : ι → Prop) [DecidablePred P] (x : ι → EReal)
    (y : κ → EReal) (f : κ → ι) (hf : ∀ k, P (f k)) (hx : ∀ k, x (f k) = y k) (hs : ∀ i, P i → ∃ k, f k = i) :
    (Finset.univ.filter P).sup x = Finset.univ.sup y := by
  apply le_antisymm
  · refine Finset.sup_le fun i hi => ?_
    obtain ⟨k, rfl⟩ := hs i (Finset.mem_filter.1 hi).2
    rw [hx]
    exact Finset.le_sup (Finset.mem_univ k)
  · refine Finset.sup_le fun k _ => ?_
    rw [← hx]
    exact Finset.le_sup (Finset.mem_filter.2 ⟨Finset.mem_univ _, hf k⟩)

/-- Which three-coordinate indices drop to (b, o) when the middle axis is removed. -/
theorem drop1_eq_iff (h : S4x4x40.ReducesTo [1] S4x40) (q : S4x4x40.Idx) (b : Fin 4) (o : Fin 40) :
    h.drop q = ix2 b o ↔ q 0 = b ∧ q 2 = o := by
  have e0 := h.drop_apply_val_of_eq q 0 0
  have e1 := h.drop_apply_val_of_eq q 1 2
  constructor
  · intro e
    refine ⟨Fin.ext ?_, Fin.ext ?_⟩
    · rw [← e0, e]
    · rw [← e1, e]
  · rintro ⟨h0, h2⟩
    funext c
    apply Fin.ext
    match c with
    | ⟨0, _⟩ => exact e0.trans (congrArg Fin.val h0)
    | ⟨1, _⟩ => exact e1.trans (congrArg Fin.val h2)

/-- The regrouped array at (b, d, o) is the block array at (4 b + d, 0, o): the two positions are the same in row-major order. -/
theorem regroup_apply (x : S16x1x40.Idx → EReal) (h : S16x1x40.ShapeCasts S4x4x40) (b d : Fin 4) (o : Fin 40) :
    shapeCast S4x4x40 x h (ix3 b d o) = x (ix3 (⟨b.val * 4 + d.val, by omega⟩ : Fin 16) 0 o) :=
  shapeCast_apply x h (ix3 b d o) (ix3 (⟨b.val * 4 + d.val, by omega⟩ : Fin 16) 0 o) (by
    rewrite [Shape.rowMajor_val_three, Shape.rowMajor_val_three]
    show ((b.val * 4 + d.val) * 1 + 0) * 40 + o.val = (b.val * 4 + d.val) * 40 + o.val
    omega)

/-- What the result buffer holds after the three operations: at (b, o), the maximum over the four parts `d` of the
    block results of cloud `4 b + d`. -/
theorem tail_value (W : Valuation τ sig (Elt Ideal)) (b : Fin 4) (o : Fin 40) :
    (StableHlo.after (hostOps1 (F := Ideal)) W (Proc.devRef .tc main_v6) : S4x40.Idx → EReal) (ix2 b o)
      = Finset.sup (α := EReal) Finset.univ fun d : Fin 4 =>
          (W (Proc.devRef .tc main_v4) : S16x1x40.Idx → EReal) (ix3 (⟨b.val * 4 + d.val, by omega⟩ : Fin 16) 0 o) := by
  have e : StableHlo.after (hostOps1 (F := Ideal)) W (Proc.devRef .tc main_v6)
      = Host.reduce FloatOps.maximumf (shapeCast S4x4x40 (W (Proc.devRef .tc main_v4) : S16x1x40.Idx → EReal) shapeCasts_S16x1x40_S4x4x40)
          (constant (F := Ideal) S_ .f32 0xFF800000#32) reducesTo_S4x4x40_S4x40_d1 h_S_ := by
    unfold hostOps1
    after_results
    rfl
  rw [e, Host.reduce_eq_fold]
  have hb : (constant (F := Ideal) S_ .f32 0xFF800000#32) (Shape.Idx.first Facts₀.h_S_) = (⊥ : EReal) := ofBits_neg_inf
  rw [hb]
  exact sup_filter_reindex (fun q => Facts₀.reducesTo_S4x4x40_S4x40_d1.drop q = ix2 b o)
    (shapeCast S4x4x40 (W (Proc.devRef .tc main_v4) : S16x1x40.Idx → EReal) Facts₀.shapeCasts_S16x1x40_S4x4x40)
    (fun d : Fin 4 => (W (Proc.devRef .tc main_v4) : S16x1x40.Idx → EReal) (ix3 (⟨b.val * 4 + d.val, by omega⟩ : Fin 16) 0 o))
    (fun d : Fin 4 => ix3 b d o)
    (fun d => (drop1_eq_iff _ _ b o).2 ⟨rfl, rfl⟩)
    (fun d => regroup_apply _ _ b d o)
    (fun q hq => by
      obtain ⟨h0, h2⟩ := (drop1_eq_iff _ q b o).1 hq
      exact ⟨(q 1 : Fin 4), by rw [← h0, ← h2]; exact (eq_ix3 q).symm⟩)

end Cert.KernelIdeal.TailSpec

end
-- ==== Proof.Spec.lean ====
/-
  The function both programs compute, over the extended reals.

  Input: 4 batches of 512 points in 3 coordinates, read as 16 clouds of 128 points (cloud a = 4·batch + d holds the
  points 128·d … 128·d + 127 of its batch). For every ordered pair (i, j) of points of a cloud, the pair's six
  coordinates (those of j, then those of i) go through three affine layers, the first two followed by max(·, 0):
  6 → 64 → 128 → 256. Each of the 256 channels is maximised over all 128 × 128 pairs of the cloud; the 256 maxima go
  through three more layers 256 → 512 → 256 → 40 (max(·, 0) after the first two); finally each of the 40 outputs is
  maximised over the four clouds of a batch.

  The first layer is written as the kernel computes it — the weights' first three columns against point j plus their
  last three columns against point i — and every product is weight × activation. "Block-level" functions take the
  blocks one grid point of the kernel sees (all 128 points of the cloud, and one chunk of 32 of them as the "i" points).
-/
import Idealize.ShloMosaic.PureOps.Ideal
import Idealize.ShloMosaic.Lib.ValueIdx

noncomputable section

namespace Cert.Spec

open Idealize.ShloMosaic Idealize.ShloMosaic.ValueIdx

/-- An array of extended reals over a literal shape. -/
abbrev Arr (r : Nat) (sz : Fin r → Nat) : Type := (⟨r, sz⟩ : Shape).Idx → EReal

/-! ## One chunk: what a grid point computes from its blocks -/

section Block

variable (xj : Arr 3 ![1, 128, 3]) (xi : Arr 3 ![1, 32, 3]) (w1j w1i : Arr 2 ![64, 3]) (b1 : Arr 1 ![64])
  (w2 : Arr 2 ![128, 64]) (b2 : Arr 1 ![128]) (w3 : Arr 2 ![256, 128]) (b3 : Arr 1 ![256])

/-- First layer at the pair (chunk point `ti`, cloud point `j`), before the bias. -/
def pre1B (ti : Fin 32) (j : Fin 128) (o : Fin 64) : EReal :=
  (∑ k : Fin 3, w1j (ix2 o k) * xj (ix3 0 j k)) + (∑ k : Fin 3, w1i (ix2 o k) * xi (ix3 0 ti k))
def h1B (ti : Fin 32) (j : Fin 128) (o : Fin 64) : EReal := max (pre1B xj xi w1j w1i ti j o + b1 (ix1 o)) 0
def h2B (ti : Fin 32) (j : Fin 128) (o : Fin 128) : EReal :=
  max ((∑ k : Fin 64, w2 (ix2 o k) * h1B xj xi w1j w1i b1 ti j k) + b2 (ix1 o)) 0
def gB (ti : Fin 32) (j : Fin 128) (o : Fin 256) : EReal :=
  (∑ k : Fin 128, w3 (ix2 o k) * h2B xj xi w1j w1i b1 w2 b2 ti j k) + b3 (ix1 o)
/-- The chunk's maximum of channel `o` over its 32 × 128 pairs. -/
def chunkMax (o : Fin 256) : EReal :=
  Finset.univ.sup fun p : Fin 32 × Fin 128 => gB xj xi w1j w1i b1 w2 b2 w3 b3 p.1 p.2 o

end Block

section Head

variable (p : Fin 256 → EReal) (v1 : Arr 2 ![512, 256]) (c1 : Arr 1 ![512]) (v2 : Arr 2 ![256, 512]) (c2 : Arr 1 ![256])
  (v3 : Arr 2 ![40, 256]) (c3 : Arr 1 ![40])

def y1B (o : Fin 512) : EReal := max ((∑ k : Fin 256, v1 (ix2 o k) * p k) + c1 (ix1 o)) 0
def y2B (o : Fin 256) : EReal := max ((∑ k : Fin 512, v2 (ix2 o k) * y1B p v1 c1 k) + c2 (ix1 o)) 0
/-- The three final layers applied to the 256 pooled maxima `p`. -/
def headB (o : Fin 40) : EReal := (∑ k : Fin 256, v3 (ix2 o k) * y2B p v1 c1 v2 c2 k) + c3 (ix1 o)

end Head

/-! ## The whole arrays -/

section Whole

variable (X : Arr 3 ![4, 512, 3]) (W1 : Arr 2 ![64, 6]) (b1 : Arr 1 ![64]) (W2 : Arr 2 ![128, 64]) (b2 : Arr 1 ![128])
  (W3 : Arr 2 ![256, 128]) (b3 : Arr 1 ![256]) (V1 : Arr 2 ![512, 256]) (c1 : Arr 1 ![512]) (V2 : Arr 2 ![256, 512])
  (c2 : Arr 1 ![256]) (V3 : Arr 2 ![40, 256]) (c3 : Arr 1 ![40])

/-- Coordinate `k` of point `i` of cloud `a`. -/
def pt (a : Fin 16) (i : Fin 128) (k : Fin 3) : EReal :=
  X (ix3 (⟨a.val / 4, by omega⟩ : Fin 4) (⟨(a.val % 4) * 128 + i.val, by omega⟩ : Fin 512) k)
/-- The first three, and the last three, columns of the first weight matrix. -/
def W1j : Arr 2 ![64, 3] := fun q => W1 (ix2 (q 0) (⟨(q 1).val, by have h : (q 1).val < 3 := (q 1).isLt; omega⟩ : Fin 6))
def W1i : Arr 2 ![64, 3] := fun q => W1 (ix2 (q 0) (⟨3 + (q 1).val, by have h : (q 1).val < 3 := (q 1).isLt; omega⟩ : Fin 6))

def pre1 (a : Fin 16) (i j : Fin 128) (o : Fin 64) : EReal :=
  (∑ k : Fin 3, W1j W1 (ix2 o k) * pt X a j k) + (∑ k : Fin 3, W1i W1 (ix2 o k) * pt X a i k)
def h1 (a : Fin 16) (i j : Fin 128) (o : Fin 64) : EReal := max (pre1 X W1 a i j o + b1 (ix1 o)) 0
def h2 (a : Fin 16) (i j : Fin 128) (o : Fin 128) : EReal :=
  max ((∑ k : Fin 64, W2 (ix2 o k) * h1 X W1 b1 a i j k) + b2 (ix1 o)) 0
def g (a : Fin 16) (i j : Fin 128) (o : Fin 256) : EReal :=
  (∑ k : Fin 128, W3 (ix2 o k) * h2 X W1 b1 W2 b2 a i j k) + b3 (ix1 o)
/-- Channel `o` maximised over all pairs of cloud `a`. -/
def pool (a : Fin 16) (o : Fin 256) : EReal :=
  Finset.univ.sup fun p : Fin 128 × Fin 128 => g X W1 b1 W2 b2 W3 b3 a p.1 p.2 o
/-- The 40 outputs of cloud `a`. -/
def cloudOut (a : Fin 16) (o : Fin 40) : EReal :=
  headB (pool X W1 b1 W2 b2 W3 b3 a) V1 c1 V2 c2 V3 c3 o
/-- The result: each output maximised over the four clouds of a batch. -/
def result : Arr 2 ![4, 40] := fun q =>
  Finset.univ.sup fun d : Fin 4 =>
    cloudOut X W1 b1 W2 b2 W3 b3 V1 c1 V2 c2 V3 c3 (⟨(q 0).val * 4 + d.val, by have h : (q 0).val < 4 := (q 0).isLt; omega⟩ : Fin 16) (q 1)

end Whole

end Cert.Spec

end
-- ==== Proof.BlkSpec.lean ====
/-
  The blocks the body reads at a grid position, read off the arrays as the region finds them: the cloud's 128
  points, the chunk's 32 points, the two halves of the first weight matrix, and the eleven remaining parameter
  arrays whole.
-/
import proofs.«102768_j73547019976967_2_alg».proof.Proof.KIFrame
import proofs.«102768_j73547019976967_2_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.BlkSpec

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-! ## The arrays as the region finds them -/

/-- The points regrouped into 16 clouds: two reshapes of the argument. -/
theorem V_v1_eq : (V m c main_v1 : S16x128x3.Idx → EReal)
    = shapeCast S16x128x3 (shapeCast S4x4x128x3 (m ((c : Thread nD τ).loc main_arg0) : S4x512x3.Idx → EReal)
        shapeCasts_S4x512x3_S4x4x128x3) shapeCasts_S4x4x128x3_S16x128x3 := by
  show StableHlo.after (List.flatten [hostOps0]) (fun b => m (c, b)) (Proc.devRef .tc main_v1) = _
  simp only [List.flatten_cons, List.flatten_nil, List.append_nil]
  after_results
  rfl

/-- Coordinate `k` of point `i` of cloud `a` in the regrouped array is the specification's. -/
theorem V_v1_apply (a : Fin 16) (i : Fin 128) (k : Fin 3) :
    (V m c main_v1 : S16x128x3.Idx → EReal) (ix3 a i k)
      = Cert.Spec.pt (m ((c : Thread nD τ).loc main_arg0) : S4x512x3.Idx → EReal) a i k := by
  rw [V_v1_eq]
  have ha := a.isLt; have hi := i.isLt; have hk := k.isLt
  refine (shapeCast_apply _ shapeCasts_S4x4x128x3_S16x128x3 (ix3 a i k)
    (ix4 (⟨a.val / 4, by omega⟩ : Fin 4) (⟨a.val % 4, by omega⟩ : Fin 4) i k) (by
      rw [Shape.rowMajor_val_four, Shape.rowMajor_val_three]
      show ((a.val / 4 * 4 + a.val % 4) * 128 + i.val) * 3 + k.val = (a.val * 128 + i.val) * 3 + k.val
      omega)).trans ?_
  refine (shapeCast_apply _ shapeCasts_S4x512x3_S4x4x128x3 _
    (ix3 (⟨a.val / 4, by omega⟩ : Fin 4) (⟨a.val % 4 * 128 + i.val, by omega⟩ : Fin 512) k) (by
      rw [Shape.rowMajor_val_four, Shape.rowMajor_val_three]
      show (a.val / 4 * 512 + (a.val % 4 * 128 + i.val)) * 3 + k.val = ((a.val / 4 * 4 + a.val % 4) * 128 + i.val) * 3 + k.val
      omega)).trans ?_
  rfl

/-- The first three columns of the first weight matrix: a slice of the argument. -/
theorem V_v2_eq : (V m c main_v2 : S64x3.Idx → EReal)
    = extractStridedSlice S64x3 ![0, 0] (m ((c : Thread nD τ).loc main_arg1) : S64x6.Idx → EReal) slices_S64x6_S64x3_0_0 := by
  show StableHlo.after (List.flatten [hostOps0]) (fun b => m (c, b)) (Proc.devRef .tc main_v2) = _
  simp only [List.flatten_cons, List.flatten_nil, List.append_nil]
  first
    | (after_results; done)
    | (after_results; rfl)

/-- Its last three columns likewise. -/
theorem V_v3_eq : (V m c main_v3 : S64x3.Idx → EReal)
    = extractStridedSlice S64x3 ![0, 3] (m ((c : Thread nD τ).loc main_arg1) : S64x6.Idx → EReal) slices_S64x6_S64x3_0_3 := by
  show StableHlo.after (List.flatten [hostOps0]) (fun b => m (c, b)) (Proc.devRef .tc main_v3) = _
  simp only [List.flatten_cons, List.flatten_nil, List.append_nil]
  first
    | (after_results; done)
    | (after_results; rfl)

/-! ## The block index maps over the grid -/

/-- The two point windows' block indices at position `t`: cloud `t / 4`, and for the chunk window chunk `t % 4`;
    the two weight windows' are zero. -/
theorem idx_facts : ∀ t : Fin cfg0.N, win0_0.index t (0 : Fin 3) = t.val / 4 ∧ win0_0.index t (1 : Fin 3) = 0
    ∧ win0_0.index t (2 : Fin 3) = 0 ∧ win0_1.index t (0 : Fin 3) = t.val / 4 ∧ win0_1.index t (1 : Fin 3) = t.val % 4
    ∧ win0_1.index t (2 : Fin 3) = 0 ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A position is below 64, so its cloud is below 16. -/
theorem cloud_lt (t : Fin cfg0.N) : t.val / 4 < 16 := by
  have := t.isLt; have : cfg0.N = 64 := N_0; omega

/-! ## The point blocks -/

/-- Window 0's block at position `t`: all 128 points of cloud `t / 4`. -/
theorem blk0_apply (t : Fin cfg0.N) (u : Fin 1) (j : Fin 128) (k : Fin 3) :
    (iblk m c 0 t : Vec Ideal S1x128x3 .f32) (ix3 u j k)
      = Cert.Spec.pt (m ((c : Thread nD τ).loc main_arg0) : S4x512x3.Idx → EReal) (⟨t.val / 4, cloud_lt t⟩ : Fin 16) j k := by
  obtain ⟨e0, e1, e2, -, -, -, -, -, -, -⟩ := idx_facts t
  unfold iblk
  rw [View.read_apply]
  show (V m c main_v1 : S16x128x3.Idx → EReal) _ = _
  rw [← V_v1_apply]
  congr 1
  funext a
  apply Fin.ext
  have hu : u.val = 0 := by omega
  match a with
  | ⟨0, _⟩ => show win0_0.index t (0 : Fin 3) * 1 + 1 * u.val = t.val / 4; omega
  | ⟨1, _⟩ => show win0_0.index t (1 : Fin 3) * 128 + 1 * j.val = j.val; omega
  | ⟨2, _⟩ => show win0_0.index t (2 : Fin 3) * 3 + 1 * k.val = k.val; omega

/-- The same as an equation of blocks. -/
theorem blk0 (t : Fin cfg0.N) :
    (iblk m c 0 t : Vec Ideal S1x128x3 .f32)
      = fun q => Cert.Spec.pt (m ((c : Thread nD τ).loc main_arg0) : S4x512x3.Idx → EReal) (⟨t.val / 4, cloud_lt t⟩ : Fin 16) (q 1) (q 2) := by
  funext q
  obtain ⟨u, j, k, rfl⟩ : ∃ (u : Fin 1) (j : Fin 128) (k : Fin 3), q = ix3 u j k := ⟨q 0, q 1, q 2, eq_ix3 q⟩
  exact blk0_apply m c t u j k

/-- Window 1's block at position `t`: the 32 points `32 (t % 4) …` of cloud `t / 4`. -/
theorem blk1_apply (t : Fin cfg0.N) (u : Fin 1) (j : Fin 32) (k : Fin 3) :
    (iblk m c 1 t : Vec Ideal S1x32x3 .f32) (ix3 u j k)
      = Cert.Spec.pt (m ((c : Thread nD τ).loc main_arg0) : S4x512x3.Idx → EReal) (⟨t.val / 4, cloud_lt t⟩ : Fin 16)
          (⟨32 * (t.val % 4) + j.val, by have := j.isLt; omega⟩ : Fin 128) k := by
  obtain ⟨-, -, -, e0, e1, e2, -, -, -, -⟩ := idx_facts t
  unfold iblk
  rw [View.read_apply]
  show (V m c main_v1 : S16x128x3.Idx → EReal) _ = _
  rw [← V_v1_apply]
  congr 1
  funext a
  apply Fin.ext
  have hu : u.val = 0 := by omega
  match a with
  | ⟨0, _⟩ => show win0_1.index t (0 : Fin 3) * 1 + 1 * u.val = t.val / 4; omega
  | ⟨1, _⟩ => show win0_1.index t (1 : Fin 3) * 32 + 1 * j.val = 32 * (t.val % 4) + j.val; omega
  | ⟨2, _⟩ => show win0_1.index t (2 : Fin 3) * 3 + 1 * k.val = k.val; omega

/-- The same as an equation of blocks. -/
theorem blk1 (t : Fin cfg0.N) :
    (iblk m c 1 t : Vec Ideal S1x32x3 .f32)
      = fun q => Cert.Spec.pt (m ((c : Thread nD τ).loc main_arg0) : S4x512x3.Idx → EReal) (⟨t.val / 4, cloud_lt t⟩ : Fin 16)
          (⟨32 * (t.val % 4) + (q 1).val, by have h : (q 1).val < 32 := (q 1).isLt; omega⟩ : Fin 128) (q 2) := by
  funext q
  obtain ⟨u, j, k, rfl⟩ : ∃ (u : Fin 1) (j : Fin 32) (k : Fin 3), q = ix3 u j k := ⟨q 0, q 1, q 2, eq_ix3 q⟩
  exact blk1_apply m c t u j k

/-! ## The two halves of the first weight matrix -/

/-- Window 2's block at every position: the weights' first three columns. -/
theorem blk2_apply (t : Fin cfg0.N) (o : Fin 64) (k : Fin 3) :
    (iblk m c 2 t : Vec Ideal S64x3 .f32) (ix2 o k)
      = Cert.Spec.W1j (m ((c : Thread nD τ).loc main_arg1) : S64x6.Idx → EReal) (ix2 o k) := by
  obtain ⟨-, -, -, -, -, -, e0, e1, -, -⟩ := idx_facts t
  unfold iblk
  rw [View.read_apply]
  show (V m c main_v2 : S64x3.Idx → EReal) _ = _
  rw [V_v2_eq]
  have he : ((cfg0.win 2).blk t).view.emb (ix2 o k) = ix2 o k := by
    funext a
    apply Fin.ext
    match a with
    | ⟨0, _⟩ => show win0_2.index t (0 : Fin 2) * 64 + 1 * o.val = o.val; omega
    | ⟨1, _⟩ => show win0_2.index t (1 : Fin 2) * 3 + 1 * k.val = k.val; omega
  rw [he]
  exact slice2_axis1_apply 0 _ slices_S64x6_S64x3_0_0 o k (⟨k.val, by have := k.isLt; omega⟩ : Fin 6) (Nat.zero_add _).symm

/-- The same as an equation of blocks. -/
theorem blk2 (t : Fin cfg0.N) :
    (iblk m c 2 t : Vec Ideal S64x3 .f32) = Cert.Spec.W1j (m ((c : Thread nD τ).loc main_arg1) : S64x6.Idx → EReal) := by
  funext q
  obtain ⟨o, k, rfl⟩ : ∃ (o : Fin 64) (k : Fin 3), q = ix2 o k := ⟨q 0, q 1, eq_ix2 q⟩
  exact blk2_apply m c t o k

/-- Window 3's block at every position: the weights' last three columns. -/
theorem blk3_apply (t : Fin cfg0.N) (o : Fin 64) (k : Fin 3) :
    (iblk m c 3 t : Vec Ideal S64x3 .f32) (ix2 o k)
      = Cert.Spec.W1i (m ((c : Thread nD τ).loc main_arg1) : S64x6.Idx → EReal) (ix2 o k) := by
  obtain ⟨-, -, -, -, -, -, -, -, e0, e1⟩ := idx_facts t
  unfold iblk
  rw [View.read_apply]
  show (V m c main_v3 : S64x3.Idx → EReal) _ = _
  rw [V_v3_eq]
  have he : ((cfg0.win 3).blk t).view.emb (ix2 o k) = ix2 o k := by
    funext a
    apply Fin.ext
    match a with
    | ⟨0, _⟩ => show win0_3.index t (0 : Fin 2) * 64 + 1 * o.val = o.val; omega
    | ⟨1, _⟩ => show win0_3.index t (1 : Fin 2) * 3 + 1 * k.val = k.val; omega
  rw [he]
  exact slice2_axis1_apply 3 _ slices_S64x6_S64x3_0_3 o k (⟨3 + k.val, by have := k.isLt; omega⟩ : Fin 6) rfl

/-- The same as an equation of blocks. -/
theorem blk3 (t : Fin cfg0.N) :
    (iblk m c 3 t : Vec Ideal S64x3 .f32) = Cert.Spec.W1i (m ((c : Thread nD τ).loc main_arg1) : S64x6.Idx → EReal) := by
  funext q
  obtain ⟨o, k, rfl⟩ : ∃ (o : Fin 64) (k : Fin 3), q = ix2 o k := ⟨q 0, q 1, eq_ix2 q⟩
  exact blk3_apply m c t o k

/-! ## The eleven parameter arrays read whole -/

/-- No host operation before the region writes `main_arg2`. -/
theorem V_main_arg2 : (V m c main_arg2 : S64.Idx → EReal) = (m ((c : Thread nD τ).loc main_arg2) : S64.Idx → EReal) := by
  show StableHlo.after (List.flatten [hostOps0]) (fun b => m (c, b)) (Proc.devRef .tc main_arg2) = _
  simp only [List.flatten_cons, List.flatten_nil, List.append_nil]
  first
    | (after_results; done)
    | (after_results; rfl)

/-- Window 4's block is the whole of `main_arg2` at every position. -/
theorem blk4 (t : Fin cfg0.N) :
    (iblk m c 4 t : Vec Ideal S64 .f32) = (m ((c : Thread nD τ).loc main_arg2) : S64.Idx → EReal) := by
  have e0 := (by decide +kernel : ∀ t : Fin grid0.N, win0_4.index t (0 : Fin 1) = 0) t
  funext y
  unfold iblk
  rw [View.read_apply]
  show (V m c main_arg2 : S64.Idx → EReal) _ = _
  rw [V_main_arg2]
  congr 1
  funext a
  apply Fin.ext
  match a with
  | ⟨0, _⟩ => show win0_4.index t (0 : Fin 1) * 64 + 1 * (y 0).val = (y 0).val; omega

/-- No host operation before the region writes `main_arg3`. -/
theorem V_main_arg3 : (V m c main_arg3 : S128x64.Idx → EReal) = (m ((c : Thread nD τ).loc main_arg3) : S128x64.Idx → EReal) := by
  show StableHlo.after (List.flatten [hostOps0]) (fun b => m (c, b)) (Proc.devRef .tc main_arg3) = _
  simp only [List.flatten_cons, List.flatten_nil, List.append_nil]
  first
    | (after_results; done)
    | (after_results; rfl)

/-- Window 5's block is the whole of `main_arg3` at every position. -/
theorem blk5 (t : Fin cfg0.N) :
    (iblk m c 5 t : Vec Ideal S128x64 .f32) = (m ((c : Thread nD τ).loc main_arg3) : S128x64.Idx → EReal) := by
  obtain ⟨e0, e1⟩ := (by decide +kernel : ∀ t : Fin grid0.N, win0_5.index t (0 : Fin 2) = 0 ∧ win0_5.index t (1 : Fin 2) = 0) t
  funext y
  unfold iblk
  rw [View.read_apply]
  show (V m c main_arg3 : S128x64.Idx → EReal) _ = _
  rw [V_main_arg3]
  congr 1
  funext a
  apply Fin.ext
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- No host operation before the region writes `main_arg4`. -/
theorem V_main_arg4 : (V m c main_arg4 : S128.Idx → EReal) = (m ((c : Thread nD τ).loc main_arg4) : S128.Idx → EReal) := by
  show StableHlo.after (List.flatten [hostOps0]) (fun b => m (c, b)) (Proc.devRef .tc main_arg4) = _
  simp only [List.flatten_cons, List.flatten_nil, List.append_nil]
  first
    | (after_results; done)
    | (after_results; rfl)

/-- Window 6's block is the whole of `main_arg4` at every position. -/
theorem blk6 (t : Fin cfg0.N) :
    (iblk m c 6 t : Vec Ideal S128 .f32) = (m ((c : Thread nD τ).loc main_arg4) : S128.Idx → EReal) := by
  have e0 := (by decide +kernel : ∀ t : Fin grid0.N, win0_6.index t (0 : Fin 1) = 0) t
  funext y
  unfold iblk
  rw [View.read_apply]
  show (V m c main_arg4 : S128.Idx → EReal) _ = _
  rw [V_main_arg4]
  congr 1
  funext a
  apply Fin.ext
  match a with
  | ⟨0, _⟩ => show win0_6.index t (0 : Fin 1) * 128 + 1 * (y 0).val = (y 0).val; omega

/-- No host operation before the region writes `main_arg5`. -/
theorem V_main_arg5 : (V m c main_arg5 : S256x128.Idx → EReal) = (m ((c : Thread nD τ).loc main_arg5) : S256x128.Idx → EReal) := by
  show StableHlo.after (List.flatten [hostOps0]) (fun b => m (c, b)) (Proc.devRef .tc main_arg5) = _
  simp only [List.flatten_cons, List.flatten_nil, List.append_nil]
  first
    | (after_results; done)
    | (after_results; rfl)

/-- Window 7's block is the whole of `main_arg5` at every position. -/
theorem blk7 (t : Fin cfg0.N) :
    (iblk m c 7 t : Vec Ideal S256x128 .f32) = (m ((c : Thread nD τ).loc main_arg5) : S256x128.Idx → EReal) := by
  obtain ⟨e0, e1⟩ := (by decide +kernel : ∀ t : Fin grid0.N, win0_7.index t (0 : Fin 2) = 0 ∧ win0_7.index t (1 : Fin 2) = 0) t
  funext y
  unfold iblk
  rw [View.read_apply]
  show (V m c main_arg5 : S256x128.Idx → EReal) _ = _
  rw [V_main_arg5]
  congr 1
  funext a
  apply Fin.ext
  match a with
  | ⟨0, _⟩ => show win0_7.index t (0 : Fin 2) * 256 + 1 * (y 0).val = (y 0).val; omega
  | ⟨1, _⟩ => show win0_7.index t (1 : Fin 2) * 128 + 1 * (y 1).val = (y 1).val; omega

/-- No host operation before the region writes `main_arg6`. -/
theorem V_main_arg6 : (V m c main_arg6 : S256.Idx → EReal) = (m ((c : Thread nD τ).loc main_arg6) : S256.Idx → EReal) := by
  show StableHlo.after (List.flatten [hostOps0]) (fun b => m (c, b)) (Proc.devRef .tc main_arg6) = _
  simp only [List.flatten_cons, List.flatten_nil, List.append_nil]
  first
    | (after_results; done)
    | (after_results; rfl)

/-- Window 8's block is the whole of `main_arg6` at every position. -/
theorem blk8 (t : Fin cfg0.N) :
    (iblk m c 8 t : Vec Ideal S256 .f32) = (m ((c : Thread nD τ).loc main_arg6) : S256.Idx → EReal) := by
  have e0 := (by decide +kernel : ∀ t : Fin grid0.N, win0_8.index t (0 : Fin 1) = 0) t
  funext y
  unfold iblk
  rw [View.read_apply]
  show (V m c main_arg6 : S256.Idx → EReal) _ = _
  rw [V_main_arg6]
  congr 1
  funext a
  apply Fin.ext
  match a with
  | ⟨0, _⟩ => show win0_8.index t (0 : Fin 1) * 256 + 1 * (y 0).val = (y 0).val; omega

/-- No host operation before the region writes `main_arg7`. -/
theorem V_main_arg7 : (V m c main_arg7 : S512x256.Idx → EReal) = (m ((c : Thread nD τ).loc main_arg7) : S512x256.Idx → EReal) := by
  show StableHlo.after (List.flatten [hostOps0]) (fun b => m (c, b)) (Proc.devRef .tc main_arg7) = _
  simp only [List.flatten_cons, List.flatten_nil, List.append_nil]
  first
    | (after_results; done)
    | (after_results; rfl)

/-- Window 9's block is the whole of `main_arg7` at every position. -/
theorem blk9 (t : Fin cfg0.N) :
    (iblk m c 9 t : Vec Ideal S512x256 .f32) = (m ((c : Thread nD τ).loc main_arg7) : S512x256.Idx → EReal) := by
  obtain ⟨e0, e1⟩ := (by decide +kernel : ∀ t : Fin grid0.N, win0_9.index t (0 : Fin 2) = 0 ∧ win0_9.index t (1 : Fin 2) = 0) t
  funext y
  unfold iblk
  rw [View.read_apply]
  show (V m c main_arg7 : S512x256.Idx → EReal) _ = _
  rw [V_main_arg7]
  congr 1
  funext a
  apply Fin.ext
  match a with
  | ⟨0, _⟩ => show win0_9.index t (0 : Fin 2) * 512 + 1 * (y 0).val = (y 0).val; omega
  | ⟨1, _⟩ => show win0_9.index t (1 : Fin 2) * 256 + 1 * (y 1).val = (y 1).val; omega

/-- No host operation before the region writes `main_arg8`. -/
theorem V_main_arg8 : (V m c main_arg8 : S512.Idx → EReal) = (m ((c : Thread nD τ).loc main_arg8) : S512.Idx → EReal) := by
  show StableHlo.after (List.flatten [hostOps0]) (fun b => m (c, b)) (Proc.devRef .tc main_arg8) = _
  simp only [List.flatten_cons, List.flatten_nil, List.append_nil]
  first
    | (after_results; done)
    | (after_results; rfl)

/-- Window 10's block is the whole of `main_arg8` at every position. -/
theorem blk10 (t : Fin cfg0.N) :
    (iblk m c 10 t : Vec Ideal S512 .f32) = (m ((c : Thread nD τ).loc main_arg8) : S512.Idx → EReal) := by
  have e0 := (by decide +kernel : ∀ t : Fin grid0.N, win0_10.index t (0 : Fin 1) = 0) t
  funext y
  unfold iblk
  rw [View.read_apply]
  show (V m c main_arg8 : S512.Idx → EReal) _ = _
  rw [V_main_arg8]
  congr 1
  funext a
  apply Fin.ext
  match a with
  | ⟨0, _⟩ => show win0_10.index t (0 : Fin 1) * 512 + 1 * (y 0).val = (y 0).val; omega

/-- No host operation before the region writes `main_arg9`. -/
theorem V_main_arg9 : (V m c main_arg9 : S256x512.Idx → EReal) = (m ((c : Thread nD τ).loc main_arg9) : S256x512.Idx → EReal) := by
  show StableHlo.after (List.flatten [hostOps0]) (fun b => m (c, b)) (Proc.devRef .tc main_arg9) = _
  simp only [List.flatten_cons, List.flatten_nil, List.append_nil]
  first
    | (after_results; done)
    | (after_results; rfl)

/-- Window 11's block is the whole of `main_arg9` at every position. -/
theorem blk11 (t : Fin cfg0.N) :
    (iblk m c 11 t : Vec Ideal S256x512 .f32) = (m ((c : Thread nD τ).loc main_arg9) : S256x512.Idx → EReal) := by
  obtain ⟨e0, e1⟩ := (by decide +kernel : ∀ t : Fin grid0.N, win0_11.index t (0 : Fin 2) = 0 ∧ win0_11.index t (1 : Fin 2) = 0) t
  funext y
  unfold iblk
  rw [View.read_apply]
  show (V m c main_arg9 : S256x512.Idx → EReal) _ = _
  rw [V_main_arg9]
  congr 1
  funext a
  apply Fin.ext
  match a with
  | ⟨0, _⟩ => show win0_11.index t (0 : Fin 2) * 256 + 1 * (y 0).val = (y 0).val; omega
  | ⟨1, _⟩ => show win0_11.index t (1 : Fin 2) * 512 + 1 * (y 1).val = (y 1).val; omega

/-- No host operation before the region writes `main_arg10`. -/
theorem V_main_arg10 : (V m c main_arg10 : S256.Idx → EReal) = (m ((c : Thread nD τ).loc main_arg10) : S256.Idx → EReal) := by
  show StableHlo.after (List.flatten [hostOps0]) (fun b => m (c, b)) (Proc.devRef .tc main_arg10) = _
  simp only [List.flatten_cons, List.flatten_nil, List.append_nil]
  first
    | (after_results; done)
    | (after_results; rfl)

/-- Window 12's block is the whole of `main_arg10` at every position. -/
theorem blk12 (t : Fin cfg0.N) :
    (iblk m c 12 t : Vec Ideal S256 .f32) = (m ((c : Thread nD τ).loc main_arg10) : S256.Idx → EReal) := by
  have e0 := (by decide +kernel : ∀ t : Fin grid0.N, win0_12.index t (0 : Fin 1) = 0) t
  funext y
  unfold iblk
  rw [View.read_apply]
  show (V m c main_arg10 : S256.Idx → EReal) _ = _
  rw [V_main_arg10]
  congr 1
  funext a
  apply Fin.ext
  match a with
  | ⟨0, _⟩ => show win0_12.index t (0 : Fin 1) * 256 + 1 * (y 0).val = (y 0).val; omega

/-- No host operation before the region writes `main_arg11`. -/
theorem V_main_arg11 : (V m c main_arg11 : S40x256.Idx → EReal) = (m ((c : Thread nD τ).loc main_arg11) : S40x256.Idx → EReal) := by
  show StableHlo.after (List.flatten [hostOps0]) (fun b => m (c, b)) (Proc.devRef .tc main_arg11) = _
  simp only [List.flatten_cons, List.flatten_nil, List.append_nil]
  first
    | (after_results; done)
    | (after_results; rfl)

/-- Window 13's block is the whole of `main_arg11` at every position. -/
theorem blk13 (t : Fin cfg0.N) :
    (iblk m c 13 t : Vec Ideal S40x256 .f32) = (m ((c : Thread nD τ).loc main_arg11) : S40x256.Idx → EReal) := by
  obtain ⟨e0, e1⟩ := (by decide +kernel : ∀ t : Fin grid0.N, win0_13.index t (0 : Fin 2) = 0 ∧ win0_13.index t (1 : Fin 2) = 0) t
  funext y
  unfold iblk
  rw [View.read_apply]
  show (V m c main_arg11 : S40x256.Idx → EReal) _ = _
  rw [V_main_arg11]
  congr 1
  funext a
  apply Fin.ext
  match a with
  | ⟨0, _⟩ => show win0_13.index t (0 : Fin 2) * 40 + 1 * (y 0).val = (y 0).val; omega
  | ⟨1, _⟩ => show win0_13.index t (1 : Fin 2) * 256 + 1 * (y 1).val = (y 1).val; omega

/-- No host operation before the region writes `main_arg12`. -/
theorem V_main_arg12 : (V m c main_arg12 : S40.Idx → EReal) = (m ((c : Thread nD τ).loc main_arg12) : S40.Idx → EReal) := by
  show StableHlo.after (List.flatten [hostOps0]) (fun b => m (c, b)) (Proc.devRef .tc main_arg12) = _
  simp only [List.flatten_cons, List.flatten_nil, List.append_nil]
  first
    | (after_results; done)
    | (after_results; rfl)

/-- Window 14's block is the whole of `main_arg12` at every position. -/
theorem blk14 (t : Fin cfg0.N) :
    (iblk m c 14 t : Vec Ideal S40 .f32) = (m ((c : Thread nD τ).loc main_arg12) : S40.Idx → EReal) := by
  have e0 := (by decide +kernel : ∀ t : Fin grid0.N, win0_14.index t (0 : Fin 1) = 0) t
  funext y
  unfold iblk
  rw [View.read_apply]
  show (V m c main_arg12 : S40.Idx → EReal) _ = _
  rw [V_main_arg12]
  congr 1
  funext a
  apply Fin.ext
  match a with
  | ⟨0, _⟩ => show win0_14.index t (0 : Fin 1) * 40 + 1 * (y 0).val = (y 0).val; omega

end Cert.KernelIdeal.BlkSpec

end
-- ==== Proof.ArrSpec.lean ====
/-
  The array of outputs after the region, in closed form: every cloud's row holds that cloud's 40 values, given what
  the output block holds at each cloud's last position.
-/
import proofs.«102768_j73547019976967_2_alg».proof.Proof.KIFrame
import proofs.«102768_j73547019976967_2_alg».proof.Proof.BlkSpec
import proofs.«102768_j73547019976967_2_alg».proof.Proof.Spec
import Idealize.ShloMosaic.Lib.Pipeline.Value
import Idealize.ShloMosaic.Lib.ValueIdx

set_option maxRecDepth 16384

noncomputable section

namespace Cert.KernelIdeal.ArrSpec

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The output window's block index at position `t`: row `t / 4` of the array, the other two axes whole. -/
theorem idx15 : ∀ t : Fin cfg0.N, win0_15.index t (0 : Fin 3) = t.val / 4 ∧ win0_15.index t (1 : Fin 3) = 0
    ∧ win0_15.index t (2 : Fin 3) = 0 :=
  (by decide +kernel : ∀ t : Fin grid0.N, _)

/-- An index of the array is in position `t`'s block iff each coordinate is in the block's range on its axis. -/
theorem mem_blk15 (t : Fin cfg0.N) (i : S16x1x40.Idx) :
    i ∈ ((cfg0.win 15).blk t).view.set ↔ ∀ a : Fin 3, win0_15.index t a * S1x1x40.size a ≤ (i a).val
      ∧ (i a).val < win0_15.index t a * S1x1x40.size a + S1x1x40.size a := by
  show i ∈ ((View.whole main_v4).slice (win0_15.rect t)).set ↔ _
  rw [View.set_slice_whole, Rect.mem_set_unit]
  exact Iff.rfl

/-- What a cloud's last position writes back is that cloud's row of the closed form. -/
theorem flushed15_eq (cl : Fin 16 → Fin 40 → EReal)
    (hout : ∀ (t : Fin cfg0.N), t.val % 4 = 3 → ∀ o : Fin 40,
      ((outsAt m c t.val t.isLt).1 : S1x1x40.Idx → EReal) (ix3 0 0 o) = cl ⟨t.val / 4, Cert.KernelIdeal.BlkSpec.cloud_lt t⟩ o)
    (t : Fin cfg0.N) (hf : (cfg0.win 15).flush t = true) :
    (dats m 0 c).flushed 15 t
      = ((cfg0.win 15).blk t).view.read (Elt Ideal) (fun i => cl (i 0) (i 2) : S16x1x40.Idx → EReal) := by
  obtain ⟨e0, e1, e2⟩ := idx15 t
  show (cfg0.win 15).cut (grid0.coords t) ((dats m 0 c).after 15 t) = _
  rw [after15]
  funext y
  obtain ⟨u, v, o, rfl⟩ : ∃ (u v : Fin 1) (o : Fin 40), y = ix3 u v o := ⟨y 0, y 1, y 2, eq_ix3 y⟩
  obtain rfl : u = 0 := Subsingleton.elim _ _
  obtain rfl : v = 0 := Subsingleton.elim _ _
  rw [View.read_apply]
  show ((outsAt m c t.val t.isLt).1 : S1x1x40.Idx → EReal) (ix3 0 0 o)
    = cl (((cfg0.win 15).blk t).view.emb (ix3 0 0 o) 0) (((cfg0.win 15).blk t).view.emb (ix3 0 0 o) 2)
  rw [hout t ((flush0_15 t).mp hf) o]
  congr 1
  · apply Fin.ext
    show t.val / 4 = win0_15.index t (0 : Fin 3) * 1 + 1 * 0
    omega
  · apply Fin.ext
    show o.val = win0_15.index t (2 : Fin 3) * 40 + 1 * o.val
    omega

/-- THE ARRAY OF OUTPUTS after the region: row `a` holds cloud `a`'s 40 values. -/
theorem final_out (cl : Fin 16 → Fin 40 → EReal)
    (hout : ∀ (t : Fin cfg0.N), t.val % 4 = 3 → ∀ o : Fin 40,
      ((outsAt m c t.val t.isLt).1 : S1x1x40.Idx → EReal) (ix3 0 0 o) = cl ⟨t.val / 4, Cert.KernelIdeal.BlkSpec.cloud_lt t⟩ o) :
    ((dats m 0 c).arrAt 15 cfg0.N : S16x1x40.Idx → EReal) = fun i => cl (i 0) (i 2) :=
  (dats m 0 c).arrAt_eq_of_cover 15 (fun i => cl (i 0) (i 2) : S16x1x40.Idx → EReal) (flushed15_eq m c cl hout) fun i => by
    have hi0 : (i 0).val < 16 := (i 0).isLt
    have hi1 : (i 1).val < 1 := (i 1).isLt
    have hi2 : (i 2).val < 40 := (i 2).isLt
    have hN : cfg0.N = 64 := N_0
    have ht : 4 * (i 0).val + 3 < cfg0.N := by omega
    obtain ⟨e0, e1, e2⟩ := idx15 ⟨4 * (i 0).val + 3, ht⟩
    refine ⟨⟨4 * (i 0).val + 3, ht⟩, (flush0_15 _).mpr (by show (4 * (i 0).val + 3) % 4 = 3; omega), ?_⟩
    rw [mem_blk15]
    intro a
    match a with
    | ⟨0, _⟩ =>
      show win0_15.index ⟨4 * (i 0).val + 3, ht⟩ (0 : Fin 3) * 1 ≤ (i 0).val
        ∧ (i 0).val < win0_15.index ⟨4 * (i 0).val + 3, ht⟩ (0 : Fin 3) * 1 + 1
      have : (4 * (i 0).val + 3) / 4 = (i 0).val := by omega
      rw [e0]
      show (4 * (i 0).val + 3) / 4 * 1 ≤ (i 0).val ∧ (i 0).val < (4 * (i 0).val + 3) / 4 * 1 + 1
      omega
    | ⟨1, _⟩ =>
      show win0_15.index ⟨4 * (i 0).val + 3, ht⟩ (1 : Fin 3) * 1 ≤ (i 1).val
        ∧ (i 1).val < win0_15.index ⟨4 * (i 0).val + 3, ht⟩ (1 : Fin 3) * 1 + 1
      omega
    | ⟨2, _⟩ =>
      show win0_15.index ⟨4 * (i 0).val + 3, ht⟩ (2 : Fin 3) * 40 ≤ (i 2).val
        ∧ (i 2).val < win0_15.index ⟨4 * (i 0).val + 3, ht⟩ (2 : Fin 3) * 40 + 40
      omega

end Cert.KernelIdeal.ArrSpec

end
-- ==== Proof.KIPieces.lean ====
/-
  What the three runs of the body leave, as the body's own arithmetic.

  The stored pieces the runs found are read back here: every store covers its whole buffer and every load reads a
  whole buffer, so the scratch after a chunk is the payload "maximum of the scratch found and this chunk's channel
  maxima" of the chunk's input blocks, started from the -inf splat at the first chunk, and the output block after the
  last chunk is the payload "three final layers" of that scratch.
-/
import proofs.«102768_j73547019976967_2_alg».proof.Proof.KIFrame
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What a chunk leaves in the scratch from its blocks and the scratch `s` it found. -/
abbrev raise (c : Dev nD) (t : Fin cfg0.N) (s : Vec F S256x1 .f32) : Vec F S256x1 .f32 :=
  k0_pay2 (k0_pay4 (iblk m c 0 t) (iblk m c 1 t) (iblk m c 2 t) (iblk m c 3 t) (iblk m c 4 t) (iblk m c 5 t) (iblk m c 6 t)) (iblk m c 7 t) (iblk m c 8 t) s

/-- First chunk: the scratch is reset to the -inf splat, then raised. -/
theorem s_first (c : Dev nD) (t : Fin cfg0.N) (h0 : isFirst (grid0.coords t)) (h1 : ¬isLast (grid0.coords t)) :
    rdS (resFirst m c t h0 h1).2.1 = raise m c t (k0_pay1 (F := F)) := by
  show VS.read (Elt F) (VS.writes (Elt F) VS.junk (resFirst m c t h0 h1).2.1) = _
  rw [View.read_writes_eq_canon _ _ _ (scoverFirst m c t h0 h1)]
  unfold resFirst runFirst
  dsimp only
  sl_unfold_words
  rw [View.canon_cons_unit_zero (S := S256x1) hz2, View.readCov_unit_zero (S := S256x1) _ hz2]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, View.ld_unit_zero (S := S1x128x3) hz3, View.ld_unit_zero (S := S1x32x3) hz3, View.ld_unit_zero (S := S64x3) hz2, View.ld_unit_zero (S := S64) hz1, View.ld_unit_zero (S := S128x64) hz2, View.ld_unit_zero (S := S128) hz1, View.ld_unit_zero (S := S256x128) hz2, View.ld_unit_zero (S := S256) hz1]

/-- Middle chunk: the scratch found at `xs` is raised. -/
theorem s_mid (c : Dev nD) (t : Fin cfg0.N) (h0 : ¬isFirst (grid0.coords t)) (h1 : ¬isLast (grid0.coords t)) (xs : Vec F S256x1 .f32) :
    rdS (resMid m c t h0 h1 xs).2.1 = raise m c t xs := by
  show VS.read (Elt F) (VS.writes (Elt F) VS.junk (resMid m c t h0 h1 xs).2.1) = _
  rw [View.read_writes_eq_canon _ _ _ (scoverMid m c t h0 h1 xs)]
  unfold resMid runMid
  dsimp only
  sl_unfold_words
  rw [View.canon_unit_zero (S := S256x1) hz2]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, View.ld_unit_zero (S := S1x128x3) hz3, View.ld_unit_zero (S := S1x32x3) hz3, View.ld_unit_zero (S := S64x3) hz2, View.ld_unit_zero (S := S64) hz1, View.ld_unit_zero (S := S128x64) hz2, View.ld_unit_zero (S := S128) hz1, View.ld_unit_zero (S := S256x128) hz2, View.ld_unit_zero (S := S256) hz1, (Memref.isWhole_whole cc0_scratch0).read_unread, View.ld_unit_zero (S := S256x1) hz2]

/-- Last chunk: the same for the scratch, -/
theorem s_last (c : Dev nD) (t : Fin cfg0.N) (h0 : ¬isFirst (grid0.coords t)) (h1 : isLast (grid0.coords t)) (xs : Vec F S256x1 .f32) :
    rdS (resLast m c t h0 h1 xs).2.1 = raise m c t xs := by
  show VS.read (Elt F) (VS.writes (Elt F) VS.junk (resLast m c t h0 h1 xs).2.1) = _
  rw [View.read_writes_eq_canon _ _ _ (scoverLast m c t h0 h1 xs)]
  unfold resLast runLast
  dsimp only
  sl_unfold_words
  rw [View.canon_unit_zero (S := S256x1) hz2]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, View.ld_unit_zero (S := S1x128x3) hz3, View.ld_unit_zero (S := S1x32x3) hz3, View.ld_unit_zero (S := S64x3) hz2, View.ld_unit_zero (S := S64) hz1, View.ld_unit_zero (S := S128x64) hz2, View.ld_unit_zero (S := S128) hz1, View.ld_unit_zero (S := S256x128) hz2, View.ld_unit_zero (S := S256) hz1, (Memref.isWhole_whole cc0_scratch0).read_unread, View.ld_unit_zero (S := S256x1) hz2]

/-- and the output block holds the three final layers of the raised scratch. -/
theorem o_last (c : Dev nD) (t : Fin cfg0.N) (h0 : ¬isFirst (grid0.coords t)) (h1 : isLast (grid0.coords t)) (xs : Vec F S256x1 .f32) :
    rdO (resLast m c t h0 h1 xs).1 = k0_pay3 (raise m c t xs) (iblk m c 9 t) (iblk m c 10 t) (iblk m c 11 t) (iblk m c 12 t) (iblk m c 13 t) (iblk m c 14 t) := by
  show VO.read (Elt F) (VO.writes (Elt F) VO.junk (resLast m c t h0 h1 xs).1) = _
  rw [View.read_writes_eq_canon _ _ _ (ocoverLast m c t h0 h1 xs)]
  unfold resLast runLast
  dsimp only
  sl_unfold_words
  rw [View.canon_unit_zero (S := S1x1x40) hz3, View.readCov_unit_zero (S := S256x1) _ hz2]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread, (hs11 t).read_unread, (hs12 t).read_unread, (hs13 t).read_unread, (hs14 t).read_unread, View.ld_unit_zero (S := S1x128x3) hz3, View.ld_unit_zero (S := S1x32x3) hz3, View.ld_unit_zero (S := S64x3) hz2, View.ld_unit_zero (S := S64) hz1, View.ld_unit_zero (S := S128x64) hz2, View.ld_unit_zero (S := S128) hz1, View.ld_unit_zero (S := S256x128) hz2, View.ld_unit_zero (S := S256) hz1, View.ld_unit_zero (S := S512x256) hz2, View.ld_unit_zero (S := S512) hz1, View.ld_unit_zero (S := S256x512) hz2, View.ld_unit_zero (S := S40x256) hz2, View.ld_unit_zero (S := S40) hz1, (Memref.isWhole_whole cc0_scratch0).read_unread, View.ld_unit_zero (S := S256x1) hz2]

end Cert.KernelIdeal.Hand

end
-- ==== Proof.KIAcc.lean ====
/-
  The running maximum over the four chunks of a cloud.

  Position 4a + t handles chunk t of cloud a. The scratch after it is the scratch of the position before raised by
  this chunk's maxima, starting at t = 0 from the -inf splat; at t = 3 the output block receives the three final
  layers of the scratch. Unfolding the four steps gives the output block of cloud a in closed form.
-/
import proofs.«102768_j73547019976967_2_alg».proof.Proof.KIPieces
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- The position before `t`. -/
def prev (t : Fin cfg0.N) : Fin cfg0.N := ⟨t.val - 1, Nat.lt_of_le_of_lt (Nat.sub_le _ _) t.isLt⟩

theorem prev_val (t : Fin cfg0.N) : (prev t).val = t.val - 1 := rfl

/-- After a first chunk the scratch is the -inf splat raised by that chunk. -/
theorem scratch_first (c : Dev nD) (t : Fin cfg0.N) (h0 : t.val % 4 = 0) :
    (outsAt m c t.val t.isLt).2 = raise m c t (k0_pay1 (F := F)) := by
  have h1 : ¬t.val % 4 = 3 := by omega
  exact (congrArg Prod.snd (outsAt_first m c t h0 h1)).trans (s_first m c t ((isFirst_iff t).mpr h0) (fun h => h1 ((isLast_iff t).mp h)))

/-- After a middle chunk it is the scratch of the position before, raised. -/
theorem scratch_mid (c : Dev nD) (t : Fin cfg0.N) (h0 : ¬t.val % 4 = 0) (h1 : ¬t.val % 4 = 3) :
    (outsAt m c t.val t.isLt).2 = raise m c t (outsAt m c (prev t).val (prev t).isLt).2 := by
  exact (congrArg Prod.snd (outsAt_mid m c t h0 h1)).trans (s_mid m c t (fun h => h0 ((isFirst_iff t).mp h)) (fun h => h1 ((isLast_iff t).mp h)) (outsAt m c (t.val - 1) (Nat.lt_of_le_of_lt (Nat.sub_le _ _) t.isLt)).2)

/-- After a last chunk likewise, -/
theorem scratch_last (c : Dev nD) (t : Fin cfg0.N) (h1 : t.val % 4 = 3) :
    (outsAt m c t.val t.isLt).2 = raise m c t (outsAt m c (prev t).val (prev t).isLt).2 := by
  have h0 : ¬t.val % 4 = 0 := by omega
  exact (congrArg Prod.snd (outsAt_last m c t h0 h1)).trans (s_last m c t (fun h => h0 ((isFirst_iff t).mp h)) ((isLast_iff t).mpr h1) (outsAt m c (t.val - 1) (Nat.lt_of_le_of_lt (Nat.sub_le _ _) t.isLt)).2)

/-- and the output block holds the three final layers of it. -/
theorem out_last (c : Dev nD) (t : Fin cfg0.N) (h1 : t.val % 4 = 3) :
    (outsAt m c t.val t.isLt).1
      = k0_pay3 (raise m c t (outsAt m c (prev t).val (prev t).isLt).2) (iblk m c 9 t) (iblk m c 10 t) (iblk m c 11 t) (iblk m c 12 t) (iblk m c 13 t) (iblk m c 14 t) := by
  have h0 : ¬t.val % 4 = 0 := by omega
  exact (congrArg Prod.fst (outsAt_last m c t h0 h1)).trans (o_last m c t (fun h => h0 ((isFirst_iff t).mp h)) ((isLast_iff t).mpr h1) (outsAt m c (t.val - 1) (Nat.lt_of_le_of_lt (Nat.sub_le _ _) t.isLt)).2)

/-- So after the last chunk of a cloud the output block is the three final layers of the -inf splat raised by the
    cloud's four chunks in order. -/
theorem out_cloud (c : Dev nD) (t : Fin cfg0.N) (h1 : t.val % 4 = 3) :
    (outsAt m c t.val t.isLt).1
      = k0_pay3 (raise m c t (raise m c (prev t) (raise m c (prev (prev t)) (raise m c (prev (prev (prev t))) (k0_pay1 (F := F))))))
          (iblk m c 9 t) (iblk m c 10 t) (iblk m c 11 t) (iblk m c 12 t) (iblk m c 13 t) (iblk m c 14 t) := by
  have hN : t.val < 64 := lt_of_lt_of_eq t.isLt (show cfg0.N = 64 from N_0)
  rw [out_last m c t h1,
    scratch_mid m c (prev t) (by rw [prev_val]; omega) (by rw [prev_val]; omega),
    scratch_mid m c (prev (prev t)) (by rw [prev_val, prev_val]; omega) (by rw [prev_val, prev_val]; omega),
    scratch_first m c (prev (prev (prev t))) (by rw [prev_val, prev_val, prev_val]; omega)]

end Cert.KernelIdeal.Hand

end
-- ==== Proof.PayA.lean ====
/-
  The kernel body's arithmetic read at an index, against the block-level specification: the reset value of the
  running maximum, and the three final layers applied to the pooled maxima. First the small vocabulary both use: a
  matrix product into the zero accumulator read as a sum over the contraction coordinate, and the reshapes and
  broadcasts that add, drop or fill unit axes read at coordinates.
-/
import proofs.«102768_j73547019976967_2_alg».proof.Proof.Gen.KernelIdeal.Skeleton
import proofs.«102768_j73547019976967_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PaySpec

open Cert.KernelIdeal Cert.KernelIdeal.Gen Idealize.ShloMosaic Idealize.ShloMosaic.ValueIdx

/-! ## A plain matrix product into the zero accumulator -/

/-- Rows times contraction by contraction times columns, into zero: at `(i, j)` the sum over `k` of the left operand
    at `(i, k)` times the right at `(k, j)`. -/
theorem matmul_plain_apply {φ₁ φ₂ : FTy} (M K N : Nat) (lhs : FVec Ideal ⟨2, ![M, K]⟩ φ₁) (rhs : FVec Ideal ⟨2, ![K, N]⟩ φ₂)
    (i : Fin M) (j : Fin N) :
    FloatOps.matmul (DotDims.plain M K N) none lhs rhs (constant (F := Ideal) ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-! ## Unit axes added, dropped and filled -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a]` array cast to `[a, 1, 1]` reads, at `(i, u, v)`, the operand at `i`. -/
theorem shapeCast_a_a11_apply {a : ℕ} (x : (⟨1, ![a]⟩ : Shape).Idx → α) (h : (⟨1, ![a]⟩ : Shape).ShapeCasts ⟨3, ![a, 1, 1]⟩)
    (i : Fin a) (u v : Fin 1) : shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    simp only [hu, hv, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 32, 128]` array cast to `[a, 4096]` reads, at `(i, c)`, the operand at `(i, c / 128, c % 128)`: the two
    trailing axes are laid out row-major in the one column coordinate. -/
theorem shapeCast_a32x128_a4096_apply {a : ℕ} (x : (⟨3, ![a, 32, 128]⟩ : Shape).Idx → α)
    (h : (⟨3, ![a, 32, 128]⟩ : Shape).ShapeCasts ⟨2, ![a, 4096]⟩) (i : Fin a) (c : Fin 4096) :
    shapeCast ⟨2, ![a, 4096]⟩ x h (ix2 i c)
      = x (ix3 i (⟨c.val / 128, by have := c.isLt; omega⟩ : Fin 32) (⟨c.val % 128, by omega⟩ : Fin 128)) :=
  shapeCast_apply x h _ _ (by
    have hc := c.isLt
    rw [Shape.rowMajor_val_three, Shape.rowMajor_val_two]
    show (i.val * 32 + c.val / 128) * 128 + c.val % 128 = i.val * 4096 + c.val
    omega)

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, 1]` array broadcast to `[a, b, c]` reads, at `(i, j, k)`, the operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, 1]` array broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- The f32 pattern of minus infinity is the bottom element of the extended reals. -/
theorem ofBits_neg_inf_f32 : Ideal.ofBits .f32 0xFF800000#32 = ⊥ := by simp [Ideal.ofBits, Ideal.ieee]

/-! ## The reset value -/

/-- The value the running maximum is reset to: minus infinity everywhere. -/
theorem pay1_apply (y : S256x1.Idx) : k0_pay1 (F := Ideal) y = ⊥ := by
  unfold k0_pay1
  rw [shapeCast_self]
  exact ofBits_neg_inf_f32

/-! ## The kernel's seven matrix products, each into the zero accumulator -/

/-- The f32 zero pattern, as the float operations' constant, is the extended real `0`. -/
theorem floatOps_ofBits_zero_f32 : (FloatOps.ofBits (F := Ideal) .f32 0x00000000#32) = (0 : EReal) := Ideal.ofBits_zero_f32

theorem mm_64x3_3x128 (lhs : FVec Ideal S64x3 .bf16) (rhs : FVec Ideal S3x128 .bf16) (i : Fin 64) (j : Fin 128) :
    matmul (F := Ideal) dot_S64x3_S3x128_S64x128_1_0_0_1_n_n none lhs rhs (constant (F := Ideal) S64x128 .f32 0x00000000#32) (ix2 i j)
      = ∑ k : Fin 3, lhs (ix2 i k) * rhs (ix2 k j) := matmul_plain_apply 64 3 128 lhs rhs i j
theorem mm_64x3_3x32 (lhs : FVec Ideal S64x3 .bf16) (rhs : FVec Ideal S3x32 .bf16) (i : Fin 64) (j : Fin 32) :
    matmul (F := Ideal) dot_S64x3_S3x32_S64x32_1_0_0_1_n_n none lhs rhs (constant (F := Ideal) S64x32 .f32 0x00000000#32) (ix2 i j)
      = ∑ k : Fin 3, lhs (ix2 i k) * rhs (ix2 k j) := matmul_plain_apply 64 3 32 lhs rhs i j
theorem mm_128x64_64x4096 (lhs : FVec Ideal S128x64 .bf16) (rhs : FVec Ideal S64x4096 .bf16) (i : Fin 128) (j : Fin 4096) :
    matmul (F := Ideal) dot_S128x64_S64x4096_S128x4096_1_0_0_1_n_n none lhs rhs (constant (F := Ideal) S128x4096 .f32 0x00000000#32) (ix2 i j)
      = ∑ k : Fin 64, lhs (ix2 i k) * rhs (ix2 k j) := matmul_plain_apply 128 64 4096 lhs rhs i j
theorem mm_256x128_128x4096 (lhs : FVec Ideal S256x128 .bf16) (rhs : FVec Ideal S128x4096 .bf16) (i : Fin 256) (j : Fin 4096) :
    matmul (F := Ideal) dot_S256x128_S128x4096_S256x4096_1_0_0_1_n_n none lhs rhs (constant (F := Ideal) S256x4096 .f32 0x00000000#32) (ix2 i j)
      = ∑ k : Fin 128, lhs (ix2 i k) * rhs (ix2 k j) := matmul_plain_apply 256 128 4096 lhs rhs i j
theorem mm_512x256_256x1 (lhs : FVec Ideal S512x256 .bf16) (rhs : FVec Ideal S256x1 .bf16) (i : Fin 512) (j : Fin 1) :
    matmul (F := Ideal) dot_S512x256_S256x1_S512x1_1_0_0_1_n_n none lhs rhs (constant (F := Ideal) S512x1 .f32 0x00000000#32) (ix2 i j)
      = ∑ k : Fin 256, lhs (ix2 i k) * rhs (ix2 k j) := matmul_plain_apply 512 256 1 lhs rhs i j
theorem mm_256x512_512x1 (lhs : FVec Ideal S256x512 .bf16) (rhs : FVec Ideal S512x1 .bf16) (i : Fin 256) (j : Fin 1) :
    matmul (F := Ideal) dot_S256x512_S512x1_S256x1_1_0_0_1_n_n none lhs rhs (constant (F := Ideal) S256x1 .f32 0x00000000#32) (ix2 i j)
      = ∑ k : Fin 512, lhs (ix2 i k) * rhs (ix2 k j) := matmul_plain_apply 256 512 1 lhs rhs i j
theorem mm_40x256_256x1 (lhs : FVec Ideal S40x256 .bf16) (rhs : FVec Ideal S256x1 .bf16) (i : Fin 40) (j : Fin 1) :
    matmul (F := Ideal) dot_S40x256_S256x1_S40x1_1_0_0_1_n_n none lhs rhs (constant (F := Ideal) S40x1 .f32 0x00000000#32) (ix2 i j)
      = ∑ k : Fin 256, lhs (ix2 i k) * rhs (ix2 k j) := matmul_plain_apply 40 256 1 lhs rhs i j

/-! ## The three final layers -/

/-- The head's payload at output `o`: the three final layers applied to the running maxima's one column. -/
theorem pay3_apply (s : Vec Ideal S256x1 .f32) (x9 : Vec Ideal S512x256 .f32) (x10 : Vec Ideal S512 .f32)
    (x11 : Vec Ideal S256x512 .f32) (x12 : Vec Ideal S256 .f32) (x13 : Vec Ideal S40x256 .f32) (x14 : Vec Ideal S40 .f32) (o : Fin 40) :
    k0_pay3 (F := Ideal) s x9 x10 x11 x12 x13 x14 (ix3 0 0 o)
      = Cert.Spec.headB (fun k => s (ix2 k 0)) x9 x10 x11 x12 x13 x14 o := by
  simp only [k0_pay3, shapeCast_a_11a_apply, shapeCast_a1_a_apply, shapeCast_a_a1_apply, addf_apply, maximumf_apply,
    truncf_apply, broadcast_apply, mm_40x256_256x1, mm_256x512_512x1, mm_512x256_256x1, floatOps_ofBits_zero_f32]
  rfl

end Cert.KernelIdeal.PaySpec

end
-- ==== Proof.PaySpec.lean ====
/-
  One grid point's arithmetic read at an index, against the block-level specification: the two hidden layers and the
  third layer at a column of the chunk's 32 × 128 pairs, the running maximum raised by the chunk's maximum, and a
  cloud's maximum regrouped as the maximum over its four chunks.
-/
import proofs.«102768_j73547019976967_2_alg».proof.Proof.PayA

noncomputable section

namespace Cert.KernelIdeal.PaySpec

open Cert.KernelIdeal Cert.KernelIdeal.Gen Idealize.ShloMosaic Idealize.ShloMosaic.ValueIdx

/-- The cloud's points with the leading unit axis dropped, transposed: at `(k, j)` the point `j`'s coordinate `k`. -/
theorem transpose_points_eq {α : Type} (x0 : S1x128x3.Idx → α) :
    transpose S3x128 [1, 0] (shapeCast S128x3 x0 shapeCasts_S1x128x3_S128x3) transposes_S128x3_p1_0_S3x128
      = fun q : S3x128.Idx => x0 (ix3 (0 : Fin 1) (q 1) (q 0)) := by
  funext q
  obtain ⟨k, j, rfl⟩ : ∃ (k : Fin 3) (j : Fin 128), q = ix2 k j := ⟨q 0, q 1, eq_ix2 q⟩
  exact (transpose_ix2_apply _ transposes_S128x3_p1_0_S3x128 k j).trans (shapeCast_1ab_ab_apply x0 _ j k)
/-- The chunk's points likewise. -/
theorem transpose_chunk_eq {α : Type} (x1 : S1x32x3.Idx → α) :
    transpose S3x32 [1, 0] (shapeCast S32x3 x1 shapeCasts_S1x32x3_S32x3) transposes_S32x3_p1_0_S3x32
      = fun q : S3x32.Idx => x1 (ix3 (0 : Fin 1) (q 1) (q 0)) := by
  funext q
  obtain ⟨k, j, rfl⟩ : ∃ (k : Fin 3) (j : Fin 32), q = ix2 k j := ⟨q 0, q 1, eq_ix2 q⟩
  exact (transpose_ix2_apply _ transposes_S32x3_p1_0_S3x32 k j).trans (shapeCast_1ab_ab_apply x1 _ j k)

/-! ## One chunk: the two hidden layers, the third layer, and the maximum over the chunk's pairs -/

/-- The second hidden layer's payload at channel `o` and column `c`: the column is the pair (chunk point `c / 128`,
    cloud point `c % 128`). -/
theorem pay4_apply (x0 : Vec Ideal S1x128x3 .f32) (x1 : Vec Ideal S1x32x3 .f32) (x2 x3 : Vec Ideal S64x3 .f32)
    (x4 : Vec Ideal S64 .f32) (x5 : Vec Ideal S128x64 .f32) (x6 : Vec Ideal S128 .f32) (o : Fin 128) (c : Fin 4096) :
    k0_pay4 (F := Ideal) x0 x1 x2 x3 x4 x5 x6 (ix2 o c)
      = Cert.Spec.h2B x0 x1 x2 x3 x4 x5 x6 (⟨c.val / 128, by have := c.isLt; omega⟩ : Fin 32)
          (⟨c.val % 128, Nat.mod_lt _ (by decide)⟩ : Fin 128) o := by
  simp only [k0_pay4]
  rw [transpose_points_eq, transpose_chunk_eq]
  simp only [truncf_apply, maximumf_apply, addf_apply, broadcast_apply, broadcastTo_a1_ab_apply, shapeCast_a_a1_apply,
    mm_128x64_64x4096, shapeCast_a32x128_a4096_apply, broadcastTo_a11_abc_apply, shapeCast_a_a11_apply,
    broadcastTo_a1c_abc_apply, broadcastTo_ab1_abc_apply, shapeCast_ab_a1b_apply, shapeCast_ab_ab1_apply, mm_64x3_3x128,
    mm_64x3_3x32, shapeCast_self, floatOps_ofBits_zero_f32]
  rfl

/-- The third layer's values before the chunk maximum, at channel `r` and column `c`. -/
theorem pay2_pre_apply (x0 : Vec Ideal S1x128x3 .f32) (x1 : Vec Ideal S1x32x3 .f32) (x2 x3 : Vec Ideal S64x3 .f32)
    (x4 : Vec Ideal S64 .f32) (x5 : Vec Ideal S128x64 .f32) (x6 : Vec Ideal S128 .f32) (x7 : Vec Ideal S256x128 .f32)
    (x8 : Vec Ideal S256 .f32) (r : Fin 256) (c : Fin 4096) :
    addf (F := Ideal) (matmul (F := Ideal) dot_S256x128_S128x4096_S256x4096_1_0_0_1_n_n none (truncf .bf16 x7 bitsLt_bf16_f32)
        (k0_pay4 (F := Ideal) x0 x1 x2 x3 x4 x5 x6) (constant (F := Ideal) S256x4096 .f32 0x00000000#32))
      (broadcastTo S256x4096 (shapeCast S256x1 x8 shapeCasts_S256_S256x1) broadcasts_S256x1_S256x4096) (ix2 r c)
      = Cert.Spec.gB x0 x1 x2 x3 x4 x5 x6 x7 x8 (⟨c.val / 128, by have := c.isLt; omega⟩ : Fin 32)
          (⟨c.val % 128, Nat.mod_lt _ (by decide)⟩ : Fin 128) r := by
  simp only [addf_apply, mm_256x128_128x4096, truncf_apply, pay4_apply, broadcastTo_a1_ab_apply, shapeCast_a_a1_apply]
  rfl

/-- The same at an index given with its coordinates. -/
theorem pay2_pre_apply_of_eq (x0 : Vec Ideal S1x128x3 .f32) (x1 : Vec Ideal S1x32x3 .f32) (x2 x3 : Vec Ideal S64x3 .f32)
    (x4 : Vec Ideal S64 .f32) (x5 : Vec Ideal S128x64 .f32) (x6 : Vec Ideal S128 .f32) (x7 : Vec Ideal S256x128 .f32)
    (x8 : Vec Ideal S256 .f32) (r : Fin 256) (c : Fin 4096) (q : S256x4096.Idx) (hq : q = ix2 r c) :
    addf (F := Ideal) (matmul (F := Ideal) dot_S256x128_S128x4096_S256x4096_1_0_0_1_n_n none (truncf .bf16 x7 bitsLt_bf16_f32)
        (k0_pay4 (F := Ideal) x0 x1 x2 x3 x4 x5 x6) (constant (F := Ideal) S256x4096 .f32 0x00000000#32))
      (broadcastTo S256x4096 (shapeCast S256x1 x8 shapeCasts_S256_S256x1) broadcasts_S256x1_S256x4096) q
      = Cert.Spec.gB x0 x1 x2 x3 x4 x5 x6 x7 x8 (⟨c.val / 128, by have := c.isLt; omega⟩ : Fin 32)
          (⟨c.val % 128, Nat.mod_lt _ (by decide)⟩ : Fin 128) r := by
  subst hq
  exact pay2_pre_apply x0 x1 x2 x3 x4 x5 x6 x7 x8 r c

/-- The 4096 columns are the 32 × 128 pairs, row-major. -/
def chunkEquiv : Fin 32 × Fin 128 ≃ Fin 4096 where
  toFun p := ⟨p.1.val * 128 + p.2.val, by have := p.1.isLt; have := p.2.isLt; omega⟩
  invFun c := (⟨c.val / 128, by have := c.isLt; omega⟩, ⟨c.val % 128, Nat.mod_lt _ (by decide)⟩)
  left_inv p := by
    have h1 := p.1.isLt; have h2 := p.2.isLt
    refine Prod.ext (Fin.ext ?_) (Fin.ext ?_)
    · show (p.1.val * 128 + p.2.val) / 128 = p.1.val
      omega
    · show (p.1.val * 128 + p.2.val) % 128 = p.2.val
      omega
  right_inv c := Fin.ext (by
    show c.val / 128 * 128 + c.val % 128 = c.val
    omega)

/-- The running maximum from minus infinity over the 4096 columns is the supremum over the 32 × 128 pairs. -/
theorem fold_max_chunk (G : Fin 32 → Fin 128 → EReal) :
    (Finset.univ : Finset (Fin 4096)).fold max ⊥
        (fun c => G (⟨c.val / 128, by have := c.isLt; omega⟩ : Fin 32) (⟨c.val % 128, Nat.mod_lt _ (by decide)⟩ : Fin 128))
      = Finset.univ.sup fun p : Fin 32 × Fin 128 => G p.1 p.2 := by
  have h1 : (Finset.univ : Finset (Fin 4096)).fold max ⊥
        (fun c => G (⟨c.val / 128, by have := c.isLt; omega⟩ : Fin 32) (⟨c.val % 128, Nat.mod_lt _ (by decide)⟩ : Fin 128))
      = Finset.univ.sup (fun c : Fin 4096 => G (chunkEquiv.symm c).1 (chunkEquiv.symm c).2) := rfl
  rw [h1, Finset.sup_univ_eq_iSup, Finset.sup_univ_eq_iSup]
  exact chunkEquiv.symm.iSup_comp (g := fun p : Fin 32 × Fin 128 => G p.1 p.2)

/-- A running maximum whose start is minus infinity and whose terms are given pointwise. -/
theorem fold_max_of_apply {n : Nat} (b : EReal) (f g : Fin n → EReal) (hb : b = ⊥) (h : ∀ c, f c = g c) :
    (Finset.univ : Finset (Fin n)).fold max b f = (Finset.univ : Finset (Fin n)).fold max ⊥ g := by
  subst hb
  exact Finset.fold_congr fun c _ => h c

/-- The inserted column coordinate of the lane maximum's source index. -/
theorem lift_row_col (r : Fin 256) (c : Fin 4096) : reduces_S256x4096_S256.lift (ix1 r) c = ix2 r c :=
  funext fun a => Fin.ext (by
    match a with
    | ⟨0, _⟩ => rfl
    | ⟨1, _⟩ => rfl)

/-- The chunk's payload at channel `r`: the running maximum raised by the chunk's maximum of that channel. -/
theorem pay2_apply (x0 : Vec Ideal S1x128x3 .f32) (x1 : Vec Ideal S1x32x3 .f32) (x2 x3 : Vec Ideal S64x3 .f32)
    (x4 : Vec Ideal S64 .f32) (x5 : Vec Ideal S128x64 .f32) (x6 : Vec Ideal S128 .f32) (x7 : Vec Ideal S256x128 .f32)
    (x8 : Vec Ideal S256 .f32) (s : Vec Ideal S256x1 .f32) (r : Fin 256) :
    k0_pay2 (F := Ideal) (k0_pay4 (F := Ideal) x0 x1 x2 x3 x4 x5 x6) x7 x8 s (ix2 r 0)
      = max (s (ix2 r 0)) (Cert.Spec.chunkMax x0 x1 x2 x3 x4 x5 x6 x7 x8 r) := by
  simp only [k0_pay2, shapeCast_self, maximumf_apply, shapeCast_a_a1_apply]
  refine congrArg (max (s (ix2 r 0))) ?_
  refine (Ideal.multiReduction_maximumf_single _ _ reduces_S256x4096_S256 _ _ (ix1 r)).trans ?_
  refine (fold_max_of_apply (n := 4096) _ _
    (fun c : Fin 4096 => Cert.Spec.gB x0 x1 x2 x3 x4 x5 x6 x7 x8 (⟨c.val / 128, by have := c.isLt; omega⟩ : Fin 32)
      (⟨c.val % 128, Nat.mod_lt _ (by decide)⟩ : Fin 128) r) ofBits_neg_inf_f32 (fun c => ?_)).trans
    (fold_max_chunk fun ti j => Cert.Spec.gB x0 x1 x2 x3 x4 x5 x6 x7 x8 ti j r)
  exact pay2_pre_apply_of_eq x0 x1 x2 x3 x4 x5 x6 x7 x8 r c _ (lift_row_col r c)

/-! ## A cloud's maximum from its four chunks -/

/-- The 128 "i" points of a cloud are 4 chunks of 32. -/
def pointEquiv : Fin 4 × Fin 32 ≃ Fin 128 where
  toFun p := ⟨32 * p.1.val + p.2.val, by have := p.1.isLt; have := p.2.isLt; omega⟩
  invFun i := (⟨i.val / 32, by have := i.isLt; omega⟩, ⟨i.val % 32, Nat.mod_lt _ (by decide)⟩)
  left_inv p := by
    have h1 := p.1.isLt; have h2 := p.2.isLt
    refine Prod.ext (Fin.ext ?_) (Fin.ext ?_)
    · show (32 * p.1.val + p.2.val) / 32 = p.1.val
      omega
    · show (32 * p.1.val + p.2.val) % 32 = p.2.val
      omega
  right_inv i := Fin.ext (by
    show 32 * (i.val / 32) + i.val % 32 = i.val
    omega)

/-- A cloud's maximum of channel `o` over all its pairs is the maximum over its four chunks of the chunk maxima, each
    chunk seeing all 128 points of the cloud as the "j" points and its own 32 as the "i" points. -/
theorem pool_chunks (X : Cert.Spec.Arr 3 ![4, 512, 3]) (W1 : Cert.Spec.Arr 2 ![64, 6]) (b1 : Cert.Spec.Arr 1 ![64])
    (W2 : Cert.Spec.Arr 2 ![128, 64]) (b2 : Cert.Spec.Arr 1 ![128]) (W3 : Cert.Spec.Arr 2 ![256, 128])
    (b3 : Cert.Spec.Arr 1 ![256]) (a : Fin 16) (o : Fin 256) :
    Cert.Spec.pool X W1 b1 W2 b2 W3 b3 a o
      = Finset.univ.sup fun t : Fin 4 =>
          Cert.Spec.chunkMax (fun q => Cert.Spec.pt X a (q 1) (q 2))
            (fun q => Cert.Spec.pt X a
              (⟨32 * t.val + (q 1).val, by have h : (q 1).val < 32 := (q 1).isLt; have := t.isLt; omega⟩ : Fin 128) (q 2))
            (Cert.Spec.W1j W1) (Cert.Spec.W1i W1) b1 W2 b2 W3 b3 o := by
  unfold Cert.Spec.pool Cert.Spec.chunkMax
  simp only [Finset.sup_univ_eq_iSup]
  rw [iSup_prod, ← pointEquiv.iSup_comp, iSup_prod]
  refine iSup_congr fun t => ?_
  rw [iSup_prod]
  rfl

end Cert.KernelIdeal.PaySpec

end
-- ==== Proof.OutSpec.lean ====
/-
  The output block of a cloud: after the last of a cloud's four chunks the kernel's output block holds, at output `o`,
  the specification's 40 outputs of that cloud. The running maximum after the four chunks is the cloud's maximum over
  all pairs (a maximum over four chunk maxima), and the three final layers of it are the cloud's outputs.
-/
import proofs.«102768_j73547019976967_2_alg».proof.Proof.KIAcc
import proofs.«102768_j73547019976967_2_alg».proof.Proof.PaySpec
import proofs.«102768_j73547019976967_2_alg».proof.Proof.BlkSpec

set_option maxRecDepth 16384

noncomputable section

namespace Cert.KernelIdeal.OutSpec

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

set_option quotPrecheck false

local notation "A0" => (m ((c : Thread nD τ).loc main_arg0) : S4x512x3.Idx → EReal)
local notation "A1" => (m ((c : Thread nD τ).loc main_arg1) : S64x6.Idx → EReal)
local notation "A2" => (m ((c : Thread nD τ).loc main_arg2) : S64.Idx → EReal)
local notation "A3" => (m ((c : Thread nD τ).loc main_arg3) : S128x64.Idx → EReal)
local notation "A4" => (m ((c : Thread nD τ).loc main_arg4) : S128.Idx → EReal)
local notation "A5" => (m ((c : Thread nD τ).loc main_arg5) : S256x128.Idx → EReal)
local notation "A6" => (m ((c : Thread nD τ).loc main_arg6) : S256.Idx → EReal)
local notation "A7" => (m ((c : Thread nD τ).loc main_arg7) : S512x256.Idx → EReal)
local notation "A8" => (m ((c : Thread nD τ).loc main_arg8) : S512.Idx → EReal)
local notation "A9" => (m ((c : Thread nD τ).loc main_arg9) : S256x512.Idx → EReal)
local notation "A10" => (m ((c : Thread nD τ).loc main_arg10) : S256.Idx → EReal)
local notation "A11" => (m ((c : Thread nD τ).loc main_arg11) : S40x256.Idx → EReal)
local notation "A12" => (m ((c : Thread nD τ).loc main_arg12) : S40.Idx → EReal)

/-- A maximum over four terms, written out from the least element. -/
theorem sup_fin4 (f : Fin 4 → EReal) :
    Finset.univ.sup f = max (max (max (max ⊥ (f 0)) (f 1)) (f 2)) (f 3) := by
  apply le_antisymm
  · refine Finset.sup_le fun i _ => ?_
    match i with
    | ⟨0, _⟩ => exact le_max_of_le_left (le_max_of_le_left (le_max_of_le_left (le_max_right _ _)))
    | ⟨1, _⟩ => exact le_max_of_le_left (le_max_of_le_left (le_max_right _ _))
    | ⟨2, _⟩ => exact le_max_of_le_left (le_max_right _ _)
    | ⟨3, _⟩ => exact le_max_right _ _
  · exact max_le (max_le (max_le (max_le bot_le (Finset.le_sup (Finset.mem_univ 0))) (Finset.le_sup (Finset.mem_univ 1)))
      (Finset.le_sup (Finset.mem_univ 2))) (Finset.le_sup (Finset.mem_univ 3))

/-- The chunk maximum of the blocks at position `u`, which handles chunk `tt` of cloud `a`, in terms of the argument arrays. -/
theorem chunk_at (u : Fin cfg0.N) (a : Fin 16) (tt : Fin 4) (ha : u.val / 4 = a.val) (ht : u.val % 4 = tt.val) (r : Fin 256) :
    Cert.Spec.chunkMax (iblk m c 0 u : Vec Ideal S1x128x3 .f32) (iblk m c 1 u : Vec Ideal S1x32x3 .f32)
        (iblk m c 2 u : Vec Ideal S64x3 .f32) (iblk m c 3 u : Vec Ideal S64x3 .f32) (iblk m c 4 u : Vec Ideal S64 .f32)
        (iblk m c 5 u : Vec Ideal S128x64 .f32) (iblk m c 6 u : Vec Ideal S128 .f32) (iblk m c 7 u : Vec Ideal S256x128 .f32)
        (iblk m c 8 u : Vec Ideal S256 .f32) r
      = Cert.Spec.chunkMax (fun q => Cert.Spec.pt A0 a (q 1) (q 2))
          (fun q => Cert.Spec.pt A0 a
            (⟨32 * tt.val + (q 1).val, by have h : (q 1).val < 32 := (q 1).isLt; have := tt.isLt; omega⟩ : Fin 128) (q 2))
          (Cert.Spec.W1j A1) (Cert.Spec.W1i A1) A2 A3 A4 A5 A6 r := by
  obtain rfl : a = (⟨u.val / 4, BlkSpec.cloud_lt u⟩ : Fin 16) := Fin.ext ha.symm
  have e : (fun q : S1x32x3.Idx => Cert.Spec.pt A0 (⟨u.val / 4, BlkSpec.cloud_lt u⟩ : Fin 16)
        (⟨32 * (u.val % 4) + (q 1).val, by have h : (q 1).val < 32 := (q 1).isLt; omega⟩ : Fin 128) (q 2))
      = (fun q : S1x32x3.Idx => Cert.Spec.pt A0 (⟨u.val / 4, BlkSpec.cloud_lt u⟩ : Fin 16)
        (⟨32 * tt.val + (q 1).val, by have h : (q 1).val < 32 := (q 1).isLt; have := tt.isLt; omega⟩ : Fin 128) (q 2)) :=
    funext fun q => congrArg (fun i : Fin 128 => Cert.Spec.pt A0 (⟨u.val / 4, BlkSpec.cloud_lt u⟩ : Fin 16) i (q 2))
      (Fin.ext (show 32 * (u.val % 4) + (q 1).val = 32 * tt.val + (q 1).val by rw [ht]))
  have h1 := (BlkSpec.blk1 m c u).trans e
  rw [BlkSpec.blk0 m c u, h1, BlkSpec.blk2 m c u, BlkSpec.blk3 m c u, BlkSpec.blk4 m c u, BlkSpec.blk5 m c u,
    BlkSpec.blk6 m c u, BlkSpec.blk7 m c u, BlkSpec.blk8 m c u]
  rfl

/-- After the last chunk of cloud `t / 4` the output block holds the cloud's 40 outputs. -/
theorem out_val (t : Fin cfg0.N) (h3 : t.val % 4 = 3) (o : Fin 40) :
    ((outsAt m c t.val t.isLt).1 : S1x1x40.Idx → EReal) (ix3 0 0 o)
      = Cert.Spec.cloudOut A0 A1 A2 A3 A4 A5 A6 A7 A8 A9 A10 A11 A12 (⟨t.val / 4, BlkSpec.cloud_lt t⟩ : Fin 16) o := by
  have hN : t.val < 64 := lt_of_lt_of_eq t.isLt (show cfg0.N = 64 from N_0)
  rw [out_cloud m c t h3, PaySpec.pay3_apply, BlkSpec.blk9 m c t, BlkSpec.blk10 m c t, BlkSpec.blk11 m c t, BlkSpec.blk12 m c t,
    BlkSpec.blk13 m c t, BlkSpec.blk14 m c t]
  unfold Cert.Spec.cloudOut
  refine congrArg (fun p : Fin 256 → EReal => Cert.Spec.headB p A7 A8 A9 A10 A11 A12 o) (funext fun k => ?_)
  unfold raise
  rw [PaySpec.pool_chunks, sup_fin4, PaySpec.pay2_apply, PaySpec.pay2_apply, PaySpec.pay2_apply, PaySpec.pay2_apply, PaySpec.pay1_apply]
  rw [chunk_at m c t (⟨t.val / 4, BlkSpec.cloud_lt t⟩ : Fin 16) (3 : Fin 4) rfl h3 k,
    chunk_at m c (prev t) (⟨t.val / 4, BlkSpec.cloud_lt t⟩ : Fin 16) (2 : Fin 4)
      (by show (t.val - 1) / 4 = t.val / 4; omega) (by show (t.val - 1) % 4 = 2; omega) k,
    chunk_at m c (prev (prev t)) (⟨t.val / 4, BlkSpec.cloud_lt t⟩ : Fin 16) (1 : Fin 4)
      (by show (t.val - 1 - 1) / 4 = t.val / 4; omega) (by show (t.val - 1 - 1) % 4 = 1; omega) k,
    chunk_at m c (prev (prev (prev t))) (⟨t.val / 4, BlkSpec.cloud_lt t⟩ : Fin 16) (0 : Fin 4)
      (by show (t.val - 1 - 1 - 1) / 4 = t.val / 4; omega) (by show (t.val - 1 - 1 - 1) % 4 = 0; omega) k]

end Cert.KernelIdeal.OutSpec

end
-- ==== Proof.KIResult.lean ====
/-
  The idealized kernel's result is the specification.

  The array of outputs after the region holds, at cloud a and output o, the three final layers of the cloud's pooled
  maxima; the host lines after the region regroup the 16 clouds as 4 batches of 4 and take the maximum over the four
  clouds of a batch: the specification's result of the thirteen argument arrays.
-/
import proofs.«102768_j73547019976967_2_alg».proof.Proof.KIKept
import proofs.«102768_j73547019976967_2_alg».proof.Proof.TailSpec
import proofs.«102768_j73547019976967_2_alg».proof.Proof.ArrSpec
import proofs.«102768_j73547019976967_2_alg».proof.Proof.OutSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The array of outputs when the region is left: cloud `a`'s 40 outputs in row `a`. -/
theorem out_array (c : Dev nD) :
    (Wv m c (Proc.devRef .tc main_v4) : S16x1x40.Idx → EReal)
      = fun i => Cert.Spec.cloudOut (m ((c : Thread nD τ).loc main_arg0) : S4x512x3.Idx → EReal) (m ((c : Thread nD τ).loc main_arg1) : S64x6.Idx → EReal) (m ((c : Thread nD τ).loc main_arg2) : S64.Idx → EReal) (m ((c : Thread nD τ).loc main_arg3) : S128x64.Idx → EReal) (m ((c : Thread nD τ).loc main_arg4) : S128.Idx → EReal) (m ((c : Thread nD τ).loc main_arg5) : S256x128.Idx → EReal) (m ((c : Thread nD τ).loc main_arg6) : S256.Idx → EReal) (m ((c : Thread nD τ).loc main_arg7) : S512x256.Idx → EReal) (m ((c : Thread nD τ).loc main_arg8) : S512.Idx → EReal) (m ((c : Thread nD τ).loc main_arg9) : S256x512.Idx → EReal) (m ((c : Thread nD τ).loc main_arg10) : S256.Idx → EReal) (m ((c : Thread nD τ).loc main_arg11) : S40x256.Idx → EReal) (m ((c : Thread nD τ).loc main_arg12) : S40.Idx → EReal) (i 0) (i 2) := by
  have h := Cert.KernelIdeal.ArrSpec.final_out m c
    (fun a o => Cert.Spec.cloudOut (m ((c : Thread nD τ).loc main_arg0) : S4x512x3.Idx → EReal) (m ((c : Thread nD τ).loc main_arg1) : S64x6.Idx → EReal) (m ((c : Thread nD τ).loc main_arg2) : S64.Idx → EReal) (m ((c : Thread nD τ).loc main_arg3) : S128x64.Idx → EReal) (m ((c : Thread nD τ).loc main_arg4) : S128.Idx → EReal) (m ((c : Thread nD τ).loc main_arg5) : S256x128.Idx → EReal) (m ((c : Thread nD τ).loc main_arg6) : S256.Idx → EReal) (m ((c : Thread nD τ).loc main_arg7) : S512x256.Idx → EReal) (m ((c : Thread nD τ).loc main_arg8) : S512.Idx → EReal) (m ((c : Thread nD τ).loc main_arg9) : S256x512.Idx → EReal) (m ((c : Thread nD τ).loc main_arg10) : S256.Idx → EReal) (m ((c : Thread nD τ).loc main_arg11) : S40x256.Idx → EReal) (m ((c : Thread nD τ).loc main_arg12) : S40.Idx → EReal) a o)
    (fun t h3 o => Cert.KernelIdeal.OutSpec.out_val m c t h3 o)
  exact (Function.update_self (Proc.devRef (τ := τ) .tc main_v4) ((dats m 0 c).arrAt 15 cfg0.N) (V0 m c)).trans h

/-- The result buffer after the host lines: the specification's result. -/
theorem result_spec (c : Dev nD) :
    (Wend m c (Proc.devRef .tc main_v6) : S4x40.Idx → EReal)
      = Cert.Spec.result (m ((c : Thread nD τ).loc main_arg0) : S4x512x3.Idx → EReal) (m ((c : Thread nD τ).loc main_arg1) : S64x6.Idx → EReal) (m ((c : Thread nD τ).loc main_arg2) : S64.Idx → EReal) (m ((c : Thread nD τ).loc main_arg3) : S128x64.Idx → EReal) (m ((c : Thread nD τ).loc main_arg4) : S128.Idx → EReal) (m ((c : Thread nD τ).loc main_arg5) : S256x128.Idx → EReal) (m ((c : Thread nD τ).loc main_arg6) : S256.Idx → EReal) (m ((c : Thread nD τ).loc main_arg7) : S512x256.Idx → EReal) (m ((c : Thread nD τ).loc main_arg8) : S512.Idx → EReal) (m ((c : Thread nD τ).loc main_arg9) : S256x512.Idx → EReal) (m ((c : Thread nD τ).loc main_arg10) : S256.Idx → EReal) (m ((c : Thread nD τ).loc main_arg11) : S40x256.Idx → EReal) (m ((c : Thread nD τ).loc main_arg12) : S40.Idx → EReal) := by
  funext q
  obtain ⟨b, o, rfl⟩ : ∃ (b : Fin 4) (o : Fin 40), q = ix2 b o := ⟨q 0, q 1, eq_ix2 q⟩
  refine (Cert.KernelIdeal.TailSpec.tail_value (Wv m c) b o).trans ?_
  rw [out_array m c]
  rfl

end Cert.KernelIdeal.Hand

end
-- ==== Proof.RefA.lean ====
/-
  The reference program's stages, read at explicit coordinates, are the specification's functions.
  First part: the pair features, and the first layer with its max(·, 0).
-/
import proofs.«102768_j73547019976967_2_alg».proof.Proof.Gen.ReferenceIdeal.Read
import proofs.«102768_j73547019976967_2_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Read Idealize.ShloMosaic Idealize.ShloMosaic.ValueIdx

/-- Cloud number of batch `b`, part `d`. -/
abbrev cl (b d : Fin 4) : Fin 16 := ⟨b.val * 4 + d.val, by omega⟩

/-- The reshaped point array at (b, d, i, k) is coordinate `k` of point `i` of cloud `4 b + d`. -/
theorem v0_eq (x0 : (⟨S4x512x3, .f32⟩ : BufTy).Contents (Elt Ideal)) (b d : Fin 4) (i : Fin 128) (k : Fin 3) :
    val_main_v0 (F := Ideal) x0 (ix4 b d i k) = Cert.Spec.pt x0 (cl b d) i k := by
  rw [val_main_v0_apply]
  unfold Cert.Spec.pt
  refine congrArg x0 (funext fun a => Fin.ext ?_)
  match a with
  | ⟨0, _⟩ => show (((b.val * 4 + d.val) * 128 + i.val) * 3 + k.val) / 1536 = (b.val * 4 + d.val) / 4; omega
  | ⟨1, _⟩ => show (((b.val * 4 + d.val) * 128 + i.val) * 3 + k.val) / 3 % 512 = (b.val * 4 + d.val) % 4 * 128 + i.val; omega
  | ⟨2, _⟩ => show (((b.val * 4 + d.val) * 128 + i.val) * 3 + k.val) % 3 = k.val; omega

/-- Pair features, first three coordinates: point `j`. -/
theorem v5_lo (x0 : (⟨S4x512x3, .f32⟩ : BufTy).Contents (Elt Ideal)) (b d : Fin 4) (i j : Fin 128) (k : Fin 3) :
    val_main_v5 (F := Ideal) x0 (ix5 b d i j (Fin.castAdd 3 k)) = Cert.Spec.pt x0 (cl b d) j k := by
  unfold val_main_v5
  rw [concatenate_pair_apply_left (t := S4x4x128x128x6) (s₁ := S4x4x128x128x3) (s₂ := S4x4x128x128x3) 4 _ _ _ _ rfl
    (ix5 b d i j k) (fun c => by
    match c with
    | ⟨0, _⟩ => rfl
    | ⟨1, _⟩ => rfl
    | ⟨2, _⟩ => rfl
    | ⟨3, _⟩ => rfl
    | ⟨4, _⟩ => rfl)]
  rw [val_main_v2_apply, val_main_v1_apply]
  have e : idx_main_v1 (idx_main_v2 (ix5 b d i j k)) = ix4 b d j k := funext fun a => Fin.ext (by
    match a with
    | ⟨0, _⟩ => rfl
    | ⟨1, _⟩ => rfl
    | ⟨2, _⟩ => rfl
    | ⟨3, _⟩ => rfl)
  rw [e, v0_eq]

/-- Pair features, last three coordinates: point `i`. -/
theorem v5_hi (x0 : (⟨S4x512x3, .f32⟩ : BufTy).Contents (Elt Ideal)) (b d : Fin 4) (i j : Fin 128) (k : Fin 3) :
    val_main_v5 (F := Ideal) x0 (ix5 b d i j (Fin.natAdd 3 k)) = Cert.Spec.pt x0 (cl b d) i k := by
  unfold val_main_v5
  rw [concatenate_pair_apply_right (t := S4x4x128x128x6) (s₁ := S4x4x128x128x3) (s₂ := S4x4x128x128x3) 4 _ _ _ _ rfl rfl
    (ix5 b d i j k) (fun c hc => by
    match c with
    | ⟨0, _⟩ => rfl
    | ⟨1, _⟩ => rfl
    | ⟨2, _⟩ => rfl
    | ⟨3, _⟩ => rfl
    | ⟨4, _⟩ => exact absurd rfl hc) (by show k.val + 3 = 3 + k.val; omega)]
  rw [val_main_v4_apply, val_main_v3_apply]
  have e : idx_main_v3 (idx_main_v4 (ix5 b d i j k)) = ix4 b d i k := funext fun a => Fin.ext (by
    match a with
    | ⟨0, _⟩ => rfl
    | ⟨1, _⟩ => rfl
    | ⟨2, _⟩ => rfl
    | ⟨3, _⟩ => rfl)
  rw [e, v0_eq]

theorem W1j_eq (x1 : (⟨S64x6, .f32⟩ : BufTy).Contents (Elt Ideal)) (o : Fin 64) (k : Fin 3) :
    Cert.Spec.W1j x1 (ix2 o k) = x1 (ix2 o (Fin.castAdd 3 k)) := rfl

theorem W1i_eq (x1 : (⟨S64x6, .f32⟩ : BufTy).Contents (Elt Ideal)) (o : Fin 64) (k : Fin 3) :
    Cert.Spec.W1i x1 (ix2 o k) = x1 (ix2 o (Fin.natAdd 3 k)) := rfl

/-- The first layer with its max(·, 0): the six-term contraction splits into the three coordinates of point `j` and the
    three of point `i`, and each product commutes. -/
theorem v10_eq (x0 : (⟨S4x512x3, .f32⟩ : BufTy).Contents (Elt Ideal)) (x1 : (⟨S64x6, .f32⟩ : BufTy).Contents (Elt Ideal))
    (x2 : (⟨S64, .f32⟩ : BufTy).Contents (Elt Ideal)) (b d : Fin 4) (i j : Fin 128) (o : Fin 64) :
    val_main_v10 (F := Ideal) x0 x1 x2 (ix5 b d i j o) = Cert.Spec.h1 x0 x1 x2 (cl b d) i j o := by
  rw [val_main_v10_apply, val_main_v9_apply, val_main_v6_apply, val_main_v8_apply, val_main_v7_apply,
    val_main_call0_v0_apply, val_main_call0_cst_apply]
  have el : ∀ k : Fin 6, lidx_main_v6 (ix5 b d i j o) k = ix5 b d i j k := fun k => funext fun a => Fin.ext (by
    match a with
    | ⟨0, _⟩ => rfl
    | ⟨1, _⟩ => rfl
    | ⟨2, _⟩ => rfl
    | ⟨3, _⟩ => rfl
    | ⟨4, _⟩ => rfl)
  have er : ∀ k : Fin 6, ridx_main_v6 (ix5 b d i j o) k = ix2 o k := fun k => funext fun a => Fin.ext (by
    match a with
    | ⟨0, _⟩ => rfl
    | ⟨1, _⟩ => rfl)
  have eb : idx_main_v7 (idx_main_v8 (ix5 b d i j o)) = ix1 o := funext fun a => Fin.ext (by
    match a with
    | ⟨0, _⟩ => rfl)
  simp only [el, er, eb, Ideal.maximumf_def, Ideal.addf_def, Ideal.ofBits_def, Ideal.ofBits_zero_f32]
  unfold Cert.Spec.h1 Cert.Spec.pre1
  have hs := Fin.sum_univ_add (a := 3) (b := 3) (fun k : Fin (3 + 3) => val_main_v5 (F := Ideal) x0 (ix5 b d i j k) * x1 (ix2 o k))
  refine congrArg (fun t => max (t + x2 (ix1 o)) 0) (hs.trans ?_)
  simp only [v5_lo, v5_hi, W1j_eq, W1i_eq]
  congr 1 <;> exact Finset.sum_congr rfl fun k _ => mul_comm _ _

end Cert.ReferenceIdeal.RefSpec

end
-- ==== Proof.RefB.lean ====
/-
  The reference program's stages, read at explicit coordinates, are the specification's functions.
  Second part: the second and third layers, and the maximum over all pairs of a cloud.
-/
import proofs.«102768_j73547019976967_2_alg».proof.Proof.RefA
import Idealize.ShloMosaic.PureOps.Reduce

noncomputable section

namespace Cert.ReferenceIdeal.RefSpec

open Cert.ReferenceIdeal Cert.ReferenceIdeal.Read Idealize.ShloMosaic Idealize.ShloMosaic.ValueIdx

variable (x0 : (⟨S4x512x3, .f32⟩ : BufTy).Contents (Elt Ideal)) (x1 : (⟨S64x6, .f32⟩ : BufTy).Contents (Elt Ideal))
  (x2 : (⟨S64, .f32⟩ : BufTy).Contents (Elt Ideal)) (x3 : (⟨S128x64, .f32⟩ : BufTy).Contents (Elt Ideal))
  (x4 : (⟨S128, .f32⟩ : BufTy).Contents (Elt Ideal)) (x5 : (⟨S256x128, .f32⟩ : BufTy).Contents (Elt Ideal))
  (x6 : (⟨S256, .f32⟩ : BufTy).Contents (Elt Ideal))

/-- The second layer with its max(·, 0). -/
theorem v15_eq (b d : Fin 4) (i j : Fin 128) (o : Fin 128) :
    val_main_v15 (F := Ideal) x0 x1 x2 x3 x4 (ix5 b d i j o) = Cert.Spec.h2 x0 x1 x2 x3 x4 (cl b d) i j o := by
  rw [val_main_v15_apply, val_main_v14_apply, val_main_v11_apply, val_main_v13_apply, val_main_v12_apply,
    val_main_call1_v0_apply, val_main_call1_cst_apply]
  have el : ∀ k : Fin 64, lidx_main_v11 (ix5 b d i j o) k = ix5 b d i j k := fun k => funext fun a => Fin.ext (by
    match a with
    | ⟨0, _⟩ => rfl
    | ⟨1, _⟩ => rfl
    | ⟨2, _⟩ => rfl
    | ⟨3, _⟩ => rfl
    | ⟨4, _⟩ => rfl)
  have er : ∀ k : Fin 64, ridx_main_v11 (ix5 b d i j o) k = ix2 o k := fun k => funext fun a => Fin.ext (by
    match a with
    | ⟨0, _⟩ => rfl
    | ⟨1, _⟩ => rfl)
  have eb : idx_main_v12 (idx_main_v13 (ix5 b d i j o)) = ix1 o := funext fun a => Fin.ext (by
    match a with
    | ⟨0, _⟩ => rfl)
  simp only [el, er, eb, v10_eq, Ideal.maximumf_def, Ideal.addf_def, Ideal.ofBits_def, Ideal.ofBits_zero_f32]
  unfold Cert.Spec.h2
  exact congrArg (fun t => max (t + x4 (ix1 o)) 0) (Finset.sum_congr rfl fun k _ => mul_comm _ _)

/-- The third layer. -/
theorem v19_eq (b d : Fin 4) (i j : Fin 128) (o : Fin 256) :
    val_main_v19 (F := Ideal) x0 x1 x2 x3 x4 x5 x6 (ix5 b d i j o) = Cert.Spec.g x0 x1 x2 x3 x4 x5 x6 (cl b d) i j o := by
  rw [val_main_v19_apply, val_main_v16_apply, val_main_v18_apply, val_main_v17_apply]
  have el : ∀ k : Fin 128, lidx_main_v16 (ix5 b d i j o) k = ix5 b d i j k := fun k => funext fun a => Fin.ext (by
    match a with
    | ⟨0, _⟩ => rfl
    | ⟨1, _⟩ => rfl
    | ⟨2, _⟩ => rfl
    | ⟨3, _⟩ => rfl
    | ⟨4, _⟩ => rfl)
  have er : ∀ k : Fin 128, ridx_main_v16 (ix5 b d i j o) k = ix2 o k := fun k => funext fun a => Fin.ext (by
    match a with
    | ⟨0, _⟩ => rfl
    | ⟨1, _⟩ => rfl)
  have eb : idx_main_v17 (idx_main_v18 (ix5 b d i j o)) = ix1 o := funext fun a => Fin.ext (by
    match a with
    | ⟨0, _⟩ => rfl)
  simp only [el, er, eb, v15_eq, Ideal.addf_def]
  unfold Cert.Spec.g
  exact congrArg (fun t => t + x6 (ix1 o)) (Finset.sum_congr rfl fun k _ => mul_comm _ _)

/-- The bit pattern of the reductions' initial value denotes the least extended real. -/
theorem ofBits_neg_inf : Ideal.ofBits .f32 0xFF800000#32 = (⊥ : EReal) := by simp [Ideal.ofBits, Ideal.ieee]

/-- Which five-coordinate indices drop to (b, d, o) when the two point axes are removed. -/
theorem drop_eq_iff (h : S4x4x128x128x256.ReducesTo [2, 3] S4x4x256) (q : S4x4x128x128x256.Idx) (b d : Fin 4) (o : Fin 256) :
    h.drop q = ix3 b d o ↔ q 0 = b ∧ q 1 = d ∧ q 4 = o := by
  have e0 := h.drop_apply_val_of_eq q 0 0
  have e1 := h.drop_apply_val_of_eq q 1 1
  have e2 := h.drop_apply_val_of_eq q 2 4
  constructor
  · intro e
    refine ⟨Fin.ext ?_, Fin.ext ?_, Fin.ext ?_⟩
    · rw [← e0, e]
    · rw [← e1, e]
    · rw [← e2, e]
  · rintro ⟨h0, h1, h4⟩
    funext c
    apply Fin.ext
    match c with
    | ⟨0, _⟩ => exact e0.trans (congrArg Fin.val h0)
    | ⟨1, _⟩ => exact e1.trans (congrArg Fin.val h1)
    | ⟨2, _⟩ => exact e2.trans (congrArg Fin.val h4)

/-- A maximum over the members of a family picked out by a condition, re-indexed: when `f` maps onto the members and
    `x ∘ f = y`, the maximum of `x` over the members is the maximum of `y`. -/
theorem sup_filter_reindex {ι κ : Type} [Fintype ι] [Fintype κ] (P : ι → Prop) [DecidablePred P] (x : ι → EReal)
    (y : κ → EReal) (f : κ → ι) (hf : ∀ k, P (f k)) (hx : ∀ k, x (f k) = y k) (hs : ∀ i, P i → ∃ k, f k = i) :
    (Finset.univ.filter P).sup x = Finset.univ.sup y := by
  apply le_antisymm
  · refine Finset.sup_le fun i hi => ?_
    obtain ⟨k, rfl⟩ := hs i (Finset.mem_filter.1 hi).2
    rw [hx]
    exact Finset.le_sup (Finset.mem_univ k)
  · refine Finset.sup_le fun k _ => ?_
    rw [← hx]
    exact Finset.le_sup (Finset.mem_filter.2 ⟨Finset.mem_univ _, hf k⟩)

/-- The maximum over the two point axes is the specification's maximum over all pairs of the cloud. -/
theorem v20_eq (b d : Fin 4) (o : Fin 256) :
    val_main_v20 (F := Ideal) x0 x1 x2 x3 x4 x5 x6 (ix3 b d o) = Cert.Spec.pool x0 x1 x2 x3 x4 x5 x6 (cl b d) o := by
  unfold val_main_v20
  rw [Host.reduce_eq_fold]
  have hb : val_main_cst (F := Ideal) (Shape.Idx.first Facts₀.h_S_) = (⊥ : EReal) := ofBits_neg_inf
  rw [hb]
  unfold Cert.Spec.pool
  exact sup_filter_reindex (fun q => Facts₀.reducesTo_S4x4x128x128x256_S4x4x256_d2_3.drop q = ix3 b d o)
    (val_main_v19 (F := Ideal) x0 x1 x2 x3 x4 x5 x6)
    (fun p : Fin 128 × Fin 128 => Cert.Spec.g x0 x1 x2 x3 x4 x5 x6 (cl b d) p.1 p.2 o)
    (fun p : Fin 128 × Fin 128 => ix5 b d p.1 p.2 o)
    (fun p => (drop_eq_iff _ _ b d o).2 ⟨rfl, rfl, rfl⟩)
    (fun p => v19_eq x0 x1 x2 x3 x4 x5 x6 b d p.1 p.2 o)
    (fun q hq => by
      obtain ⟨h0, h1, h4⟩ := (drop_eq_iff _ q b d o).1 hq
      exact ⟨((q 2 : Fin 128), (q 3 : Fin 128)), by rw [← h0, ← h1, ← h4]; exact (eq_ix5 q).symm⟩)

end Cert.ReferenceIdeal.RefSpec

end
-- ==== Proof.RefC.lean ====
/-
  The reference program's stages, read at explicit coordinates, are the specification's functions.
  Third part: the three final layers on the pooled maxima, the maximum over the four clouds of a batch, and the
  whole reference against the specification.
-/
import proofs.«102768_j73547019976967_2_alg».proof.Proof.RefB

noncomputable section

namespace Cert.ReferenceIdeal.RefSpec

open Cert.ReferenceIdeal Cert.ReferenceIdeal.Read Idealize.ShloMosaic Idealize.ShloMosaic.ValueIdx

variable (x0 : (⟨S4x512x3, .f32⟩ : BufTy).Contents (Elt Ideal)) (x1 : (⟨S64x6, .f32⟩ : BufTy).Contents (Elt Ideal))
  (x2 : (⟨S64, .f32⟩ : BufTy).Contents (Elt Ideal)) (x3 : (⟨S128x64, .f32⟩ : BufTy).Contents (Elt Ideal))
  (x4 : (⟨S128, .f32⟩ : BufTy).Contents (Elt Ideal)) (x5 : (⟨S256x128, .f32⟩ : BufTy).Contents (Elt Ideal))
  (x6 : (⟨S256, .f32⟩ : BufTy).Contents (Elt Ideal)) (x7 : (⟨S512x256, .f32⟩ : BufTy).Contents (Elt Ideal))
  (x8 : (⟨S512, .f32⟩ : BufTy).Contents (Elt Ideal)) (x9 : (⟨S256x512, .f32⟩ : BufTy).Contents (Elt Ideal))
  (x10 : (⟨S256, .f32⟩ : BufTy).Contents (Elt Ideal)) (x11 : (⟨S40x256, .f32⟩ : BufTy).Contents (Elt Ideal))
  (x12 : (⟨S40, .f32⟩ : BufTy).Contents (Elt Ideal))

/-- The first of the final layers, with its max(·, 0), on the pooled maxima of cloud `4 b + d`. -/
theorem v25_eq (b d : Fin 4) (o : Fin 512) :
    val_main_v25 (F := Ideal) x0 x1 x2 x3 x4 x5 x6 x7 x8 (ix3 b d o)
      = Cert.Spec.y1B (Cert.Spec.pool x0 x1 x2 x3 x4 x5 x6 (cl b d)) x7 x8 o := by
  rw [val_main_v25_apply, val_main_v24_apply, val_main_v21_apply, val_main_v23_apply, val_main_v22_apply,
    val_main_call2_v0_apply, val_main_call2_cst_apply]
  have el : ∀ k : Fin 256, lidx_main_v21 (ix3 b d o) k = ix3 b d k := fun k => funext fun a => Fin.ext (by
    match a with
    | ⟨0, _⟩ => rfl
    | ⟨1, _⟩ => rfl
    | ⟨2, _⟩ => rfl)
  have er : ∀ k : Fin 256, ridx_main_v21 (ix3 b d o) k = ix2 o k := fun k => funext fun a => Fin.ext (by
    match a with
    | ⟨0, _⟩ => rfl
    | ⟨1, _⟩ => rfl)
  have eb : idx_main_v22 (idx_main_v23 (ix3 b d o)) = ix1 o := funext fun a => Fin.ext (by
    match a with
    | ⟨0, _⟩ => rfl)
  simp only [el, er, eb, v20_eq, Ideal.maximumf_def, Ideal.addf_def, Ideal.ofBits_def, Ideal.ofBits_zero_f32]
  unfold Cert.Spec.y1B
  exact congrArg (fun t => max (t + x8 (ix1 o)) 0) (Finset.sum_congr rfl fun k _ => mul_comm _ _)

/-- The second of the final layers, with its max(·, 0). -/
theorem v30_eq (b d : Fin 4) (o : Fin 256) :
    val_main_v30 (F := Ideal) x0 x1 x2 x3 x4 x5 x6 x7 x8 x9 x10 (ix3 b d o)
      = Cert.Spec.y2B (Cert.Spec.pool x0 x1 x2 x3 x4 x5 x6 (cl b d)) x7 x8 x9 x10 o := by
  rw [val_main_v30_apply, val_main_v29_apply, val_main_v26_apply, val_main_v28_apply, val_main_v27_apply,
    val_main_call3_v0_apply, val_main_call3_cst_apply]
  have el : ∀ k : Fin 512, lidx_main_v26 (ix3 b d o) k = ix3 b d k := fun k => funext fun a => Fin.ext (by
    match a with
    | ⟨0, _⟩ => rfl
    | ⟨1, _⟩ => rfl
    | ⟨2, _⟩ => rfl)
  have er : ∀ k : Fin 512, ridx_main_v26 (ix3 b d o) k = ix2 o k := fun k => funext fun a => Fin.ext (by
    match a with
    | ⟨0, _⟩ => rfl
    | ⟨1, _⟩ => rfl)
  have eb : idx_main_v27 (idx_main_v28 (ix3 b d o)) = ix1 o := funext fun a => Fin.ext (by
    match a with
    | ⟨0, _⟩ => rfl)
  simp only [el, er, eb, v25_eq, Ideal.maximumf_def, Ideal.addf_def, Ideal.ofBits_def, Ideal.ofBits_zero_f32]
  unfold Cert.Spec.y2B
  exact congrArg (fun t => max (t + x10 (ix1 o)) 0) (Finset.sum_congr rfl fun k _ => mul_comm _ _)

/-- The last layer: the 40 outputs of cloud `4 b + d`. -/
theorem v34_eq (b d : Fin 4) (o : Fin 40) :
    val_main_v34 (F := Ideal) x0 x1 x2 x3 x4 x5 x6 x7 x8 x9 x10 x11 x12 (ix3 b d o)
      = Cert.Spec.cloudOut x0 x1 x2 x3 x4 x5 x6 x7 x8 x9 x10 x11 x12 (cl b d) o := by
  rw [val_main_v34_apply, val_main_v31_apply, val_main_v33_apply, val_main_v32_apply]
  have el : ∀ k : Fin 256, lidx_main_v31 (ix3 b d o) k = ix3 b d k := fun k => funext fun a => Fin.ext (by
    match a with
    | ⟨0, _⟩ => rfl
    | ⟨1, _⟩ => rfl
    | ⟨2, _⟩ => rfl)
  have er : ∀ k : Fin 256, ridx_main_v31 (ix3 b d o) k = ix2 o k := fun k => funext fun a => Fin.ext (by
    match a with
    | ⟨0, _⟩ => rfl
    | ⟨1, _⟩ => rfl)
  have eb : idx_main_v32 (idx_main_v33 (ix3 b d o)) = ix1 o := funext fun a => Fin.ext (by
    match a with
    | ⟨0, _⟩ => rfl)
  simp only [el, er, eb, v30_eq, Ideal.addf_def]
  unfold Cert.Spec.cloudOut Cert.Spec.headB
  exact congrArg (fun t => t + x12 (ix1 o)) (Finset.sum_congr rfl fun k _ => mul_comm _ _)

/-- Which three-coordinate indices drop to (b, o) when the cloud axis is removed. -/
theorem drop1_eq_iff (h : S4x4x40.ReducesTo [1] S4x40) (q : S4x4x40.Idx) (b : Fin 4) (o : Fin 40) :
    h.drop q = ix2 b o ↔ q 0 = b ∧ q 2 = o := by
  have e0 := h.drop_apply_val_of_eq q 0 0
  have e1 := h.drop_apply_val_of_eq q 1 2
  constructor
  · intro e
    refine ⟨Fin.ext ?_, Fin.ext ?_⟩
    · rw [← e0, e]
    · rw [← e1, e]
  · rintro ⟨h0, h2⟩
    funext c
    apply Fin.ext
    match c with
    | ⟨0, _⟩ => exact e0.trans (congrArg Fin.val h0)
    | ⟨1, _⟩ => exact e1.trans (congrArg Fin.val h2)

/-- The maximum over the cloud axis is the specification's maximum over the four clouds of the batch. -/
theorem v35_eq (b : Fin 4) (o : Fin 40) :
    val_main_v35 (F := Ideal) x0 x1 x2 x3 x4 x5 x6 x7 x8 x9 x10 x11 x12 (ix2 b o)
      = Cert.Spec.result x0 x1 x2 x3 x4 x5 x6 x7 x8 x9 x10 x11 x12 (ix2 b o) := by
  unfold val_main_v35
  rw [Host.reduce_eq_fold]
  have hb : val_main_cst_0 (F := Ideal) (Shape.Idx.first Facts₀.h_S_) = (⊥ : EReal) := ofBits_neg_inf
  rw [hb]
  show _ = Finset.univ.sup fun d : Fin 4 => Cert.Spec.cloudOut x0 x1 x2 x3 x4 x5 x6 x7 x8 x9 x10 x11 x12 (cl b d) o
  exact sup_filter_reindex (fun q => Facts₀.reducesTo_S4x4x40_S4x40_d1.drop q = ix2 b o)
    (val_main_v34 (F := Ideal) x0 x1 x2 x3 x4 x5 x6 x7 x8 x9 x10 x11 x12)
    (fun d : Fin 4 => Cert.Spec.cloudOut x0 x1 x2 x3 x4 x5 x6 x7 x8 x9 x10 x11 x12 (cl b d) o)
    (fun d : Fin 4 => ix3 b d o)
    (fun d => (drop1_eq_iff _ _ b o).2 ⟨rfl, rfl⟩)
    (fun d => v34_eq x0 x1 x2 x3 x4 x5 x6 x7 x8 x9 x10 x11 x12 b d o)
    (fun q hq => by
      obtain ⟨h0, h2⟩ := (drop1_eq_iff _ q b o).1 hq
      exact ⟨(q 1 : Fin 4), by rw [← h0, ← h2]; exact (eq_ix3 q).symm⟩)

end Cert.ReferenceIdeal.RefSpec

end
-- ==== Proof.RefSpec.lean ====
/-
  The reference program computes the specification: its result array, as a function of the thirteen argument
  arrays over the extended reals, is `Cert.Spec.result` of them.
-/
import proofs.«102768_j73547019976967_2_alg».proof.Proof.Gen.ReferenceIdeal.Read
import proofs.«102768_j73547019976967_2_alg».proof.Proof.Spec
import proofs.«102768_j73547019976967_2_alg».proof.Proof.RefC

noncomputable section

namespace Cert.ReferenceIdeal.RefSpec

open Cert.ReferenceIdeal Cert.ReferenceIdeal.Read Idealize.ShloMosaic Idealize.ShloMosaic.ValueIdx

/-- The reference's result is the specification's, at every index (batch, output). -/
theorem ref_is_spec (x0 : (⟨S4x512x3, .f32⟩ : BufTy).Contents (Elt Ideal)) (x1 : (⟨S64x6, .f32⟩ : BufTy).Contents (Elt Ideal))
    (x2 : (⟨S64, .f32⟩ : BufTy).Contents (Elt Ideal)) (x3 : (⟨S128x64, .f32⟩ : BufTy).Contents (Elt Ideal))
    (x4 : (⟨S128, .f32⟩ : BufTy).Contents (Elt Ideal)) (x5 : (⟨S256x128, .f32⟩ : BufTy).Contents (Elt Ideal))
    (x6 : (⟨S256, .f32⟩ : BufTy).Contents (Elt Ideal)) (x7 : (⟨S512x256, .f32⟩ : BufTy).Contents (Elt Ideal))
    (x8 : (⟨S512, .f32⟩ : BufTy).Contents (Elt Ideal)) (x9 : (⟨S256x512, .f32⟩ : BufTy).Contents (Elt Ideal))
    (x10 : (⟨S256, .f32⟩ : BufTy).Contents (Elt Ideal)) (x11 : (⟨S40x256, .f32⟩ : BufTy).Contents (Elt Ideal))
    (x12 : (⟨S40, .f32⟩ : BufTy).Contents (Elt Ideal)) :
    Cert.ReferenceIdeal.Read.val_main_v35 (F := Ideal) x0 x1 x2 x3 x4 x5 x6 x7 x8 x9 x10 x11 x12
      = Cert.Spec.result x0 x1 x2 x3 x4 x5 x6 x7 x8 x9 x10 x11 x12 := by
  funext q
  obtain ⟨b, o, rfl⟩ : ∃ b o, q = ix2 b o := ⟨q 0, q 1, eq_ix2 q⟩
  exact v35_eq x0 x1 x2 x3 x4 x5 x6 x7 x8 x9 x10 x11 x12 b o

end Cert.ReferenceIdeal.RefSpec

end
-- ==== Proof.lean ====
/-
  The certificate: the Pallas kernel of a pairwise point-cloud network against its jnp reference, over the extended reals.

  Both programs compute, for 16 clouds of 128 points, a three-layer map of every ordered pair of points of a cloud,
  its channel-wise maximum over the cloud's pairs, three more layers, and the maximum over the four clouds of a batch
  (Proof/Spec.lean). The kernel splits the first layer's six input columns 3 + 3 (one matrix product per point instead
  of one per pair) and takes the pair maximum chunk by chunk into a running maximum; on the extended reals a sum of six
  terms is the sum of its two halves and a maximum over a set is the maximum of the maxima over its parts, so the two
  results are one function of the arguments. Neither law needs the inputs to be finite.

  The three frames: each program terminates without fault with its arguments unchanged. The kernel's two windows on the
  array of points share that array, each holding half of its share (Proof/KLaunchA.lean, Proof/KILaunchA.lean); the body's
  obligation to the pipeline is proved at every grid position from three symbolic runs of the body (first, middle and
  last chunk of a cloud). The ideal pass rewrote no operation, so the idealization claim has nothing to state.
-/
import proofs.«102768_j73547019976967_2_alg».proof.Defs
import proofs.«102768_j73547019976967_2_alg».proof.Proof.Gen.Kernel
import proofs.«102768_j73547019976967_2_alg».proof.Proof.Gen.Kernel.Skeleton
import proofs.«102768_j73547019976967_2_alg».proof.Proof.Gen.Kernel.Launch
import proofs.«102768_j73547019976967_2_alg».proof.Proof.Gen.Kernel.Points
import proofs.«102768_j73547019976967_2_alg».proof.Proof.Gen.KernelIdeal
import proofs.«102768_j73547019976967_2_alg».proof.Proof.Gen.KernelIdeal.Skeleton
import proofs.«102768_j73547019976967_2_alg».proof.Proof.Gen.KernelIdeal.Launch
import proofs.«102768_j73547019976967_2_alg».proof.Proof.Gen.KernelIdeal.Points
import proofs.«102768_j73547019976967_2_alg».proof.Proof.Gen.ReferenceIdeal
import proofs.«102768_j73547019976967_2_alg».proof.Proof.Gen.ReferenceIdeal.Run
import proofs.«102768_j73547019976967_2_alg».proof.Proof.Gen.ReferenceIdeal.Read
import proofs.«102768_j73547019976967_2_alg».proof.Proof.Gen.Pre_finite_inputs
import proofs.«102768_j73547019976967_2_alg».proof.Proof.KKept
import proofs.«102768_j73547019976967_2_alg».proof.Proof.KIResult
import proofs.«102768_j73547019976967_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ =>
  (θ_run Cert.Kernel.defs _ _).mono (fun _ h c => Cert.Kernel.Hand.kept_of_post m h c) (Cert.Kernel.Hand.run_main (F := Bits) m ρ)

/-- So does its idealization. -/
theorem frame_ki : Cert.frame_KernelIdeal := fun m ρ _ =>
  (θ_run Cert.KernelIdeal.defs _ _).mono (fun _ h c => Cert.KernelIdeal.Hand.kept_of_post m h c) (Cert.KernelIdeal.Hand.run_main (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's result of them. -/
theorem algebraic : Cert.algebraic_KernelIdeal_ReferenceIdeal := by
  intro m ρ m' ρ' _ hagree
  refine ⟨fun c => Cert.KernelIdeal.Hand.Wend m c (Proc.devRef .tc Cert.KernelIdeal.main_v6), ?_, ?_⟩
  · exact (θ_run Cert.KernelIdeal.defs _ _).mono
      (fun _ h c => ⟨Cert.KernelIdeal.Hand.result_of_post m h c, Cert.KernelIdeal.Hand.kept_of_post m h c⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefSpec.ref_is_spec,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]
    exact (Cert.KernelIdeal.Hand.result_spec m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
